-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x32 : Shape := ⟨2, ![1000000, 32]⟩
abbrev S1x1 : Shape := ⟨2, ![1, 1]⟩
abbrev S32x16 : Shape := ⟨2, ![32, 16]⟩
abbrev S16 : Shape := ⟨1, ![16]⟩
abbrev S16x1 : Shape := ⟨2, ![16, 1]⟩
abbrev S1 : Shape := ⟨1, ![1]⟩
abbrev S33x16 : Shape := ⟨2, ![33, 16]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_
  bcast_S_S33x16 : S_.BroadcastsInDim S33x16 (![] : Fin 0 → Fin S33x16.rank)
  reducesTo_S33x16_S_d0_1 : S33x16.ReducesTo [0, 1] S_

variable [Facts]

def fn_part3 {F : FTy → Type} [FloatOps F] (main_arg11 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1 .f32) (main_arg8 : FVec F S33x16 .f32) (main_arg9 : FVec F S16 .f32) (main_arg10 : FVec F S16x1 .f32) (main_arg11 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S33x16 .f32 := Host.absf main_arg8
  let main_cst_14 : FVec F S_ .f32 := constant S_ .f32 0x7F800000#32
  let main_v40 : FVec F S33x16 .f32 := broadcastInDim S33x16 ![] bcast_S_S33x16 main_cst_14
  let main_v41 : IVec S33x16 1 := cmpf .olt main_v39 main_v40
  let main_c_15 : IVec S_ 1 := constantI S_ 1 1#1
  let main_v42 : IVec S_ 1 := (fun x v => Host.reduce IntOp.andi x v reducesTo_S33x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x1 .f32 := Host.absf main_arg10
  let main_cst_18 : FVec F S_ .f32 := constant S_ .f32 0x7F800000#32
  let main_v50 : FVec F S16x1 .f32 := broadcastInDim S16x1 ![] bcast_S_S16x1 main_cst_18
  fn_part3 (F := F) main_arg11 main_v48 main_v49 main_v50

def fn_part1 {F : FTy → Type} [FloatOps F] (main_arg4 : FVec F S32x16 .f32) (main_arg5 : FVec F S16 .f32) (main_arg6 : FVec F S16x1 .f32) (main_arg7 : FVec F S1 .f32) (main_arg8 : FVec F S33x16 .f32) (main_arg9 : FVec F S16 .f32) (main_arg10 : FVec F S16x1 .f32) (main_arg11 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg6
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1000000x32 .f32) (main_arg1 : FVec F S1x1 .f32) (main_arg2 : FVec F S32x16 .f32) (main_arg3 : FVec F S16 .f32) (main_arg4 : FVec F S32x16 .f32) (main_arg5 : FVec F S16 .f32) (main_arg6 : FVec F S16x1 .f32) (main_arg7 : FVec F S1 .f32) (main_arg8 : FVec F S33x16 .f32) (main_arg9 : FVec F S16 .f32) (main_arg10 : FVec F S16x1 .f32) (main_arg11 : FVec F S1 .f32) : IVec S_ 1 :=
  let main_v0 : FVec F S1000000x32 .f32 := Host.absf main_arg0
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S32x16 .f32 := Host.absf main_arg2
  let main_cst_2 : FVec F S_ .f32 := constant S_ .f32 0x7F800000#32
  let main_v10 : FVec F S32x16 .f32 := broadcastInDim S32x16 ![] bcast_S_S32x16 main_cst_2
  let main_v11 : IVec S32x16 1 := cmpf .olt main_v9 main_v10
  let main_c_3 : IVec S_ 1 := constantI S_ 1 1#1
  let main_v12 : IVec S_ 1 := (fun x v => Host.reduce IntOp.andi x v reducesTo_S32x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_v13 main_v16
-- ==== Kernel.lean ====
abbrev S1000000x32 : Shape := ⟨2, ![1000000, 32]⟩
abbrev S1x1 : Shape := ⟨2, ![1, 1]⟩
abbrev S32x16 : Shape := ⟨2, ![32, 16]⟩
abbrev S16 : Shape := ⟨1, ![16]⟩
abbrev S16x1 : Shape := ⟨2, ![16, 1]⟩
abbrev S1 : Shape := ⟨1, ![1]⟩
abbrev S33x16 : Shape := ⟨2, ![33, 16]⟩
abbrev S1x16 : Shape := ⟨2, ![1, 16]⟩
abbrev S1000000x1 : Shape := ⟨2, ![1000000, 1]⟩
abbrev S1x32 : Shape := ⟨2, ![1, 32]⟩
abbrev S8000x32 : Shape := ⟨2, ![8000, 32]⟩
abbrev S8000x1 : Shape := ⟨2, ![8000, 1]⟩
abbrev S8000x16 : Shape := ⟨2, ![8000, 16]⟩
abbrev S32 : Shape := ⟨1, ![32]⟩
abbrev S1x1000000 : Shape := ⟨2, ![1, 1000000]⟩
abbrev S1x33 : Shape := ⟨2, ![1, 33]⟩
abbrev S_ : Shape := ⟨0, ![]⟩

abbrev nBuf : Space → Nat
  | .hbm => 36
  | .vmem => 19
  | .smem => 0
  | _ => 0

abbrev bufTy : (tb : Table) → Fin (tcTables nBuf tb) → BufTy
  | .hbm, ⟨0, _⟩ => ⟨S1000000x32, .f32⟩
  | .hbm, ⟨1, _⟩ => ⟨S1x1, .f32⟩
  | .hbm, ⟨2, _⟩ => ⟨S32x16, .f32⟩
  | .hbm, ⟨3, _⟩ => ⟨S16, .f32⟩
  | .hbm, ⟨4, _⟩ => ⟨S32x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S33x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S32x16, .bf16⟩
  | .hbm, ⟨13, _⟩ => ⟨S32x16, .bf16⟩
  | .hbm, ⟨14, _⟩ => ⟨S16x1, .bf16⟩
  | .hbm, ⟨15, _⟩ => ⟨S1x16, .f32⟩
  | .hbm, ⟨16, _⟩ => ⟨S1x16, .f32⟩
  | .hbm, ⟨17, _⟩ => ⟨S1x1, .f32⟩
  | .hbm, ⟨18, _⟩ => ⟨S1000000x1, .f32⟩
  | .hbm, ⟨19, _⟩ => ⟨S1x1, .f32⟩
  | .hbm, ⟨20, _⟩ => ⟨S1x1, .f32⟩
  | .hbm, ⟨21, _⟩ => ⟨S1x32, .f32⟩
  | .hbm, ⟨22, _⟩ => ⟨S1000000x1, .f32⟩
  | .hbm, ⟨23, _⟩ => ⟨S1x1000000, .f32⟩
  | .hbm, ⟨24, _⟩ => ⟨S1x32, .f32⟩
  | .hbm, ⟨25, _⟩ => ⟨S1x32, .f32⟩
  | .hbm, ⟨26, _⟩ => ⟨S1x33, .f32⟩
  | .hbm, ⟨27, _⟩ => ⟨S1x16, .f32⟩
  | .hbm, ⟨28, _⟩ => ⟨S1x16, .f32⟩
  | .hbm, ⟨29, _⟩ => ⟨S1x16, .f32⟩
  | .hbm, ⟨30, _⟩ => ⟨S_, .f32⟩
  | .hbm, ⟨31, _⟩ => ⟨S1x16, .f32⟩
  | .hbm, ⟨32, _⟩ => ⟨S1x16, .f32⟩
  | .hbm, ⟨33, _⟩ => ⟨S1x1, .f32⟩
  | .hbm, ⟨34, _⟩ => ⟨S1x1, .f32⟩
  | .hbm, ⟨35, _⟩ => ⟨S1x1, .f32⟩
  | .local _ .vmem, ⟨0, _⟩ => ⟨S8000x32, .f32⟩
  | .local _ .vmem, ⟨1, _⟩ => ⟨S8000x32, .f32⟩
  | .local _ .vmem, ⟨2, _⟩ => ⟨S32x16, .bf16⟩
  | .local _ .vmem, ⟨3, _⟩ => ⟨S1x16, .f32⟩
  | .local _ .vmem, ⟨4, _⟩ => ⟨S32x16, .bf16⟩
  | .local _ .vmem, ⟨5, _⟩ => ⟨S1x16, .f32⟩
  | .local _ .vmem, ⟨6, _⟩ => ⟨S16x1, .bf16⟩
  | .local _ .vmem, ⟨7, _⟩ => ⟨S1x1, .f32⟩
  | .local _ .vmem, ⟨8, _⟩ => ⟨S8000x1, .f32⟩
  | .local _ .vmem, ⟨9, _⟩ => ⟨S8000x1, .f32⟩
  | .local _ .vmem, ⟨10, _⟩ => ⟨S1x1, .f32⟩
  | .local _ .vmem, ⟨11, _⟩ => ⟨S1x1, .f32⟩
  | .local _ .vmem, ⟨12, _⟩ => ⟨S1x32, .f32⟩
  | .local _ .vmem, ⟨13, _⟩ => ⟨S8000x1, .f32⟩
  | .local _ .vmem, ⟨14, _⟩ => ⟨S8000x1, .f32⟩
  | .local _ .vmem, ⟨15, _⟩ => ⟨S1x1, .f32⟩
  | .local _ .vmem, ⟨16, _⟩ => ⟨S1x1, .f32⟩
  | .local _ .vmem, ⟨17, _⟩ => ⟨S8000x1, .f32⟩
  | .local _ .vmem, ⟨18, _⟩ => ⟨S8000x1, .f32⟩
  | _, _ => ⟨S1000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_call0_cst : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem10_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S16_S1x16 : S16.ShapeCasts S1x16
  shapeCasts_S1_S1x1 : S1.ShapeCasts S1x1
  inb_S1x1_S1x1_0_0 : ∀ a, (![0, 0] : Fin 2 → Nat) a + S1x1.size a ≤ S1x1.size a
  h_S1x1 : 0 < S1x1.numel
  inb_S1x32_S1x32_0_0 : ∀ a, (![0, 0] : Fin 2 → Nat) a + S1x32.size a ≤ S1x32.size a
  h_S1x32 : 0 < S1x32.numel
  inb_S8000x32_S8000x32_0_0 : ∀ a, (![0, 0] : Fin 2 → Nat) a + S8000x32.size a ≤ S8000x32.size a
  h_S8000x32 : 0 < S8000x32.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  reduces_S8000x1_S1 : S8000x1.Reduces [0] S1
  broadcasts_S8000x1_S8000x32 : S8000x1.Broadcasts S8000x32
  reduces_S8000x32_S32 : S8000x32.Reduces [0] S32
  shapeCasts_S32_S1x32 : S32.ShapeCasts S1x32
  shapeCasts_S1x32_S1x32 : S1x32.ShapeCasts S1x32
  broadcasts_S1x1_S1x32 : S1x1.Broadcasts S1x32
  shapeCasts_S8000x1_S8000x1 : S8000x1.ShapeCasts S8000x1
  transposes_S1000000x1_S1x1000000_1_0 : S1000000x1.Transposes [1, 0] S1x1000000
  bcast_S1x1_S1x32_0_1 : S1x1.BroadcastsInDim S1x32 (![0, 1] : Fin 2 → Fin S1x32.rank)
  concatenates_S1x32_S1x1_S1x33_d1 : Shape.Concatenates [S1x32, S1x1] S1x33 1
  bcast_S16_S1x16_1 : S16.BroadcastsInDim S1x16 (![1] : Fin 1 → Fin S1x16.rank)
  bcast_S_S1x16 : S_.BroadcastsInDim S1x16 (![] : Fin 0 → Fin S1x16.rank)
  bcast_S1_S1x1_1 : S1.BroadcastsInDim S1x1 (![1] : Fin 1 → Fin S1x1.rank)
  dot_S8000x32_S32x16_S8000x16_1_0_0_1_n_n_wf : DotDims.WF S8000x32 S32x16 S8000x16 [1] [0] [0] [1] [] []
  dot_S8000x16_S16x1_S8000x1_1_0_0_1_n_n_wf : DotDims.WF S8000x16 S16x1 S8000x1 [1] [0] [0] [1] [] []
  dot_S1x33_S33x16_S1x16_1_0_0_1_n_n_wf : DotDims.WF S1x33 S33x16 S1x16 [1] [0] [0] [1] [] []
  dot_S1x16_S16x1_S1x1_1_0_0_1_n_n_wf : DotDims.WF S1x16 S16x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1000000x32.size a
  hwx0_0 : ∀ i : grid0.Coords, EltTy.bits .f32 = 32 ∨ (Rect.block (s := S1000000x32) S8000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x16.size a ≤ S32x16.size a
  hwx0_1 : ∀ i : grid0.Coords, EltTy.bits .bf16 = 32 ∨ (Rect.block (s := S32x16) S32x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .bf16 = 32 ∨ (Rect.block (s := S32x16) S32x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .bf16 = 32 ∨ (Rect.block (s := S16x1) S16x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x1.size a ≤ S1000000x1.size a
  hwx0_7 : ∀ i : grid0.Coords, EltTy.bits .f32 = 32 ∨ (Rect.block (s := S1000000x1) S8000x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S1000000x1.size a
  hwx1_0 : ∀ i : grid1.Coords, EltTy.bits .f32 = 32 ∨ (Rect.block (s := S1000000x1) S8000x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x1.size a ≤ S1000000x1.size a
  hwx1_3 : ∀ i : grid1.Coords, EltTy.bits .f32 = 32 ∨ (Rect.block (s := S1000000x1) S8000x1.size (cc1_transform_3 i) (hinb1_3 i)).WholeWords (EltTy.packing .f32)

variable [Facts₀]

def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf
def dot_S8000x16_S16x1_S8000x1_1_0_0_1_n_n : DotDims S8000x16 S16x1 S8000x1 where
  lhsContracting := [1]
  rhsContracting := [0]
  lhsNonContracting := [0]
  rhsNonContracting := [1]
  lhsBatch := []
  rhsBatch := []
  wf := dot_S8000x16_S16x1_S8000x1_1_0_0_1_n_n_wf
def dot_S1x33_S33x16_S1x16_1_0_0_1_n_n : DotDims S1x33 S33x16 S1x16 where
  lhsContracting := [1]
  rhsContracting := [0]
  lhsNonContracting := [0]
  rhsNonContracting := [1]
  lhsBatch := []
  rhsBatch := []
  wf := dot_S1x33_S33x16_S1x16_1_0_0_1_n_n_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf

abbrev win0_0 : Pipeline.Window sig grid0 :=
  Pipeline.Window.ofSpec (Memref.whole main_arg0) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S8000x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x1.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x1.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_3) S1x32.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v6_0) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x32 : Shape := ⟨2, ![1000000, 32]⟩
abbrev S1x1 : Shape := ⟨2, ![1, 1]⟩
abbrev S32x16 : Shape := ⟨2, ![32, 16]⟩
abbrev S16 : Shape := ⟨1, ![16]⟩
abbrev S16x1 : Shape := ⟨2, ![16, 1]⟩
abbrev S1 : Shape := ⟨1, ![1]⟩
abbrev S33x16 : Shape := ⟨2, ![33, 16]⟩
abbrev S1000000x16 : Shape := ⟨2, ![1000000, 16]⟩
abbrev S1x16 : Shape := ⟨2, ![1, 16]⟩
abbrev S_ : Shape := ⟨0, ![]⟩
abbrev S1000000x1 : Shape := ⟨2, ![1000000, 1]⟩
abbrev S1x1000000 : Shape := ⟨2, ![1, 1000000]⟩
abbrev S1x32 : Shape := ⟨2, ![1, 32]⟩
abbrev S1x33 : Shape := ⟨2, ![1, 33]⟩

abbrev nBuf : Space → Nat
  | .hbm => 60
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1x1, .f32⟩
  | .hbm, ⟨2, _⟩ => ⟨S32x16, .f32⟩
  | .hbm, ⟨3, _⟩ => ⟨S16, .f32⟩
  | .hbm, ⟨4, _⟩ => ⟨S32x16, .f32⟩
  | .hbm, ⟨5, _⟩ => ⟨S16, .f32⟩
  | .hbm, ⟨6, _⟩ => ⟨S16x1, .f32⟩
  | .hbm, ⟨7, _⟩ => ⟨S1, .f32⟩
  | .hbm, ⟨8, _⟩ => ⟨S33x16, .f32⟩
  | .hbm, ⟨9, _⟩ => ⟨S16, .f32⟩
  | .hbm, ⟨10, _⟩ => ⟨S16x1, .f32⟩
  | .hbm, ⟨11, _⟩ => ⟨S1, .f32⟩
  | .hbm, ⟨12, _⟩ => ⟨S1000000x16, .f32⟩
  | .hbm, ⟨13, _⟩ => ⟨S1x16, .f32⟩
  | .hbm, ⟨14, _⟩ => ⟨S1000000x16, .f32⟩
  | .hbm, ⟨15, _⟩ => ⟨S1000000x16, .f32⟩
  | .hbm, ⟨16, _⟩ => ⟨S1000000x16, .f32⟩
  | .hbm, ⟨17, _⟩ => ⟨S1000000x16, .f32⟩
  | .hbm, ⟨18, _⟩ => ⟨S1x16, .f32⟩
  | .hbm, ⟨19, _⟩ => ⟨S1000000x16, .f32⟩
  | .hbm, ⟨20, _⟩ => ⟨S1000000x16, .f32⟩
  | .hbm, ⟨21, _⟩ => ⟨S1000000x16, .f32⟩
  | .hbm, ⟨22, _⟩ => ⟨S1000000x16, .f32⟩
  | .hbm, ⟨23, _⟩ => ⟨S_, .f32⟩
  | .hbm, ⟨24, _⟩ => ⟨S1000000x16, .f32⟩
  | .hbm, ⟨25, _⟩ => ⟨S1000000x16, .f32⟩
  | .hbm, ⟨26, _⟩ => ⟨S_, .f32⟩
  | .hbm, ⟨27, _⟩ => ⟨S1000000x16, .f32⟩
  | .hbm, ⟨28, _⟩ => ⟨S1000000x16, .f32⟩
  | .hbm, ⟨29, _⟩ => ⟨S1000000x16, .f32⟩
  | .hbm, ⟨30, _⟩ => ⟨S1000000x1, .f32⟩
  | .hbm, ⟨31, _⟩ => ⟨S1x1, .f32⟩
  | .hbm, ⟨32, _⟩ => ⟨S1000000x1, .f32⟩
  | .hbm, ⟨33, _⟩ => ⟨S1000000x1, .f32⟩
  | .hbm, ⟨34, _⟩ => ⟨S1x1000000, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S1x1, .f32⟩
  | .hbm, ⟨41, _⟩ => ⟨S1x1000000, .f32⟩
  | .hbm, ⟨42, _⟩ => ⟨S1x1000000, .f32⟩
  | .hbm, ⟨43, _⟩ => ⟨S1x1000000, .f32⟩
  | .hbm, ⟨44, _⟩ => ⟨S_, .f32⟩
  | .hbm, ⟨45, _⟩ => ⟨S1, .f32⟩
  | .hbm, ⟨46, _⟩ => ⟨S1x1, .f32⟩
  | .hbm, ⟨47, _⟩ => ⟨S1x1000000, .f32⟩
  | .hbm, ⟨48, _⟩ => ⟨S1x1000000, .f32⟩
  | .hbm, ⟨49, _⟩ => ⟨S1x32, .f32⟩
  | .hbm, ⟨50, _⟩ => ⟨S1x33, .f32⟩
  | .hbm, ⟨51, _⟩ => ⟨S1x16, .f32⟩
  | .hbm, ⟨52, _⟩ => ⟨S1x16, .f32⟩
  | .hbm, ⟨53, _⟩ => ⟨S1x16, .f32⟩
  | .hbm, ⟨54, _⟩ => ⟨S_, .f32⟩
  | .hbm, ⟨55, _⟩ => ⟨S1x16, .f32⟩
  | .hbm, ⟨56, _⟩ => ⟨S1x16, .f32⟩
  | .hbm, ⟨57, _⟩ => ⟨S1x1, .f32⟩
  | .hbm, ⟨58, _⟩ => ⟨S1x1, .f32⟩
  | .hbm, ⟨59, _⟩ => ⟨S1x1, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  transposes_S1000000x1_S1x1000000_1_0 : S1000000x1.Transposes [1, 0] S1x1000000
  reducesTo_S1x1000000_S1_d1 : S1x1000000.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x1000000_0_1 : S1x1.BroadcastsInDim S1x1000000 (![0, 1] : Fin 2 → Fin S1x1000000.rank)
  concatenates_S1x32_S1x1_S1x33_d1 : Shape.Concatenates [S1x32, S1x1] S1x33 1
  bcast_S_S1x16 : S_.BroadcastsInDim S1x16 (![] : Fin 0 → Fin S1x16.rank)
  dot_S1000000x32_S32x16_S1000000x16_1_0_0_1_n_n_wf : DotDims.WF S1000000x32 S32x16 S1000000x16 [1] [0] [0] [1] [] []
  dot_S1000000x16_S16x1_S1000000x1_1_0_0_1_n_n_wf : DotDims.WF S1000000x16 S16x1 S1000000x1 [1] [0] [0] [1] [] []
  dot_S1x1000000_S1000000x32_S1x32_1_0_0_1_n_n_wf : DotDims.WF S1x1000000 S1000000x32 S1x32 [1] [0] [0] [1] [] []
  dot_S1x33_S33x16_S1x16_1_0_0_1_n_n_wf : DotDims.WF S1x33 S33x16 S1x16 [1] [0] [0] [1] [] []
  dot_S1x16_S16x1_S1x1_1_0_0_1_n_n_wf : DotDims.WF S1x16 S16x1 S1x1 [1] [0] [0] [1] [] []

variable [Facts₀]

def dot_S1000000x32_S32x16_S1000000x16_1_0_0_1_n_n : DotDims S1000000x32 S32x16 S1000000x16 where
  lhsContracting := [1]
  rhsContracting := [0]
  lhsNonContracting := [0]
  rhsNonContracting := [1]
  lhsBatch := []
  rhsBatch := []
  wf := dot_S1000000x32_S32x16_S1000000x16_1_0_0_1_n_n_wf
def dot_S1000000x16_S16x1_S1000000x1_1_0_0_1_n_n : DotDims S1000000x16 S16x1 S1000000x1 where
  lhsContracting := [1]
  rhsContracting := [0]
  lhsNonContracting := [0]
  rhsNonContracting := [1]
  lhsBatch := []
  rhsBatch := []
  wf := dot_S1000000x16_S16x1_S1000000x1_1_0_0_1_n_n_wf
def dot_S1x1000000_S1000000x32_S1x32_1_0_0_1_n_n : DotDims S1x1000000 S1000000x32 S1x32 where
  lhsContracting := [1]
  rhsContracting := [0]
  lhsNonContracting := [0]
  rhsNonContracting := [1]
  lhsBatch := []
  rhsBatch := []
  wf := dot_S1x1000000_S1000000x32_S1x32_1_0_0_1_n_n_wf
def dot_S1x33_S33x16_S1x16_1_0_0_1_n_n : DotDims S1x33 S33x16 S1x16 where
  lhsContracting := [1]
  rhsContracting := [0]
  lhsNonContracting := [0]
  rhsNonContracting := [1]
  lhsBatch := []
  rhsBatch := []
  wf := dot_S1x33_S33x16_S1x16_1_0_0_1_n_n_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf

class Facts : Prop extends Facts₀ where

variable [Facts]
-- ==== Proof.KRun.lean ====
/- The kernel's run with its result buffers named: every weakly fair execution of @main from the launch memory
   ends with the two result buffers at the last boundary fold `W6` and the twelve arguments as launched; then what
   the fold holds at each buffer a window of either region reads, at the boundary between the regions, and through
   the host operations after the second region. -/
import proofs.«117047_j15135464751637_2_alg».proof.Proof.Gen.KernelIdeal.Frame
import Idealize.ShloMosaic.Lib.StableHlo.Run
import Idealize.ShloMosaic.Lib.Tactic

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, the results named -/

-- the launch theorem's implicit arguments are found by unifying its conclusion with this one, which takes unfolding
-- plain definitions in a metavariable's type
set_option backward.isDefEq.respectTransparency.types false in
/-- Every weakly fair execution of @main on the TensorCores from the launch memory terminates, nothing faulting, and
    in every final state the two result buffers hold what the boundary fold `W6` holds at them and every argument
    array is as launched. -/
theorem run_results : θ_run defs (onTc (τ := τ) (main (F := F))) ⟨m, fun _ => 0, ρ⟩ (fun r => ∀ c : Dev nD,
      r.2.mem ((c.tc : Thread nD τ).loc main_v18) = W6 m ρ c (Proc.devRef .tc main_v18)
      ∧ r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v18 (by decide)),
       h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

/-! ## What each window of the first region finds: the host operations before it, read back -/

/-- No host operation before the first region writes the first argument. -/
theorem V1_arg0 (c : Dev nD) : V1 m ρ c main_arg0 = m ((c.tc : Thread nD τ).loc main_arg0) := by
  show StableHlo.after hostOps0 _ (Proc.devRef .tc main_arg0) = _
  after_results
  all_goals rfl

/-- `%0`: the first projection's weights rounded to bf16. -/
theorem V1_v0 (c : Dev nD) : (V1 m ρ c main_v0 : Vec F S32x16 .bf16)
    = truncf .bf16 (m ((c.tc : Thread nD τ).loc main_arg2) : Vec F S32x16 .f32) bitsLt_bf16_f32 := by
  show StableHlo.after hostOps0 _ (Proc.devRef .tc main_v0) = _
  after_results
  all_goals rfl

/-- `%1`: the gate's weights rounded to bf16. -/
theorem V1_v1 (c : Dev nD) : (V1 m ρ c main_v1 : Vec F S32x16 .bf16)
    = truncf .bf16 (m ((c.tc : Thread nD τ).loc main_arg4) : Vec F S32x16 .f32) bitsLt_bf16_f32 := by
  show StableHlo.after hostOps0 _ (Proc.devRef .tc main_v1) = _
  after_results
  all_goals rfl

/-- `%2`: the scoring weights rounded to bf16. -/
theorem V1_v2 (c : Dev nD) : (V1 m ρ c main_v2 : Vec F S16x1 .bf16)
    = truncf .bf16 (m ((c.tc : Thread nD τ).loc main_arg6) : Vec F S16x1 .f32) bitsLt_bf16_f32 := by
  show StableHlo.after hostOps0 _ (Proc.devRef .tc main_v2) = _
  after_results
  all_goals rfl

/-- `%3`: the first projection's bias as a row. -/
theorem V1_v3 (c : Dev nD) : (V1 m ρ c main_v3 : Vec F S1x16 .f32)
    = shapeCast S1x16 (m ((c.tc : Thread nD τ).loc main_arg3) : Vec F S16 .f32) shapeCasts_S16_S1x16 := by
  show StableHlo.after hostOps0 _ (Proc.devRef .tc main_v3) = _
  after_results
  all_goals rfl

/-- `%4`: the gate's bias as a row. -/
theorem V1_v4 (c : Dev nD) : (V1 m ρ c main_v4 : Vec F S1x16 .f32)
    = shapeCast S1x16 (m ((c.tc : Thread nD τ).loc main_arg5) : Vec F S16 .f32) shapeCasts_S16_S1x16 := by
  show StableHlo.after hostOps0 _ (Proc.devRef .tc main_v4) = _
  after_results
  all_goals rfl

/-- `%5`: the scoring bias as a one-by-one array. -/
theorem V1_v5 (c : Dev nD) : (V1 m ρ c main_v5 : Vec F S1x1 .f32)
    = shapeCast S1x1 (m ((c.tc : Thread nD τ).loc main_arg7) : Vec F S1 .f32) shapeCasts_S1_S1x1 := by
  show StableHlo.after hostOps0 _ (Proc.devRef .tc main_v5) = _
  after_results
  all_goals rfl

/-! ## The boundary between the regions: what the first region leaves, what the second finds and leaves -/

/-- The first region's first output array (the raw scores) as the second region finds it: the write-backs folded. -/
theorem V2_v6_0 (c : Dev nD) : V2 m ρ c main_v6_0 = (dat0 (V1 m ρ) c).arrAt 7 cfg0.N := W2_arr m ρ c 7
/-- The running maximum's array after the first region. -/
theorem V2_v6_1 (c : Dev nD) : V2 m ρ c main_v6_1 = (dat0 (V1 m ρ) c).arrAt 8 cfg0.N := W2_arr m ρ c 8
/-- The denominator's array after the first region. -/
theorem V2_v6_2 (c : Dev nD) : V2 m ρ c main_v6_2 = (dat0 (V1 m ρ) c).arrAt 9 cfg0.N := W2_arr m ρ c 9
/-- The accumulator's array after the first region. -/
theorem V2_v6_3 (c : Dev nD) : V2 m ρ c main_v6_3 = (dat0 (V1 m ρ) c).arrAt 10 cfg0.N := W2_arr m ρ c 10
/-- The first region only reads the first argument. -/
theorem V2_arg0 (c : Dev nD) : V2 m ρ c main_arg0 = m ((c.tc : Thread nD τ).loc main_arg0) :=
  ((W2_arr m ρ c 0).trans (((dat0 (V1 m ρ) c).arrAt_in 0 rfl _).trans (A_eq0 (V1 m ρ) c 0))).trans (V1_arg0 m ρ c)

/-- The second region's output array (the normalized weights): the write-backs folded. -/
theorem W3_v7 (c : Dev nD) : W3 m ρ c (Proc.devRef .tc main_v7) = (dat1 (V2 m ρ) c).arrAt 3 cfg1.N := W3_arr m ρ c 3
/-- The second region only reads the denominator's array. -/
theorem W3_v6_2 (c : Dev nD) : W3 m ρ c (Proc.devRef .tc main_v6_2) = W2 m ρ c (Proc.devRef .tc main_v6_2) :=
  (W3_arr m ρ c 2).trans (((dat1 (V2 m ρ) c).arrAt_in 2 rfl _).trans (A_eq1 (V2 m ρ) c 2))
/-- The accumulator's array is no window of the second region. -/
theorem W3_v6_3 (c : Dev nD) : W3 m ρ c (Proc.devRef .tc main_v6_3) = W2 m ρ c (Proc.devRef .tc main_v6_3) :=
  W3_of_ne m ρ c main_v6_3 (by decide)
/-- Neither region nor the host operations before them touch argument 1. -/
theorem W3_arg1 (c : Dev nD) : W3 m ρ c (Proc.devRef .tc main_arg1) = m ((c.tc : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c.tc : Thread nD τ).loc main_arg1) := rfl
/-- Neither region nor the host operations before them touch argument 8. -/
theorem W3_arg8 (c : Dev nD) : W3 m ρ c (Proc.devRef .tc main_arg8) = m ((c.tc : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c.tc : Thread nD τ).loc main_arg8) := rfl
/-- Neither region nor the host operations before them touch argument 9. -/
theorem W3_arg9 (c : Dev nD) : W3 m ρ c (Proc.devRef .tc main_arg9) = m ((c.tc : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c.tc : Thread nD τ).loc main_arg9) := rfl
/-- Neither region nor the host operations before them touch argument 10. -/
theorem W3_arg10 (c : Dev nD) : W3 m ρ c (Proc.devRef .tc main_arg10) = m ((c.tc : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c.tc : Thread nD τ).loc main_arg10) := rfl
/-- Neither region nor the host operations before them touch argument 11. -/
theorem W3_arg11 (c : Dev nD) : W3 m ρ c (Proc.devRef .tc main_arg11) = m ((c.tc : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c.tc : Thread nD τ).loc main_arg11) := rfl

/-! ## The host operations after the second region -/

/-- The ten host operations `%9` … `%18` of @main composed, as a function of the accumulator, the denominator and
    the five arguments they read: the accumulator divided by the denominator (broadcast along the row), the row
    extended by the extra feature, the first dense layer with its bias, the maximum with zero, the second dense layer
    with its bias. -/
def tail (acc : Vec F S1x32 .f32) (den : Vec F S1x1 .f32) (g : Vec F S1x1 .f32) (w1 : Vec F S33x16 .f32)
    (b1 : Vec F S16 .f32) (w2 : Vec F S16x1 .f32) (b2 : Vec F S1 .f32) : Vec F S1x1 .f32 :=
  addf
    (Host.dotGeneral dot_S1x16_S16x1_S1x1_1_0_0_1_n_n none
      (maximumf
        (addf
          (Host.dotGeneral dot_S1x33_S33x16_S1x16_1_0_0_1_n_n none
            (concatenate S1x33 1
              [⟨S1x32, Host.divf acc (broadcastInDim S1x32 ![0, 1] bcast_S1x1_S1x32_0_1 den)⟩, ⟨S1x1, g⟩]
              concatenates_S1x32_S1x1_S1x33_d1)
            w1)
          (broadcastInDim S1x16 ![1] bcast_S16_S1x16_1 b1))
        (broadcastInDim S1x16 ![] bcast_S_S1x16 (constant S_ .f32 0x00000000#32)))
      w2)
    (broadcastInDim S1x1 ![1] bcast_S1_S1x1_1 b2)

/-- `%8`: the transposed normalized weights; nothing after the first operation of the stretch writes it. -/
theorem W6_v8 (c : Dev nD) : (W6 m ρ c (Proc.devRef .tc main_v8) : Vec F S1x1000000 .f32)
    = transpose S1x1000000 [1, 0] (W3 m ρ c (Proc.devRef .tc main_v7) : Vec F S1000000x1 .f32) transposes_S1000000x1_S1x1000000_1_0 := by
  show StableHlo.after hostOps2_2 (StableHlo.after hostOps2_1 (StableHlo.after hostOps2 (W3 m ρ c))) (Proc.devRef .tc main_v8) = _
  after_results
  all_goals rfl

/-- `%18`: the host tail of the accumulator's and the denominator's arrays as the second region leaves them and of
    the five arguments it reads. -/
theorem W6_v18 (c : Dev nD) : (W6 m ρ c (Proc.devRef .tc main_v18) : Vec F S1x1 .f32)
    = tail (W3 m ρ c (Proc.devRef .tc main_v6_3)) (W3 m ρ c (Proc.devRef .tc main_v6_2))
        (m ((c.tc : Thread nD τ).loc main_arg1)) (m ((c.tc : Thread nD τ).loc main_arg8)) (m ((c.tc : Thread nD τ).loc main_arg9))
        (m ((c.tc : Thread nD τ).loc main_arg10)) (m ((c.tc : Thread nD τ).loc main_arg11)) := by
  rw [← W3_arg1 m ρ c, ← W3_arg8 m ρ c, ← W3_arg9 m ρ c, ← W3_arg10 m ρ c, ← W3_arg11 m ρ c]
  show StableHlo.after hostOps2_2 (StableHlo.after hostOps2_1 (StableHlo.after hostOps2 (W3 m ρ c))) (Proc.devRef .tc main_v18) = _
  after_results
  all_goals rfl

end Cert.KernelIdeal.RunV

end
-- ==== Proof.KGlue.lean ====
/- The kernel's run read at an index, at the ideal floats: what the first region's windows find (a change of float
   format is the identity on extended reals; a reshape that adds a leading unit axis reads the same element), the
   transposed result at an index, and the host tail split at the pooled vector, whose quotient reads elementwise. -/
import proofs.«117047_j15135464751637_2_alg».proof.Proof.KRun
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Glue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen Cert.KernelIdeal.RunV

/-! ## At any floats: the transposed result at an index, the host tail split at the pooled vector -/

section Generic

variable {F : FTy → Type} [FloatOps F]
variable (m : (ℓ : Loc nD τ sig) → Buf (Elt F) ℓ) (ρ : Dev nD → PrngReg)

/-- `%8` at column `p` is the second region's output array at row `p`. -/
theorem W6_v8_apply (c : Dev nD) (p : Fin 1000000) :
    (W6 m ρ c (Proc.devRef .tc main_v8) : Vec F S1x1000000 .f32) (ix2 (0 : Fin 1) p)
      = (W3 m ρ c (Proc.devRef .tc main_v7) : Vec F S1000000x1 .f32) (ix2 p (0 : Fin 1)) :=
  (congrFun (W6_v8 m ρ c) (ix2 (0 : Fin 1) p)).trans
    (transpose_ix2_apply (W3 m ρ c (Proc.devRef .tc main_v7) : Vec F S1000000x1 .f32) transposes_S1000000x1_S1x1000000_1_0 (0 : Fin 1) p)

/-- The host tail from the pooled vector on: the row extended by the extra feature, the first dense layer with its
    bias, the maximum with zero, the second dense layer with its bias. -/
def tailK (B : Vec F S1x32 .f32) (g : Vec F S1x1 .f32) (w1 : Vec F S33x16 .f32) (b1 : Vec F S16 .f32)
    (w2 : Vec F S16x1 .f32) (b2 : Vec F S1 .f32) : Vec F S1x1 .f32 :=
  addf
    (Host.dotGeneral dot_S1x16_S16x1_S1x1_1_0_0_1_n_n none
      (maximumf
        (addf
          (Host.dotGeneral dot_S1x33_S33x16_S1x16_1_0_0_1_n_n none
            (concatenate S1x33 1 [⟨S1x32, B⟩, ⟨S1x1, g⟩] concatenates_S1x32_S1x1_S1x33_d1)
            w1)
          (broadcastInDim S1x16 ![1] bcast_S16_S1x16_1 b1))
        (broadcastInDim S1x16 ![] bcast_S_S1x16 (constant S_ .f32 0x00000000#32)))
      w2)
    (broadcastInDim S1x1 ![1] bcast_S1_S1x1_1 b2)

/-- The host tail is the tail from the pooled vector on, at the accumulator divided by the denominator. -/
theorem tail_eq (acc : Vec F S1x32 .f32) (den : Vec F S1x1 .f32) (g : Vec F S1x1 .f32) (w1 : Vec F S33x16 .f32)
    (b1 : Vec F S16 .f32) (w2 : Vec F S16x1 .f32) (b2 : Vec F S1 .f32) :
    tail acc den g w1 b1 w2 b2
      = tailK (Host.divf acc (broadcastInDim S1x32 ![0, 1] bcast_S1x1_S1x32_0_1 den)) g w1 b1 w2 b2 := rfl

end Generic

/-! ## At the ideal floats -/

section AtIdeal

variable (m : (ℓ : Loc nD τ sig) → Buf (Elt Ideal) ℓ) (ρ : Dev nD → PrngReg)

/-- The first projection's weights as the first region finds them: rounding to bf16 is the identity on extended reals. -/
theorem V1_v0_apply (c : Dev nD) (j : Fin 32) (k : Fin 16) :
    (V1 (F := Ideal) m ρ c main_v0 : Vec Ideal S32x16 .bf16) (ix2 j k)
      = (m ((c.tc : Thread nD τ).loc main_arg2) : Vec Ideal S32x16 .f32) (ix2 j k) :=
  congrFun (V1_v0 m ρ c) (ix2 j k)

/-- The gate's weights likewise. -/
theorem V1_v1_apply (c : Dev nD) (j : Fin 32) (k : Fin 16) :
    (V1 (F := Ideal) m ρ c main_v1 : Vec Ideal S32x16 .bf16) (ix2 j k)
      = (m ((c.tc : Thread nD τ).loc main_arg4) : Vec Ideal S32x16 .f32) (ix2 j k) :=
  congrFun (V1_v1 m ρ c) (ix2 j k)

/-- The scoring weights likewise. -/
theorem V1_v2_apply (c : Dev nD) (k : Fin 16) :
    (V1 (F := Ideal) m ρ c main_v2 : Vec Ideal S16x1 .bf16) (ix2 k (0 : Fin 1))
      = (m ((c.tc : Thread nD τ).loc main_arg6) : Vec Ideal S16x1 .f32) (ix2 k (0 : Fin 1)) :=
  congrFun (V1_v2 m ρ c) (ix2 k (0 : Fin 1))

/-- The first projection's bias as a row reads the bias. -/
theorem V1_v3_apply (c : Dev nD) (k : Fin 16) :
    (V1 (F := Ideal) m ρ c main_v3 : Vec Ideal S1x16 .f32) (ix2 (0 : Fin 1) k)
      = (m ((c.tc : Thread nD τ).loc main_arg3) : Vec Ideal S16 .f32) (ix1 k) :=
  (congrFun (V1_v3 m ρ c) (ix2 (0 : Fin 1) k)).trans
    (shapeCast_a_1a_apply (m ((c.tc : Thread nD τ).loc main_arg3) : Vec Ideal S16 .f32) shapeCasts_S16_S1x16 (0 : Fin 1) k)

/-- The gate's bias likewise. -/
theorem V1_v4_apply (c : Dev nD) (k : Fin 16) :
    (V1 (F := Ideal) m ρ c main_v4 : Vec Ideal S1x16 .f32) (ix2 (0 : Fin 1) k)
      = (m ((c.tc : Thread nD τ).loc main_arg5) : Vec Ideal S16 .f32) (ix1 k) :=
  (congrFun (V1_v4 m ρ c) (ix2 (0 : Fin 1) k)).trans
    (shapeCast_a_1a_apply (m ((c.tc : Thread nD τ).loc main_arg5) : Vec Ideal S16 .f32) shapeCasts_S16_S1x16 (0 : Fin 1) k)

/-- The scoring bias as a one-by-one array reads the bias. -/
theorem V1_v5_apply (c : Dev nD) :
    (V1 (F := Ideal) m ρ c main_v5 : Vec Ideal S1x1 .f32) (ix2 (0 : Fin 1) (0 : Fin 1))
      = (m ((c.tc : Thread nD τ).loc main_arg7) : Vec Ideal S1 .f32) (ix1 (0 : Fin 1)) :=
  (congrFun (V1_v5 m ρ c) (ix2 (0 : Fin 1) (0 : Fin 1))).trans
    (shapeCast_a_1a_apply (m ((c.tc : Thread nD τ).loc main_arg7) : Vec Ideal S1 .f32) shapeCasts_S1_S1x1 (0 : Fin 1) (0 : Fin 1))

/-- The pooled vector at a feature: the accumulator's element divided by the denominator. -/
theorem quot_apply (acc : Vec Ideal S1x32 .f32) (den : Vec Ideal S1x1 .f32) (d : Fin 32) :
    Host.divf (F := Ideal) (φ := .f32) acc (broadcastInDim S1x32 ![0, 1] bcast_S1x1_S1x32_0_1 den) (ix2 (0 : Fin 1) d)
      = Ideal.div (acc (ix2 (0 : Fin 1) d)) (den (ix2 (0 : Fin 1) (0 : Fin 1))) :=
  (show Host.divf (F := Ideal) (φ := .f32) acc (broadcastInDim S1x32 ![0, 1] bcast_S1x1_S1x32_0_1 den) (ix2 (0 : Fin 1) d)
      = Ideal.div (acc (ix2 (0 : Fin 1) d)) (broadcastInDim S1x32 ![0, 1] bcast_S1x1_S1x32_0_1 den (ix2 (0 : Fin 1) d)) from rfl).trans
    (congrArg (Ideal.div (acc (ix2 (0 : Fin 1) d)))
      (broadcastInDim_apply ![0, 1] bcast_S1x1_S1x32_0_1 den (ix2 (0 : Fin 1) d) (ix2 (0 : Fin 1) (0 : Fin 1))
        fun a => match a with | ⟨0, _⟩ => rfl | ⟨1, _⟩ => rfl))

end AtIdeal

end Cert.KernelIdeal.Glue

end
-- ==== Proof.KGlue2.lean ====
/- The denominator's and the accumulator's arrays as the host tail finds them: what the first region leaves, the
   second region only reading the one and not touching the other. -/
import proofs.«117047_j15135464751637_2_alg».proof.Proof.KRun

set_option maxRecDepth 16384

noncomputable section

namespace Cert.KernelIdeal.Glue

open Idealize.ShloMosaic Idealize.ShloMosaic.TcCoe
open Idealize.ShloMosaic.Pipeline (Dat Cfg Window BodyObligation cellOf)
open Cert.KernelIdeal Cert.KernelIdeal.Gen Cert.KernelIdeal.RunV

variable {F : FTy → Type} [FloatOps F]
variable (m : (ℓ : Loc nD τ sig) → Buf (Elt F) ℓ) (ρ : Dev nD → PrngReg)

/-- After the second region the denominator's array still holds the first region's folded write-backs. -/
theorem W3_den (c : Dev nD) :
    (W3 m ρ c (Proc.devRef .tc main_v6_2) : Vec F S1x1 .f32) = (dat0 (V1 m ρ) c).arrAt 9 cfg0.N :=
  (W3_v6_2 m ρ c).trans (V2_v6_2 m ρ c)

/-- After the second region the accumulator's array still holds the first region's folded write-backs. -/
theorem W3_acc (c : Dev nD) :
    (W3 m ρ c (Proc.devRef .tc main_v6_3) : Vec F S1x32 .f32) = (dat0 (V1 m ρ) c).arrAt 10 cfg0.N :=
  (W3_v6_3 m ρ c).trans (V2_v6_3 m ρ c)

end Cert.KernelIdeal.Glue

end
-- ==== Proof.KBlocks.lean ====
/- The windows' blocks read as entries of their arrays: the row-tiled windows at row `8000 t + r`, the
   windows whose one block is their whole array at the same index, for both kernels. -/
import proofs.«117047_j15135464751637_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Blocks

open Cert.KernelIdeal Cert.KernelIdeal.Gen

variable {F : FTy → Type} [FloatOps F]
variable (V : (c : Dev nD) → (b : Ref sig .tc) → Buf (Elt F) ((c : Thread nD τ).loc b))

/-! ## The printed index maps, decided over the grids -/

/-- The row-tiled windows of the statistics kernel sit at block `(t, 0)`. -/
theorem idx0_0 : ∀ t : Fin cfg0.N, win0_0.index t (0 : Fin 2) = t.val ∧ win0_0.index t (1 : Fin 2) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
/-- Its other windows sit at block `(0, 0)`: their one block is the whole array. -/
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_8 : ∀ t : Fin cfg0.N, win0_8.index t (0 : Fin 2) = 0 ∧ win0_8.index t (1 : Fin 2) = 0 :=
  (by decide +kernel : ∀ t : Fin grid0.N, _)
theorem idx0_9 : ∀ t : Fin cfg0.N, win0_9.index t (0 : Fin 2) = 0 ∧ win0_9.index t (1 : Fin 2) = 0 :=
  (by decide +kernel : ∀ t : Fin grid0.N, _)
theorem idx0_10 : ∀ t : Fin cfg0.N, win0_10.index t (0 : Fin 2) = 0 ∧ win0_10.index t (1 : Fin 2) = 0 :=
  (by decide +kernel : ∀ t : Fin grid0.N, _)
/-- The same for the normalization kernel. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)

/-! ## The statistics kernel's input blocks -/

/-- Row `r` of the row block at point `t` is row `8000 t + r` of the array. -/
theorem iblk0_0_apply (c : Dev nD) (t : Fin cfg0.N) (r : Fin 8000) (j : Fin 32) (p : Fin 1000000)
    (hp : p.val = 8000 * t.val + r.val) :
    iblk0 V c 0 t (ix2 r j) = V c main_arg0 (ix2 p j) := by
  obtain ⟨e0, e1⟩ := idx0_0 t
  unfold iblk0
  rw [View.read_apply]
  show V c main_arg0 _ = V c main_arg0 _
  congr 1
  funext a
  apply Fin.ext
  match a with
  | ⟨0, _⟩ => show win0_0.index t 0 * 8000 + 1 * r.val = p.val; rw [e0, hp]; omega
  | ⟨1, _⟩ => show win0_0.index t 1 * 32 + 1 * j.val = j.val; rw [e1]; omega

/-- Window 1's block is its whole array at every point. -/
theorem iblk0_1_eq (c : Dev nD) (t : Fin cfg0.N) : iblk0 V c 1 t = V c main_v0 := by
  obtain ⟨e0, e1⟩ := idx0_1 t
  have hz' : (fun a => win0_1.index t a * main_v0.ty.shape.size a) = fun _ => 0 := funext fun a => by
    match a with
    | ⟨0, _⟩ => show win0_1.index t 0 * 32 = 0; rw [e0]
    | ⟨1, _⟩ => show win0_1.index t 1 * 16 = 0; rw [e1]
  exact Memref.read_access_unit_zero (Elt F) main_v0 hz' (fun a => by rw [congrFun hz' a]; simp) (V c main_v0)

theorem iblk0_1_apply (c : Dev nD) (t : Fin cfg0.N) (a : Fin 32) (b : Fin 16) :
    iblk0 V c 1 t (ix2 a b) = V c main_v0 (ix2 a b) := congrFun (iblk0_1_eq V c t) (ix2 a b)

/-- Window 2's block is its whole array at every point. -/
theorem iblk0_2_eq (c : Dev nD) (t : Fin cfg0.N) : iblk0 V c 2 t = V c main_v3 := by
  obtain ⟨e0, e1⟩ := idx0_2 t
  have hz' : (fun a => win0_2.index t a * main_v3.ty.shape.size a) = fun _ => 0 := funext fun a => by
    match a with
    | ⟨0, _⟩ => show win0_2.index t 0 * 1 = 0; rw [e0]
    | ⟨1, _⟩ => show win0_2.index t 1 * 16 = 0; rw [e1]
  exact Memref.read_access_unit_zero (Elt F) main_v3 hz' (fun a => by rw [congrFun hz' a]; simp) (V c main_v3)

theorem iblk0_2_apply (c : Dev nD) (t : Fin cfg0.N) (a : Fin 1) (b : Fin 16) :
    iblk0 V c 2 t (ix2 a b) = V c main_v3 (ix2 a b) := congrFun (iblk0_2_eq V c t) (ix2 a b)

/-- Window 3's block is its whole array at every point. -/
theorem iblk0_3_eq (c : Dev nD) (t : Fin cfg0.N) : iblk0 V c 3 t = V c main_v1 := by
  obtain ⟨e0, e1⟩ := idx0_3 t
  have hz' : (fun a => win0_3.index t a * main_v1.ty.shape.size a) = fun _ => 0 := funext fun a => by
    match a with
    | ⟨0, _⟩ => show win0_3.index t 0 * 32 = 0; rw [e0]
    | ⟨1, _⟩ => show win0_3.index t 1 * 16 = 0; rw [e1]
  exact Memref.read_access_unit_zero (Elt F) main_v1 hz' (fun a => by rw [congrFun hz' a]; simp) (V c main_v1)

theorem iblk0_3_apply (c : Dev nD) (t : Fin cfg0.N) (a : Fin 32) (b : Fin 16) :
    iblk0 V c 3 t (ix2 a b) = V c main_v1 (ix2 a b) := congrFun (iblk0_3_eq V c t) (ix2 a b)

/-- Window 4's block is its whole array at every point. -/
theorem iblk0_4_eq (c : Dev nD) (t : Fin cfg0.N) : iblk0 V c 4 t = V c main_v4 := by
  obtain ⟨e0, e1⟩ := idx0_4 t
  have hz' : (fun a => win0_4.index t a * main_v4.ty.shape.size a) = fun _ => 0 := funext fun a => by
    match a with
    | ⟨0, _⟩ => show win0_4.index t 0 * 1 = 0; rw [e0]
    | ⟨1, _⟩ => show win0_4.index t 1 * 16 = 0; rw [e1]
  exact Memref.read_access_unit_zero (Elt F) main_v4 hz' (fun a => by rw [congrFun hz' a]; simp) (V c main_v4)

theorem iblk0_4_apply (c : Dev nD) (t : Fin cfg0.N) (a : Fin 1) (b : Fin 16) :
    iblk0 V c 4 t (ix2 a b) = V c main_v4 (ix2 a b) := congrFun (iblk0_4_eq V c t) (ix2 a b)

/-- Window 5's block is its whole array at every point. -/
theorem iblk0_5_eq (c : Dev nD) (t : Fin cfg0.N) : iblk0 V c 5 t = V c main_v2 := by
  obtain ⟨e0, e1⟩ := idx0_5 t
  have hz' : (fun a => win0_5.index t a * main_v2.ty.shape.size a) = fun _ => 0 := funext fun a => by
    match a with
    | ⟨0, _⟩ => show win0_5.index t 0 * 16 = 0; rw [e0]
    | ⟨1, _⟩ => show win0_5.index t 1 * 1 = 0; rw [e1]
  exact Memref.read_access_unit_zero (Elt F) main_v2 hz' (fun a => by rw [congrFun hz' a]; simp) (V c main_v2)

theorem iblk0_5_apply (c : Dev nD) (t : Fin cfg0.N) (a : Fin 16) (b : Fin 1) :
    iblk0 V c 5 t (ix2 a b) = V c main_v2 (ix2 a b) := congrFun (iblk0_5_eq V c t) (ix2 a b)

/-- Window 6's block is its whole array at every point. -/
theorem iblk0_6_eq (c : Dev nD) (t : Fin cfg0.N) : iblk0 V c 6 t = V c main_v5 := by
  obtain ⟨e0, e1⟩ := idx0_6 t
  have hz' : (fun a => win0_6.index t a * main_v5.ty.shape.size a) = fun _ => 0 := funext fun a => by
    match a with
    | ⟨0, _⟩ => show win0_6.index t 0 * 1 = 0; rw [e0]
    | ⟨1, _⟩ => show win0_6.index t 1 * 1 = 0; rw [e1]
  exact Memref.read_access_unit_zero (Elt F) main_v5 hz' (fun a => by rw [congrFun hz' a]; simp) (V c main_v5)

theorem iblk0_6_apply (c : Dev nD) (t : Fin cfg0.N) (a : Fin 1) (b : Fin 1) :
    iblk0 V c 6 t (ix2 a b) = V c main_v5 (ix2 a b) := congrFun (iblk0_6_eq V c t) (ix2 a b)

/-! ## The normalization kernel's input blocks -/

/-- Row `r` of the score block at point `t` is row `8000 t + r` of the score array. -/
theorem iblk1_0_apply (c : Dev nD) (t : Fin cfg1.N) (r : Fin 8000) (p : Fin 1000000)
    (hp : p.val = 8000 * t.val + r.val) :
    iblk1 V c 0 t (ix2 r 0) = V c main_v6_0 (ix2 p 0) := by
  obtain ⟨e0, e1⟩ := idx1_0 t
  unfold iblk1
  rw [View.read_apply]
  show V c main_v6_0 _ = V c main_v6_0 _
  congr 1
  funext a
  apply Fin.ext
  match a with
  | ⟨0, _⟩ => show win1_0.index t 0 * 8000 + 1 * r.val = p.val; rw [e0, hp]; omega
  | ⟨1, _⟩ => show win1_0.index t 1 * 1 + 1 * 0 = 0; rw [e1]

/-- Window 1's block is its whole array at every point. -/
theorem iblk1_1_eq (c : Dev nD) (t : Fin cfg1.N) : iblk1 V c 1 t = V c main_v6_1 := by
  obtain ⟨e0, e1⟩ := idx1_1 t
  have hz' : (fun a => win1_1.index t a * main_v6_1.ty.shape.size a) = fun _ => 0 := funext fun a => by
    match a with
    | ⟨0, _⟩ => show win1_1.index t 0 * 1 = 0; rw [e0]
    | ⟨1, _⟩ => show win1_1.index t 1 * 1 = 0; rw [e1]
  exact Memref.read_access_unit_zero (Elt F) main_v6_1 hz' (fun a => by rw [congrFun hz' a]; simp) (V c main_v6_1)

theorem iblk1_1_apply (c : Dev nD) (t : Fin cfg1.N) :
    iblk1 V c 1 t (ix2 0 0) = V c main_v6_1 (ix2 0 0) := congrFun (iblk1_1_eq V c t) (ix2 0 0)

/-- Window 2's block is its whole array at every point. -/
theorem iblk1_2_eq (c : Dev nD) (t : Fin cfg1.N) : iblk1 V c 2 t = V c main_v6_2 := by
  obtain ⟨e0, e1⟩ := idx1_2 t
  have hz' : (fun a => win1_2.index t a * main_v6_2.ty.shape.size a) = fun _ => 0 := funext fun a => by
    match a with
    | ⟨0, _⟩ => show win1_2.index t 0 * 1 = 0; rw [e0]
    | ⟨1, _⟩ => show win1_2.index t 1 * 1 = 0; rw [e1]
  exact Memref.read_access_unit_zero (Elt F) main_v6_2 hz' (fun a => by rw [congrFun hz' a]; simp) (V c main_v6_2)

theorem iblk1_2_apply (c : Dev nD) (t : Fin cfg1.N) :
    iblk1 V c 2 t (ix2 0 0) = V c main_v6_2 (ix2 0 0) := congrFun (iblk1_2_eq V c t) (ix2 0 0)

end Cert.KernelIdeal.Blocks

end
-- ==== Proof.KPieces.lean ====
/- The pieces the symbolic run of each kernel body finds, read back as values: every output window of the
   statistics kernel, in both control cases, and the output window of the normalization kernel, is the
   skeleton's payload term of the input blocks (and, for the carried windows, of what the window held). -/
import proofs.«117047_j15135464751637_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a rank-2 block. -/
theorem hz : (![0, 0] : Fin 2 → Nat) = fun _ => 0 := funext fun a => by fin_cases a <;> rfl

/-! ## The statistics kernel away from the first point: the carried windows hold `xo8`, `xo9`, `xo10` -/

/-- The tile's scores: one covering store of the gated projection of the block. -/
theorem outB7 (c : Dev nD) (i : grid0.Coords) (arg1 : Memref sig .tc .vmem S8000x32 .f32) (harg1 : arg1.IsWhole) (arg2 : Memref sig .tc .vmem S32x16 .bf16) (harg2 : arg2.IsWhole) (arg3 : Memref sig .tc .vmem S1x16 .f32) (harg3 : arg3.IsWhole) (arg4 : Memref sig .tc .vmem S32x16 .bf16) (harg4 : arg4.IsWhole) (arg5 : Memref sig .tc .vmem S1x16 .f32) (harg5 : arg5.IsWhole) (arg6 : Memref sig .tc .vmem S16x1 .bf16) (harg6 : arg6.IsWhole) (arg7 : Memref sig .tc .vmem S1x1 .f32) (harg7 : arg7.IsWhole) (arg8 : Memref sig .tc .vmem S8000x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x32 .f32) (harg11 : arg11.IsWhole) (hc0 : ¬cond0_0 i)
    (x0 : Vec F S8000x32 .f32) (x1 : Vec F S32x16 .bf16) (x2 : Vec F S1x16 .f32) (x3 : Vec F S32x16 .bf16) (x4 : Vec F S1x16 .f32) (x5 : Vec F S16x1 .bf16) (x6 : Vec F S1x1 .f32) (xo8 : Vec F S1x1 .f32) (xo9 : Vec F S1x1 .f32) (xo10 : Vec F S1x32 .f32) :
    out0_B_7 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xo10 = k0_pay10 x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xo10)]
  unfold kernelRun0_B
  dsimp only
  rw [View.canon_unit_zero hz]
  simp only [View.readAt_eq_ld, harg1.read_unread, harg2.read_unread, harg3.read_unread, harg4.read_unread, harg5.read_unread, harg6.read_unread, harg7.read_unread, View.ld_unit_zero (S := S8000x32) hz, View.ld_unit_zero (S := S32x16) hz, View.ld_unit_zero (S := S1x16) hz, View.ld_unit_zero (S := S16x1) hz, View.ld_unit_zero (S := S1x1) hz]

/-- The running maximum: the larger of the carried maximum and the tile's maximum. -/
theorem outB8 (c : Dev nD) (i : grid0.Coords) (arg1 : Memref sig .tc .vmem S8000x32 .f32) (harg1 : arg1.IsWhole) (arg2 : Memref sig .tc .vmem S32x16 .bf16) (harg2 : arg2.IsWhole) (arg3 : Memref sig .tc .vmem S1x16 .f32) (harg3 : arg3.IsWhole) (arg4 : Memref sig .tc .vmem S32x16 .bf16) (harg4 : arg4.IsWhole) (arg5 : Memref sig .tc .vmem S1x16 .f32) (harg5 : arg5.IsWhole) (arg6 : Memref sig .tc .vmem S16x1 .bf16) (harg6 : arg6.IsWhole) (arg7 : Memref sig .tc .vmem S1x1 .f32) (harg7 : arg7.IsWhole) (arg8 : Memref sig .tc .vmem S8000x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x32 .f32) (harg11 : arg11.IsWhole) (hc0 : ¬cond0_0 i)
    (x0 : Vec F S8000x32 .f32) (x1 : Vec F S32x16 .bf16) (x2 : Vec F S1x16 .f32) (x3 : Vec F S32x16 .bf16) (x4 : Vec F S1x16 .f32) (x5 : Vec F S16x1 .bf16) (x6 : Vec F S1x1 .f32) (xo8 : Vec F S1x1 .f32) (xo9 : Vec F S1x1 .f32) (xo10 : Vec F S1x32 .f32) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xo10 = k0_pay2 (k0_pay11 x0 x1 x2 x3 x4 x5 x6) xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S8000x32) hz, View.ld_unit_zero (S := S32x16) hz, View.ld_unit_zero (S := S1x16) hz, View.ld_unit_zero (S := S16x1) hz, View.ld_unit_zero (S := S1x1) hz, View.ld_unit_zero (S := S1x32) hz, View.ld_unit_zero (S := S8000x1) hz]

/-- The running denominator: the carried one rescaled to the new maximum, plus the tile's sum of exponentials. -/
theorem outB9 (c : Dev nD) (i : grid0.Coords) (arg1 : Memref sig .tc .vmem S8000x32 .f32) (harg1 : arg1.IsWhole) (arg2 : Memref sig .tc .vmem S32x16 .bf16) (harg2 : arg2.IsWhole) (arg3 : Memref sig .tc .vmem S1x16 .f32) (harg3 : arg3.IsWhole) (arg4 : Memref sig .tc .vmem S32x16 .bf16) (harg4 : arg4.IsWhole) (arg5 : Memref sig .tc .vmem S1x16 .f32) (harg5 : arg5.IsWhole) (arg6 : Memref sig .tc .vmem S16x1 .bf16) (harg6 : arg6.IsWhole) (arg7 : Memref sig .tc .vmem S1x1 .f32) (harg7 : arg7.IsWhole) (arg8 : Memref sig .tc .vmem S8000x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x32 .f32) (harg11 : arg11.IsWhole) (hc0 : ¬cond0_0 i)
    (x0 : Vec F S8000x32 .f32) (x1 : Vec F S32x16 .bf16) (x2 : Vec F S1x16 .f32) (x3 : Vec F S32x16 .bf16) (x4 : Vec F S1x16 .f32) (x5 : Vec F S16x1 .bf16) (x6 : Vec F S1x1 .f32) (xo8 : Vec F S1x1 .f32) (xo9 : Vec F S1x1 .f32) (xo10 : Vec F S1x32 .f32) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xo10 = k0_pay5 (k0_pay10 x0 x1 x2 x3 x4 x5 x6) (k0_pay11 x0 x1 x2 x3 x4 x5 x6) xo8 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S8000x32) hz, View.ld_unit_zero (S := S32x16) hz, View.ld_unit_zero (S := S1x16) hz, View.ld_unit_zero (S := S16x1) hz, View.ld_unit_zero (S := S1x1) hz, View.ld_unit_zero (S := S1x32) hz, View.ld_unit_zero (S := S8000x1) hz]

/-- The running weighted sum of rows: the carried one rescaled to the new maximum, plus the tile's weighted rows. -/
theorem outB10 (c : Dev nD) (i : grid0.Coords) (arg1 : Memref sig .tc .vmem S8000x32 .f32) (harg1 : arg1.IsWhole) (arg2 : Memref sig .tc .vmem S32x16 .bf16) (harg2 : arg2.IsWhole) (arg3 : Memref sig .tc .vmem S1x16 .f32) (harg3 : arg3.IsWhole) (arg4 : Memref sig .tc .vmem S32x16 .bf16) (harg4 : arg4.IsWhole) (arg5 : Memref sig .tc .vmem S1x16 .f32) (harg5 : arg5.IsWhole) (arg6 : Memref sig .tc .vmem S16x1 .bf16) (harg6 : arg6.IsWhole) (arg7 : Memref sig .tc .vmem S1x1 .f32) (harg7 : arg7.IsWhole) (arg8 : Memref sig .tc .vmem S8000x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x32 .f32) (harg11 : arg11.IsWhole) (hc0 : ¬cond0_0 i)
    (x0 : Vec F S8000x32 .f32) (x1 : Vec F S32x16 .bf16) (x2 : Vec F S1x16 .f32) (x3 : Vec F S32x16 .bf16) (x4 : Vec F S1x16 .f32) (x5 : Vec F S16x1 .bf16) (x6 : Vec F S1x1 .f32) (xo8 : Vec F S1x1 .f32) (xo9 : Vec F S1x1 .f32) (xo10 : Vec F S1x32 .f32) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xo10 = k0_pay6 x0 (k0_pay10 x0 x1 x2 x3 x4 x5 x6) (k0_pay11 x0 x1 x2 x3 x4 x5 x6) xo8 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 xo8 xo9 xo10)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg9.read_unread, harg10.read_unread, harg11.read_unread, View.ld_unit_zero (S := S8000x32) hz, View.ld_unit_zero (S := S32x16) hz, View.ld_unit_zero (S := S1x16) hz, View.ld_unit_zero (S := S16x1) hz, View.ld_unit_zero (S := S1x1) hz, View.ld_unit_zero (S := S1x32) hz, View.ld_unit_zero (S := S8000x1) hz]

/-! ## The statistics kernel at the first point: the carried windows are first reset to `-inf`, `0`, `0` and read back -/

/-- The tile's scores at the first point. -/
theorem outA7 (c : Dev nD) (i : grid0.Coords) (arg1 : Memref sig .tc .vmem S8000x32 .f32) (harg1 : arg1.IsWhole) (arg2 : Memref sig .tc .vmem S32x16 .bf16) (harg2 : arg2.IsWhole) (arg3 : Memref sig .tc .vmem S1x16 .f32) (harg3 : arg3.IsWhole) (arg4 : Memref sig .tc .vmem S32x16 .bf16) (harg4 : arg4.IsWhole) (arg5 : Memref sig .tc .vmem S1x16 .f32) (harg5 : arg5.IsWhole) (arg6 : Memref sig .tc .vmem S16x1 .bf16) (harg6 : arg6.IsWhole) (arg7 : Memref sig .tc .vmem S1x1 .f32) (harg7 : arg7.IsWhole) (arg8 : Memref sig .tc .vmem S8000x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x32 .f32) (harg11 : arg11.IsWhole) (hc0 : cond0_0 i)
    (x0 : Vec F S8000x32 .f32) (x1 : Vec F S32x16 .bf16) (x2 : Vec F S1x16 .f32) (x3 : Vec F S32x16 .bf16) (x4 : Vec F S1x16 .f32) (x5 : Vec F S16x1 .bf16) (x6 : Vec F S1x1 .f32) :
    out0_A_7 c i arg1 harg1 arg2 harg2 arg3 harg3 arg4 harg4 arg5 harg5 arg6 harg6 arg7 harg7 arg8 harg8 arg9 harg9 arg10 harg10 arg11 harg11 hc0 x0 x1 x2 x3 x4 x5 x6 = k0_pay10 x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  rw [View.canon_unit_zero hz]
  simp only [View.readAt_eq_ld, harg1.read_unread, harg2.read_unread, harg3.read_unread, harg4.read_unread, harg5.read_unread, harg6.read_unread, harg7.read_unread, View.ld_unit_zero (S := S8000x32) hz, View.ld_unit_zero (S := S32x16) hz, View.ld_unit_zero (S := S1x16) hz, View.ld_unit_zero (S := S16x1) hz, View.ld_unit_zero (S := S1x1) hz]

/-- The running maximum at the first point, over the reset value `-inf`. -/
theorem outA8 (c : Dev nD) (i : grid0.Coords) (arg1 : Memref sig .tc .vmem S8000x32 .f32) (harg1 : arg1.IsWhole) (arg2 : Memref sig .tc .vmem S32x16 .bf16) (harg2 : arg2.IsWhole) (arg3 : Memref sig .tc .vmem S1x16 .f32) (harg3 : arg3.IsWhole) (arg4 : Memref sig .tc .vmem S32x16 .bf16) (harg4 : arg4.IsWhole) (arg5 : Memref sig .tc .vmem S1x16 .f32) (harg5 : arg5.IsWhole) (arg6 : Memref sig .tc .vmem S16x1 .bf16) (harg6 : arg6.IsWhole) (arg7 : Memref sig .tc .vmem S1x1 .f32) (harg7 : arg7.IsWhole) (arg8 : Memref sig .tc .vmem S8000x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x32 .f32) (harg11 : arg11.IsWhole) (hc0 : cond0_0 i)
    (x0 : Vec F S8000x32 .f32) (x1 : Vec F S32x16 .bf16) (x2 : Vec F S1x16 .f32) (x3 : Vec F S32x16 .bf16) (x4 : Vec F S1x16 .f32) (x5 : Vec F S16x1 .bf16) (x6 : Vec F S1x1 .f32) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 = k0_pay2 (k0_pay11 x0 x1 x2 x3 x4 x5 x6) k0_pay7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, View.ld_unit_zero (S := S8000x32) hz, View.ld_unit_zero (S := S32x16) hz, View.ld_unit_zero (S := S1x16) hz, View.ld_unit_zero (S := S16x1) hz, View.ld_unit_zero (S := S1x1) hz, View.ld_unit_zero (S := S1x32) hz, View.ld_unit_zero (S := S8000x1) hz]

/-- The running denominator at the first point, over the reset values `-inf` and `0`. -/
theorem outA9 (c : Dev nD) (i : grid0.Coords) (arg1 : Memref sig .tc .vmem S8000x32 .f32) (harg1 : arg1.IsWhole) (arg2 : Memref sig .tc .vmem S32x16 .bf16) (harg2 : arg2.IsWhole) (arg3 : Memref sig .tc .vmem S1x16 .f32) (harg3 : arg3.IsWhole) (arg4 : Memref sig .tc .vmem S32x16 .bf16) (harg4 : arg4.IsWhole) (arg5 : Memref sig .tc .vmem S1x16 .f32) (harg5 : arg5.IsWhole) (arg6 : Memref sig .tc .vmem S16x1 .bf16) (harg6 : arg6.IsWhole) (arg7 : Memref sig .tc .vmem S1x1 .f32) (harg7 : arg7.IsWhole) (arg8 : Memref sig .tc .vmem S8000x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x32 .f32) (harg11 : arg11.IsWhole) (hc0 : cond0_0 i)
    (x0 : Vec F S8000x32 .f32) (x1 : Vec F S32x16 .bf16) (x2 : Vec F S1x16 .f32) (x3 : Vec F S32x16 .bf16) (x4 : Vec F S1x16 .f32) (x5 : Vec F S16x1 .bf16) (x6 : Vec F S1x1 .f32) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 = k0_pay5 (k0_pay10 x0 x1 x2 x3 x4 x5 x6) (k0_pay11 x0 x1 x2 x3 x4 x5 x6) k0_pay7 k0_pay8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x1) hz, View.readCov_unit_zero (S := S1x1) _ hz, View.readCov_unit_zero (S := S1x1) _ hz]
  simp only [View.readAt_eq_ld, harg1.read_unread, harg2.read_unread, harg3.read_unread, harg4.read_unread, harg5.read_unread, harg6.read_unread, harg7.read_unread, View.ld_unit_zero (S := S8000x32) hz, View.ld_unit_zero (S := S32x16) hz, View.ld_unit_zero (S := S1x16) hz, View.ld_unit_zero (S := S16x1) hz, View.ld_unit_zero (S := S1x1) hz, View.ld_unit_zero (S := S1x32) hz, View.ld_unit_zero (S := S8000x1) hz]

/-- The running weighted sum at the first point, over the reset values `-inf` and `0`. -/
theorem outA10 (c : Dev nD) (i : grid0.Coords) (arg1 : Memref sig .tc .vmem S8000x32 .f32) (harg1 : arg1.IsWhole) (arg2 : Memref sig .tc .vmem S32x16 .bf16) (harg2 : arg2.IsWhole) (arg3 : Memref sig .tc .vmem S1x16 .f32) (harg3 : arg3.IsWhole) (arg4 : Memref sig .tc .vmem S32x16 .bf16) (harg4 : arg4.IsWhole) (arg5 : Memref sig .tc .vmem S1x16 .f32) (harg5 : arg5.IsWhole) (arg6 : Memref sig .tc .vmem S16x1 .bf16) (harg6 : arg6.IsWhole) (arg7 : Memref sig .tc .vmem S1x1 .f32) (harg7 : arg7.IsWhole) (arg8 : Memref sig .tc .vmem S8000x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x32 .f32) (harg11 : arg11.IsWhole) (hc0 : cond0_0 i)
    (x0 : Vec F S8000x32 .f32) (x1 : Vec F S32x16 .bf16) (x2 : Vec F S1x16 .f32) (x3 : Vec F S32x16 .bf16) (x4 : Vec F S1x16 .f32) (x5 : Vec F S16x1 .bf16) (x6 : Vec F S1x1 .f32) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 = k0_pay6 x0 (k0_pay10 x0 x1 x2 x3 x4 x5 x6) (k0_pay11 x0 x1 x2 x3 x4 x5 x6) k0_pay7 k0_pay9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_cons_unit_zero (S := S1x32) hz, View.readCov_unit_zero (S := S1x1) _ hz, View.readCov_unit_zero (S := S1x32) _ hz]
  simp only [View.readAt_eq_ld, harg1.read_unread, harg2.read_unread, harg3.read_unread, harg4.read_unread, harg5.read_unread, harg6.read_unread, harg7.read_unread, View.ld_unit_zero (S := S8000x32) hz, View.ld_unit_zero (S := S32x16) hz, View.ld_unit_zero (S := S1x16) hz, View.ld_unit_zero (S := S16x1) hz, View.ld_unit_zero (S := S1x1) hz, View.ld_unit_zero (S := S1x32) hz, View.ld_unit_zero (S := S8000x1) hz]

/-! ## The normalization kernel -/

/-- The normalized weights of a tile: one covering store of `exp (score - maximum) / denominator`. -/
theorem out13 (x0 : Vec F S8000x1 .f32) (x1 x2 : Vec F S1x1 .f32) : out1_3 x0 x1 x2 = k1_pay1 x0 x1 x2 := by
  unfold out1_3
  rw [View.canon_unit_zero hz]
  simp only [View.ld_unit_zero (S := S8000x1) hz, View.ld_unit_zero (S := S1x1) hz]

end Cert.KernelIdeal.Pieces

end
-- ==== Proof.LibOnlineSoftmax.lean ====
/-
  The tiled ("online") softmax-weighted sum over the extended reals.

  A row of scores `s j` (each a real number or `⊥`, never `⊤`) and a row of real values `v j` are visited a
  tile of keys at a time. Between tiles one keeps a level `m` (an upper bound of the scores seen so far, `⊥`
  before the first tile), a denominator `l` and a numerator `acc`; a tile with new level `m'` replaces them by
      l'   = exp (m - m') * l   + ∑ j in tile, exp (s j - m')
      acc' = exp (m - m') * acc + ∑ j in tile, exp (s j - m') * v j .
  The invariant `Inv` says that `l` and `acc` are the sums over the keys seen so far of the weights
  `exp (s j - m)` and of the weights times the values. It holds before the first tile (`Inv.init`), every tile
  preserves it (`Inv.step`: the factor `exp (m - m')` moves every old weight from level `m` to level `m'`,
  because `exp (m - m') * exp (x - m) = exp (x - m')`, also when `m = ⊥` where both sides vanish), and once
  all keys are seen the quotient `acc / l` is the plain softmax-weighted sum `∑ j, (e j / ∑ k, e k) * v j` with
  `e j = exp (s j - M)` for ANY real level `M` (`Inv.result`): the common factor `exp (m - M)` cancels.
  Everything is computed in the reals: the exponential of anything but `⊤` is a real number.
-/
import Idealize.ShloMosaic.PureOps.Ideal
import Mathlib.Data.EReal.Operations
import Mathlib.Analysis.SpecialFunctions.Exp
import Mathlib.Algebra.BigOperators.Field
import Mathlib.Tactic

noncomputable section

namespace OnlineSoftmax

open Idealize.ShloMosaic
open scoped BigOperators

/-- The cast of a finite real sum is the sum of the casts. -/
theorem coe_sum {ι : Type*} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The exponential of anything but `⊤` is a real number. -/
theorem exp_eq_coe {y : EReal} (hy : y ≠ ⊤) : Ideal.exp y = ((Ideal.exp y).toReal : EReal) := by
  induction y using EReal.rec with
  | bot => simp
  | coe r => simp
  | top => exact absurd rfl hy

/-- That real number is not negative. -/
theorem exp_toReal_nonneg (y : EReal) : 0 ≤ (Ideal.exp y).toReal := by
  induction y using EReal.rec with
  | bot => simp
  | coe r => simp [Real.exp_nonneg]
  | top => simp

/-- Subtracting a real from anything but `⊤` does not give `⊤`. -/
theorem sub_coe_ne_top {x : EReal} (hx : x ≠ ⊤) (r : ℝ) : x - (r : EReal) ≠ ⊤ := by
  induction x using EReal.rec with
  | bot => simp [EReal.bot_sub]
  | coe a => rw [← EReal.coe_sub]; exact EReal.coe_ne_top _
  | top => exact absurd rfl hx

/-- Moving a weight from level `m` to the real level `r'`. -/
theorem rescale {x m : EReal} (r' : ℝ) (hx : x ≠ ⊤) (hxm : x ≤ m) (hm : m ≠ ⊤) :
    (Ideal.exp (m - r')).toReal * (Ideal.exp (x - m)).toReal = (Ideal.exp (x - r')).toReal := by
  induction m using EReal.rec with
  | bot =>
    have hxb : x = ⊥ := le_bot_iff.mp hxm
    subst hxb
    simp [EReal.bot_sub]
  | top => exact absurd rfl hm
  | coe r =>
    induction x using EReal.rec with
    | bot => simp [EReal.bot_sub]
    | top => exact absurd rfl hx
    | coe a =>
      rw [← EReal.coe_sub, ← EReal.coe_sub, ← EReal.coe_sub]
      simp only [Ideal.exp_coe, EReal.toReal_coe]
      rw [← Real.exp_add]
      congr 1
      ring

variable {ι : Type*}

/-- The weight of key `j` against the level `m`, as a real number. -/
def wt (s : ι → EReal) (m : EReal) (j : ι) : ℝ := (Ideal.exp (s j - m)).toReal

theorem wt_nonneg (s : ι → EReal) (m : EReal) (j : ι) : 0 ≤ wt s m j := exp_toReal_nonneg _

/-- Against a real level the weight is the extended-real exponential itself. -/
theorem exp_eq_wt (s : ι → EReal) (hs : ∀ j, s j ≠ ⊤) (r : ℝ) (j : ι) :
    Ideal.exp (s j - (r : EReal)) = ((wt s r j : ℝ) : EReal) :=
  exp_eq_coe (sub_coe_ne_top (hs j) r)

/-- The state between tiles: `m` bounds the scores seen, `l` and `acc` are the sums of the weights and of the
    weights times the values over the keys seen. -/
structure Inv (s : ι → EReal) (v : ι → ℝ) (S : Finset ι) (m l acc : EReal) : Prop where
  bound : ∀ j ∈ S, s j ≤ m
  den : l = ((∑ j ∈ S, wt s m j : ℝ) : EReal)
  num : acc = ((∑ j ∈ S, wt s m j * v j : ℝ) : EReal)

/-- Before the first tile: level `⊥`, both sums empty. -/
theorem Inv.init (s : ι → EReal) (v : ι → ℝ) : Inv s v ∅ ⊥ 0 0 :=
  ⟨fun _ h => absurd h (Finset.notMem_empty _), by simp, by simp⟩

/-- One tile. -/
theorem Inv.step [DecidableEq ι] {s : ι → EReal} {v : ι → ℝ} {S τ : Finset ι} {m l acc : EReal}
    (h : Inv s v S m l acc) (hs : ∀ j, s j ≠ ⊤) (hd : Disjoint S τ) (r' : ℝ)
    (hm : m ≤ (r' : EReal)) (hτ : ∀ j ∈ τ, s j ≤ (r' : EReal)) :
    Inv s v (S ∪ τ) (r' : EReal)
      (Ideal.exp (m - r') * l + ∑ j ∈ τ, Ideal.exp (s j - r'))
      (Ideal.exp (m - r') * acc + ∑ j ∈ τ, Ideal.exp (s j - r') * (v j : EReal)) := by
  have hmt : m ≠ ⊤ := fun e => by rw [e] at hm; exact absurd hm (by simp)
  have ha : Ideal.exp (m - r') = (((Ideal.exp (m - r')).toReal : ℝ) : EReal) := exp_eq_coe (sub_coe_ne_top hmt r')
  have hold : ∀ j ∈ S, (Ideal.exp (m - r')).toReal * wt s m j = wt s r' j := fun j hj =>
    rescale r' (hs j) (h.bound j hj) hmt
  have eτ : ∑ j ∈ τ, Ideal.exp (s j - r') = ((∑ j ∈ τ, wt s r' j : ℝ) : EReal) := by
    rw [coe_sum]; exact Finset.sum_congr rfl (fun j _ => exp_eq_wt s hs r' j)
  have eτv : ∑ j ∈ τ, Ideal.exp (s j - r') * (v j : EReal) = ((∑ j ∈ τ, wt s r' j * v j : ℝ) : EReal) := by
    rw [coe_sum]; exact Finset.sum_congr rfl (fun j _ => by rw [exp_eq_wt s hs r' j, EReal.coe_mul])
  have e1 : (Ideal.exp (m - r')).toReal * ∑ j ∈ S, wt s m j = ∑ j ∈ S, wt s r' j := by
    rw [Finset.mul_sum]; exact Finset.sum_congr rfl hold
  have e2 : (Ideal.exp (m - r')).toReal * ∑ j ∈ S, wt s m j * v j = ∑ j ∈ S, wt s r' j * v j := by
    rw [Finset.mul_sum]; exact Finset.sum_congr rfl (fun j hj => by rw [← mul_assoc, hold j hj])
  refine ⟨fun j hj => ?_, ?_, ?_⟩
  · rcases Finset.mem_union.mp hj with hj | hj
    · exact (h.bound j hj).trans hm
    · exact hτ j hj
  · rw [eτ, h.den, ha, ← EReal.coe_mul, ← EReal.coe_add, e1, Finset.sum_union hd]
  · rw [eτv, h.num, ha, ← EReal.coe_mul, ← EReal.coe_add, e2, Finset.sum_union hd]

/-- A masked key (score `⊥`) has weight zero against every level. -/
theorem wt_bot {s : ι → EReal} {j : ι} (h : s j = ⊥) (m : EReal) : wt s m j = 0 := by
  unfold wt; rw [h, EReal.bot_sub]; simp

/-- A tile all of whose keys are masked may be skipped: the state already accounts for it. (A causal kernel skips
    the key tiles that lie wholly after a query chunk.) -/
theorem Inv.skip [DecidableEq ι] {s : ι → EReal} {v : ι → ℝ} {S τ : Finset ι} {m l acc : EReal}
    (h : Inv s v S m l acc) (hd : Disjoint S τ) (hτ : ∀ j ∈ τ, s j = ⊥) : Inv s v (S ∪ τ) m l acc := by
  refine ⟨fun j hj => ?_, ?_, ?_⟩
  · rcases Finset.mem_union.mp hj with hj | hj
    · exact h.bound j hj
    · rw [hτ j hj]; exact bot_le
  · rw [h.den, Finset.sum_union hd, Finset.sum_eq_zero (s := τ) (fun j hj => wt_bot (hτ j hj) m), add_zero]
  · rw [h.num, Finset.sum_union hd,
      Finset.sum_eq_zero (s := τ) (fun j hj => by rw [wt_bot (hτ j hj) m, zero_mul]), add_zero]

/-- A row maximum taken as a fold of `max` from `⊥` (the way a lane reduction with the neutral accumulator reads
    at the extended reals) is the supremum of the row. -/
theorem fold_max_bot (S : Finset ι) (f : ι → EReal) : S.fold max ⊥ f = S.sup f := by
  classical
  induction S using Finset.induction_on with
  | empty => simp
  | insert a S ha ih => rw [Finset.fold_insert ha, Finset.sup_insert, ih]

/-- The level after a tile is the larger of the old level and the tile's largest score. It is a real number as
    soon as the old level is not `⊥` or some score of the tile is not `⊥` (no score and no level being `⊤`). -/
theorem level_real {s : ι → EReal} (hs : ∀ j, s j ≠ ⊤) {τ : Finset ι} {m : EReal} (hm : m ≠ ⊤)
    (hne : m ≠ ⊥ ∨ ∃ j ∈ τ, s j ≠ ⊥) : ∃ r : ℝ, max m (τ.sup s) = (r : EReal) := by
  have hsup : τ.sup s < ⊤ := (Finset.sup_lt_iff bot_lt_top).mpr (fun j _ => lt_top_iff_ne_top.mpr (hs j))
  have htop : max m (τ.sup s) ≠ ⊤ := (max_lt (lt_top_iff_ne_top.mpr hm) hsup).ne
  have hbot : max m (τ.sup s) ≠ ⊥ := by
    rcases hne with h | ⟨j, hj, h⟩
    · exact ((bot_lt_iff_ne_bot.mpr h).trans_le (le_max_left _ _)).ne'
    · exact ((bot_lt_iff_ne_bot.mpr h).trans_le ((Finset.le_sup hj).trans (le_max_right _ _))).ne'
  exact ⟨_, (EReal.coe_toReal htop hbot).symm⟩

/-- One tile, with the new level taken as the running maximum does: the larger of the old level and the tile's
    largest score. -/
theorem Inv.tile [DecidableEq ι] {s : ι → EReal} {v : ι → ℝ} {S τ : Finset ι} {m l acc : EReal}
    (h : Inv s v S m l acc) (hs : ∀ j, s j ≠ ⊤) (hd : Disjoint S τ) (hm : m ≠ ⊤)
    (hne : m ≠ ⊥ ∨ ∃ j ∈ τ, s j ≠ ⊥) :
    (∃ r : ℝ, max m (τ.sup s) = (r : EReal)) ∧
    Inv s v (S ∪ τ) (max m (τ.sup s))
      (Ideal.exp (m - max m (τ.sup s)) * l + ∑ j ∈ τ, Ideal.exp (s j - max m (τ.sup s)))
      (Ideal.exp (m - max m (τ.sup s)) * acc + ∑ j ∈ τ, Ideal.exp (s j - max m (τ.sup s)) * (v j : EReal)) := by
  obtain ⟨r, hr⟩ := level_real hs hm hne
  refine ⟨⟨r, hr⟩, ?_⟩
  have h1 : m ≤ (r : EReal) := hr ▸ le_max_left _ _
  have h2 : ∀ j ∈ τ, s j ≤ (r : EReal) := fun j hj => hr ▸ (Finset.le_sup hj).trans (le_max_right _ _)
  rw [hr]
  exact h.step hs hd r h1 h2

/-- All keys seen, at a real level, with at least one score that is not `⊥`: the quotient is the plain
    softmax-weighted sum, written at any real level `M`. -/
theorem Inv.result [Fintype ι] {s : ι → EReal} {v : ι → ℝ} {r : ℝ} {l acc : EReal}
    (h : Inv s v Finset.univ (r : EReal) l acc) (hs : ∀ j, s j ≠ ⊤) (hne : ∃ j, s j ≠ ⊥) (M : ℝ) :
    Ideal.div acc l
      = ∑ j, Ideal.div (Ideal.exp (s j - M)) (∑ k, Ideal.exp (s k - M)) * (v j : EReal) := by
  classical
  -- the denominators are positive reals
  have hpos : ∀ (x : ℝ), 0 < ∑ k, wt s x k := fun x => by
    obtain ⟨j, hj⟩ := hne
    refine Finset.sum_pos' (fun k _ => wt_nonneg s x k) ⟨j, Finset.mem_univ j, ?_⟩
    have hjr : ∃ a : ℝ, s j = a := by
      induction hsj : s j using EReal.rec with
      | bot => exact absurd hsj hj
      | coe a => exact ⟨a, rfl⟩
      | top => exact absurd hsj (hs j)
    obtain ⟨a, ha⟩ := hjr
    unfold wt
    rw [ha, ← EReal.coe_sub]
    simp only [Ideal.exp_coe, EReal.toReal_coe]
    exact Real.exp_pos _
  -- every weight at level M is the weight at level r times one common positive factor
  have hc : ∀ j, wt s M j = Real.exp (r - M) * wt s r j := fun j => by
    have := rescale (x := s j) (m := (r : EReal)) M (hs j) (h.bound j (Finset.mem_univ j)) (EReal.coe_ne_top r)
    show (Ideal.exp (s j - (M : EReal))).toReal = Real.exp (r - M) * (Ideal.exp (s j - (r : EReal))).toReal
    rw [← this, ← EReal.coe_sub]
    simp only [Ideal.exp_coe, EReal.toReal_coe]
  have hW : (∑ k, wt s r k) ≠ 0 := (hpos r).ne'
  have hW' : (∑ k, wt s M k) ≠ 0 := (hpos M).ne'
  have hcpos : Real.exp (r - M) ≠ 0 := (Real.exp_pos _).ne'
  have eden : ∑ k, Ideal.exp (s k - M) = ((∑ k, wt s M k : ℝ) : EReal) := by
    rw [coe_sum]; exact Finset.sum_congr rfl (fun k _ => exp_eq_wt s hs M k)
  have eterm : ∀ j, Ideal.div (Ideal.exp (s j - M)) ((∑ k, wt s M k : ℝ) : EReal) * (v j : EReal)
      = ((wt s M j * (1 / ∑ k, wt s M k) * v j : ℝ) : EReal) := fun j => by
    rw [exp_eq_wt s hs M j, Ideal.div_coe hW', ← EReal.coe_mul, ← EReal.coe_mul]
  have hsum : (∑ k, wt s M k) = Real.exp (r - M) * ∑ k, wt s r k := by
    rw [Finset.mul_sum]; exact Finset.sum_congr rfl (fun k _ => hc k)
  rw [h.num, h.den, Ideal.div_coe hW, ← EReal.coe_mul, eden, Finset.sum_congr rfl (fun j _ => eterm j), ← coe_sum]
  congr 1
  rw [hsum, Finset.sum_mul]
  refine Finset.sum_congr rfl (fun j _ => ?_)
  rw [hc j]
  field_simp

end OnlineSoftmax

end
-- ==== Proof.LibReal.lean ====
/-
  Real entries of extended-real arrays.

  * `IsReal x`: the extended real `x` is a real number; closed under sums, products, maxima and finite sums; the
    zero word of single precision is real; `|x| < +∞` makes `x` real; the coercion of the reals commutes with finite sums;
  * the usual finiteness precondition read entry by entry: where `all (|x| < +∞)` — the comparison of `|x|` with the
    broadcast `+∞` word, reduced by `and` from 1 over all axes into the scalar shape — is 1, every entry of `x` is real
    (`real_of_entry`, `real_of_all`), for an array of any shape.
-/
import Idealize.ShloMosaic.PureOps.Ideal
import Idealize.ShloMosaic.PureOps.Ideal.Laws
import Idealize.ShloMosaic.Lib.ValueIdx
import Idealize.ShloMosaic.Lib.ReduceAll

noncomputable section

namespace Cert.LibReal

open Idealize.ShloMosaic

/-- An extended real that is a real number. -/
def IsReal (x : EReal) : Prop := ∃ r : ℝ, x = (r : EReal)

theorem isReal_coe (r : ℝ) : IsReal (r : EReal) := ⟨r, rfl⟩
theorem isReal_zero_word : IsReal (Ideal.ofBits .f32 0x00000000#32) := ⟨0, by rw [Ideal.ofBits_zero_f32]; rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- `|x| < +∞` says `x` is a real number. -/
theorem isReal_of_abs_lt_top {x : EReal} (h : max x (-x) < ⊤) : IsReal x := by
  induction x using EReal.rec with
  | bot => simp at h
  | coe r => exact ⟨r, rfl⟩
  | top => simp at h

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The finiteness precondition, entry by entry -/

/-- The scalar shape has exactly one index, so a reduction over all axes has one result. -/
private instance subsingleton_scalar_idx : Subsingleton (⟨0, ![]⟩ : Shape).Idx := ⟨fun a b => funext fun d => d.elim0⟩

/-- The single-precision pattern `0x7F800000` (sign 0, exponent all ones, significand 0) denotes `+∞`. -/
theorem top_word : Ideal.ofBits .f32 0x7F800000#32 = ⊤ := by simp [Ideal.ofBits, Ideal.ieee]

/-- A Boolean as a one-bit word is 1 exactly when it is true. -/
theorem ofBool_eq_one (b : Bool) : BitVec.ofBool b = 1#1 ↔ b = true := by cases b <;> decide

/-- One entry. The comparison `|x| < c` at an index compares `max (x i) (-(x i))` with the value the scalar `c`
    broadcasts, here `+∞`; where it yields 1 the entry's absolute value is below `+∞`, so the entry is real. -/
theorem real_of_entry {s : Shape} (hb : (⟨0, ![]⟩ : Shape).BroadcastsInDim s (![] : Fin 0 → Fin s.rank))
    (x : FVec Ideal s .f32) (i : s.Idx)
    (e : cmpf .olt (Host.absf x) (broadcastInDim s ![] hb (constant ⟨0, ![]⟩ .f32 0x7F800000#32)) i = 1#1) :
    IsReal (x i) := by
  apply isReal_of_abs_lt_top
  have e' : Ideal.cmp .olt (max (x i) (-(x i))) (Ideal.ofBits .f32 0x7F800000#32) = 1#1 := e
  rw [top_word] at e'
  have e'' : BitVec.ofBool (decide (max (x i) (-(x i)) < ⊤)) = 1#1 := e'
  exact of_decide_eq_true ((ofBool_eq_one _).1 e'')

/-- One input. A conjunction (a reduction by `and` from 1) over all axes that is 1 met a 1 at every index, and
    each such 1 says that entry is real. -/
theorem real_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32) (init : IVec ⟨0, ![]⟩ 1)
    (e : Host.reduce IntOp.andi (cmpf .olt (Host.absf x) (broadcastInDim s ![] hb (constant ⟨0, ![]⟩ .f32 0x7F800000#32)))
      init hr hu ValueIdx.ix0 = 1#1) (i : s.Idx) : IsReal (x i) :=
  real_of_entry hb x i (Host.reduce_andi_all _ init hr hu _ e i)

end Cert.LibReal

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Spec.lean ====
/-
  Gated attention pooling, as mathematics on the extended reals.

  A bag of `N` rows `h i : Fin 32 → EReal` is scored row by row: the score of a row is
      rowScore h = (∑ₖ tanh (h · Wv[·,k] + bv k) * logistic (h · Wu[·,k] + bu k) * Ww k) + bw ,
  a real number whenever the row and the weights are real. The rows are then pooled with softmax weights
      weight s i = exp (s i - top) / ∑ₖ exp (s k - top),   top = the largest score,
  `pooled d = ∑ᵢ weight s i * H i d`.

  The pooled vector can be accumulated a tile of `R` rows at a time (`N = P * R`): between tiles one keeps a level
  `M` (the largest score seen), a denominator `L` and a numerator `A`, and a tile `a` with new level `m' = max m (sup a)`
  replaces them by `L * exp (m - m') + ∑ᵣ exp (a r - m')` and `A * exp (m - m') + ∑ᵣ exp (a r - m') * h r`. After the last
  tile the level is the largest score, the denominator is `∑ₖ exp (s k - top)`, and `A / L` is the pooled entry
  (`tiles_top`, `tiles_den`, `tiles_pool`): each tile moves the old weights from the old level to the new one, because
  `exp (m - m') * exp (x - m) = exp (x - m')`, and the first tile starts from level `⊥` where both sides vanish.
-/
import Idealize.ShloMosaic.PureOps.Ideal
import Idealize.ShloMosaic.PureOps.Ideal.Laws
import proofs.«117047_j15135464751637_2_alg».proof.Proof.LibOnlineSoftmax
import proofs.«117047_j15135464751637_2_alg».proof.Proof.LibReal
import proofs.«117047_j15135464751637_2_alg».proof.Proof.LibSums
import Mathlib.Tactic

noncomputable section

namespace GatedPool

open Idealize.ShloMosaic OnlineSoftmax Cert.LibReal
open scoped BigOperators

/-! ## One row's score -/

/-- The score of one row: two 32→16 affine maps, `tanh` of one times the logistic of the other, then a 16→1 affine map. -/
def rowScore (Wv : Fin 32 → Fin 16 → EReal) (bv : Fin 16 → EReal) (Wu : Fin 32 → Fin 16 → EReal) (bu : Fin 16 → EReal)
    (Ww : Fin 16 → EReal) (bw : EReal) (h : Fin 32 → EReal) : EReal :=
  (∑ k : Fin 16, (Ideal.tanh ((∑ j : Fin 32, h j * Wv j k) + bv k) * Ideal.logistic ((∑ j : Fin 32, h j * Wu j k) + bu k)) * Ww k) + bw

theorem isReal_tanh {x : EReal} (hx : IsReal x) : IsReal (Ideal.tanh x) := by
  obtain ⟨r, rfl⟩ := hx; exact ⟨Real.tanh r, Ideal.tanh_coe r⟩

theorem isReal_logistic {x : EReal} (hx : IsReal x) : IsReal (Ideal.logistic x) := by
  obtain ⟨r, rfl⟩ := hx; exact ⟨_, Ideal.logistic_coe r⟩

/-- Real weights and a real row give a real score. -/
theorem rowScore_real {Wv : Fin 32 → Fin 16 → EReal} {bv : Fin 16 → EReal} {Wu : Fin 32 → Fin 16 → EReal} {bu : Fin 16 → EReal}
    {Ww : Fin 16 → EReal} {bw : EReal} {h : Fin 32 → EReal}
    (hWv : ∀ j k, IsReal (Wv j k)) (hbv : ∀ k, IsReal (bv k)) (hWu : ∀ j k, IsReal (Wu j k)) (hbu : ∀ k, IsReal (bu k))
    (hWw : ∀ k, IsReal (Ww k)) (hbw : IsReal bw) (hh : ∀ j, IsReal (h j)) : IsReal (rowScore Wv bv Wu bu Ww bw h) := by
  unfold rowScore
  refine IsReal.add (IsReal.sum _ _ fun k _ => IsReal.mul (IsReal.mul ?_ ?_) (hWw k)) hbw
  · exact isReal_tanh (IsReal.add (IsReal.sum _ _ fun j _ => IsReal.mul (hh j) (hWv j k)) (hbv k))
  · exact isReal_logistic (IsReal.add (IsReal.sum _ _ fun j _ => IsReal.mul (hh j) (hWu j k)) (hbu k))

/-! ## Softmax weights and the pooled vector -/

variable {N : ℕ}

/-- The largest score. -/
def top (s : Fin N → EReal) : EReal := Finset.univ.sup s

/-- The softmax weight of row `i`. -/
def weight (s : Fin N → EReal) (i : Fin N) : EReal :=
  Ideal.div (Ideal.exp (s i - top s)) (∑ k, Ideal.exp (s k - top s))

/-- The pooled entry of column `v`. -/
def pooled (s : Fin N → EReal) (v : Fin N → EReal) : EReal := ∑ i, weight s i * v i

/-! ## Tiles -/

section Tiles

variable {P R : ℕ} (hN : P * R = N)

/-- Position `r` of tile `t`. -/
def pos (t : Fin P) (r : Fin R) : Fin N := ⟨R * t.val + r.val, Cert.LibSums.tile_lt hN t r⟩

theorem pos_val (t : Fin P) (r : Fin R) : (pos hN t r).val = R * t.val + r.val := rfl

theorem pos_injective (t : Fin P) : Function.Injective (pos hN t) := fun r r' e => by
  have := congrArg Fin.val e
  simp only [pos_val] at this
  exact Fin.ext (by omega)

/-- Tile `t` of a row-indexed family. -/
def tile {α : Type*} (s : Fin N → α) (t : Fin P) : Fin R → α := fun r => s (pos hN t r)

/-- The level after a tile. -/
def lvl (m : EReal) (a : Fin R → EReal) : EReal := max m (Finset.univ.sup a)
/-- The denominator after a tile. -/
def den (m l : EReal) (a : Fin R → EReal) : EReal := l * Ideal.exp (m - lvl m a) + ∑ r, Ideal.exp (a r - lvl m a)
/-- The numerator after a tile. -/
def num (m acc : EReal) (a h : Fin R → EReal) : EReal := acc * Ideal.exp (m - lvl m a) + ∑ r, Ideal.exp (a r - lvl m a) * h r

/-- The level after tiles `0 … n`. -/
def M (s : Fin N → EReal) : (n : ℕ) → n < P → EReal
  | 0, h => lvl ⊥ (tile hN s ⟨0, h⟩)
  | n + 1, h => lvl (M s n (Nat.lt_of_succ_lt h)) (tile hN s ⟨n + 1, h⟩)
/-- The denominator after tiles `0 … n`. -/
def L (s : Fin N → EReal) : (n : ℕ) → n < P → EReal
  | 0, h => den ⊥ 0 (tile hN s ⟨0, h⟩)
  | n + 1, h => den (M hN s n (Nat.lt_of_succ_lt h)) (L s n (Nat.lt_of_succ_lt h)) (tile hN s ⟨n + 1, h⟩)
/-- The numerator after tiles `0 … n`. -/
def A (s v : Fin N → EReal) : (n : ℕ) → n < P → EReal
  | 0, h => num ⊥ 0 (tile hN s ⟨0, h⟩) (tile hN v ⟨0, h⟩)
  | n + 1, h => num (M hN s n (Nat.lt_of_succ_lt h)) (A s v n (Nat.lt_of_succ_lt h)) (tile hN s ⟨n + 1, h⟩) (tile hN v ⟨n + 1, h⟩)

/-- The rows of tile `t`. -/
def tileSet (t : Fin P) : Finset (Fin N) := Finset.univ.map ⟨pos hN t, pos_injective hN t⟩

theorem mem_tileSet {t : Fin P} {j : Fin N} : j ∈ tileSet hN t ↔ R * t.val ≤ j.val ∧ j.val < R * (t.val + 1) := by
  unfold tileSet
  rw [Finset.mem_map, Nat.mul_succ]
  constructor
  · rintro ⟨r, -, rfl⟩
    have := r.isLt
    show R * t.val ≤ R * t.val + r.val ∧ R * t.val + r.val < R * t.val + R
    omega
  · rintro ⟨h1, h2⟩
    exact ⟨⟨j.val - R * t.val, by omega⟩, Finset.mem_univ _, Fin.ext (by show R * t.val + (j.val - R * t.val) = j.val; omega)⟩

/-- The rows of tiles `0 … n`. -/
def seen : (n : ℕ) → n < P → Finset (Fin N)
  | 0, h => tileSet hN ⟨0, h⟩
  | n + 1, h => seen n (Nat.lt_of_succ_lt h) ∪ tileSet hN ⟨n + 1, h⟩

theorem mem_seen : ∀ (n : ℕ) (h : n < P) (j : Fin N), j ∈ seen hN n h ↔ j.val < R * (n + 1)
  | 0, h, j => by
    unfold seen
    rw [mem_tileSet]
    show R * 0 ≤ j.val ∧ j.val < R * (0 + 1) ↔ _
    rw [Nat.mul_zero]
    exact ⟨fun h => h.2, fun h => ⟨Nat.zero_le _, h⟩⟩
  | n + 1, h, j => by
    unfold seen
    rw [Finset.mem_union, mem_seen n, mem_tileSet]
    show j.val < R * (n + 1) ∨ R * (n + 1) ≤ j.val ∧ j.val < R * (n + 1 + 1) ↔ j.val < R * (n + 1 + 1)
    have : R * (n + 1 + 1) = R * (n + 1) + R := Nat.mul_succ _ _
    omega

theorem seen_disjoint (n : ℕ) (h : n + 1 < P) : Disjoint (seen hN n (Nat.lt_of_succ_lt h)) (tileSet hN ⟨n + 1, h⟩) := by
  rw [Finset.disjoint_left]
  intro j hj hj'
  have h1 := (mem_seen hN n _ j).mp hj
  have h2 := (mem_tileSet hN).mp hj'
  have : R * (n + 1) ≤ j.val := h2.1
  omega

theorem seen_last (hP : 0 < P) : seen hN (P - 1) (Nat.sub_lt hP Nat.one_pos) = Finset.univ := by
  ext j
  rw [mem_seen]
  have : R * (P - 1 + 1) = N := by rw [Nat.sub_add_cancel hP, Nat.mul_comm]; exact hN
  simp only [Finset.mem_univ, iff_true]
  have := j.isLt
  omega

theorem sum_tile {β : Type*} [AddCommMonoid β] (f : Fin N → β) (t : Fin P) :
    ∑ r : Fin R, f (pos hN t r) = ∑ j ∈ tileSet hN t, f j := by
  unfold tileSet; rw [Finset.sum_map]; rfl

theorem sup_tile (s : Fin N → EReal) (t : Fin P) : Finset.univ.sup (tile hN s t) = (tileSet hN t).sup s := by
  unfold tileSet; rw [Finset.sup_map]; rfl

/-- After tiles `0 … n` of real scores and real values: the level is a real number, it is the largest score seen, and the
    denominator and numerator are the sums of the weights and of the weights times the values over the rows seen. -/
theorem tiles_inv (hR : 0 < R) (sr vr : Fin N → ℝ) :
    ∀ (n : ℕ) (h : n < P),
      (∃ r : ℝ, M hN (fun j => (sr j : EReal)) n h = (r : EReal))
      ∧ M hN (fun j => (sr j : EReal)) n h = (seen hN n h).sup (fun j => (sr j : EReal))
      ∧ Inv (fun j => (sr j : EReal)) vr (seen hN n h) (M hN (fun j => (sr j : EReal)) n h)
          (L hN (fun j => (sr j : EReal)) n h) (A hN (fun j => (sr j : EReal)) (fun j => (vr j : EReal)) n h)
  | 0, h => by
    classical
    have hs : ∀ j, (fun j => (sr j : EReal)) j ≠ ⊤ := fun j => EReal.coe_ne_top _
    have hne : (⊥ : EReal) ≠ ⊥ ∨ ∃ j ∈ tileSet hN (⟨0, h⟩ : Fin P), (fun j => (sr j : EReal)) j ≠ ⊥ :=
      Or.inr ⟨pos hN ⟨0, h⟩ ⟨0, hR⟩, Finset.mem_map.mpr ⟨_, Finset.mem_univ _, rfl⟩, EReal.coe_ne_bot _⟩
    obtain ⟨hr, hi⟩ := (Inv.init (fun j => (sr j : EReal)) vr).tile hs (Finset.disjoint_empty_left _) bot_ne_top hne
    rw [Finset.empty_union] at hi
    have eM : M hN (fun j => (sr j : EReal)) 0 h = max ⊥ ((tileSet hN ⟨0, h⟩).sup fun j => (sr j : EReal)) := by
      show max ⊥ (Finset.univ.sup (tile hN _ _)) = _
      rw [sup_tile]
    have eL : L hN (fun j => (sr j : EReal)) 0 h
        = Ideal.exp (⊥ - max ⊥ ((tileSet hN ⟨0, h⟩).sup fun j => (sr j : EReal))) * 0
          + ∑ j ∈ tileSet hN ⟨0, h⟩, Ideal.exp ((sr j : EReal) - max ⊥ ((tileSet hN ⟨0, h⟩).sup fun j => (sr j : EReal))) := by
      show (0 : EReal) * Ideal.exp (⊥ - lvl ⊥ (tile hN _ _)) + ∑ r, Ideal.exp (tile hN _ _ r - lvl ⊥ (tile hN _ _)) = _
      unfold lvl
      rw [sup_tile, mul_comm, ← sum_tile hN (fun j => Ideal.exp ((sr j : EReal) - _))]
      rfl
    have eA : A hN (fun j => (sr j : EReal)) (fun j => (vr j : EReal)) 0 h
        = Ideal.exp (⊥ - max ⊥ ((tileSet hN ⟨0, h⟩).sup fun j => (sr j : EReal))) * 0
          + ∑ j ∈ tileSet hN ⟨0, h⟩, Ideal.exp ((sr j : EReal) - max ⊥ ((tileSet hN ⟨0, h⟩).sup fun j => (sr j : EReal))) * (vr j : EReal) := by
      show (0 : EReal) * Ideal.exp (⊥ - lvl ⊥ (tile hN _ _)) + ∑ r, Ideal.exp (tile hN _ _ r - lvl ⊥ (tile hN _ _)) * tile hN _ _ r = _
      unfold lvl
      rw [sup_tile, mul_comm, ← sum_tile hN (fun j => Ideal.exp ((sr j : EReal) - _) * (vr j : EReal))]
      rfl
    rw [eM, eL, eA]
    refine ⟨hr, ?_, hi⟩
    show max ⊥ _ = (seen hN 0 h).sup _
    rw [max_eq_right bot_le]; rfl
  | n + 1, h => by
    classical
    obtain ⟨⟨r, hr⟩, hsup, hi⟩ := tiles_inv hR sr vr n (Nat.lt_of_succ_lt h)
    have hs : ∀ j, (fun j => (sr j : EReal)) j ≠ ⊤ := fun j => EReal.coe_ne_top _
    have hm : M hN (fun j => (sr j : EReal)) n (Nat.lt_of_succ_lt h) ≠ ⊤ := by rw [hr]; exact EReal.coe_ne_top _
    have hne : M hN (fun j => (sr j : EReal)) n (Nat.lt_of_succ_lt h) ≠ ⊥ ∨ ∃ j ∈ tileSet hN (⟨n + 1, h⟩ : Fin P), (fun j => (sr j : EReal)) j ≠ ⊥ :=
      Or.inl (by rw [hr]; exact EReal.coe_ne_bot _)
    obtain ⟨hr', hi'⟩ := hi.tile hs (seen_disjoint hN n h) hm hne
    have eM : M hN (fun j => (sr j : EReal)) (n + 1) h
        = max (M hN (fun j => (sr j : EReal)) n (Nat.lt_of_succ_lt h)) ((tileSet hN ⟨n + 1, h⟩).sup fun j => (sr j : EReal)) := by
      show max _ (Finset.univ.sup (tile hN _ _)) = _
      rw [sup_tile]
    have eL : L hN (fun j => (sr j : EReal)) (n + 1) h
        = Ideal.exp (M hN (fun j => (sr j : EReal)) n (Nat.lt_of_succ_lt h) - max (M hN (fun j => (sr j : EReal)) n (Nat.lt_of_succ_lt h)) ((tileSet hN ⟨n + 1, h⟩).sup fun j => (sr j : EReal)))
            * L hN (fun j => (sr j : EReal)) n (Nat.lt_of_succ_lt h)
          + ∑ j ∈ tileSet hN ⟨n + 1, h⟩, Ideal.exp ((sr j : EReal) - max (M hN (fun j => (sr j : EReal)) n (Nat.lt_of_succ_lt h)) ((tileSet hN ⟨n + 1, h⟩).sup fun j => (sr j : EReal))) := by
      show L hN _ n _ * Ideal.exp (M hN _ n _ - lvl (M hN _ n _) (tile hN _ _)) + ∑ r, Ideal.exp (tile hN _ _ r - lvl (M hN _ n _) (tile hN _ _)) = _
      unfold lvl
      rw [sup_tile, mul_comm, ← sum_tile hN (fun j => Ideal.exp ((sr j : EReal) - _))]
      rfl
    have eA : A hN (fun j => (sr j : EReal)) (fun j => (vr j : EReal)) (n + 1) h
        = Ideal.exp (M hN (fun j => (sr j : EReal)) n (Nat.lt_of_succ_lt h) - max (M hN (fun j => (sr j : EReal)) n (Nat.lt_of_succ_lt h)) ((tileSet hN ⟨n + 1, h⟩).sup fun j => (sr j : EReal)))
            * A hN (fun j => (sr j : EReal)) (fun j => (vr j : EReal)) n (Nat.lt_of_succ_lt h)
          + ∑ j ∈ tileSet hN ⟨n + 1, h⟩, Ideal.exp ((sr j : EReal) - max (M hN (fun j => (sr j : EReal)) n (Nat.lt_of_succ_lt h)) ((tileSet hN ⟨n + 1, h⟩).sup fun j => (sr j : EReal))) * (vr j : EReal) := by
      show A hN _ _ n _ * Ideal.exp (M hN _ n _ - lvl (M hN _ n _) (tile hN _ _)) + ∑ r, Ideal.exp (tile hN _ _ r - lvl (M hN _ n _) (tile hN _ _)) * tile hN _ _ r = _
      unfold lvl
      rw [sup_tile, mul_comm, ← sum_tile hN (fun j => Ideal.exp ((sr j : EReal) - _) * (vr j : EReal))]
      rfl
    rw [eM, eL, eA]
    refine ⟨hr', ?_, hi'⟩
    show _ = (seen hN n _ ∪ tileSet hN ⟨n + 1, h⟩).sup _
    rw [Finset.sup_union, ← hsup]

/-- After the last tile the level is the largest score. -/
theorem tiles_top (hP : 0 < P) (hR : 0 < R) (sr : Fin N → ℝ) : M hN (fun j => (sr j : EReal)) (P - 1) (Nat.sub_lt hP Nat.one_pos) = top (fun j => (sr j : EReal)) := by
  rw [(tiles_inv hN hR sr sr _ _).2.1, seen_last hN hP]; rfl

/-- After the last tile the denominator is the sum of the weights against the largest score. -/
theorem tiles_den (hP : 0 < P) (hR : 0 < R) (sr : Fin N → ℝ) : L hN (fun j => (sr j : EReal)) (P - 1) (Nat.sub_lt hP Nat.one_pos)
    = ∑ k, Ideal.exp ((sr k : EReal) - top (fun j => (sr j : EReal))) := by
  obtain ⟨⟨r, hr⟩, -, hi⟩ := tiles_inv hN hR sr sr (P - 1) (Nat.sub_lt hP Nat.one_pos)
  rw [seen_last hN hP] at hi
  rw [← tiles_top hN hP hR sr, hi.den, hr, OnlineSoftmax.coe_sum]
  exact Finset.sum_congr rfl fun k _ => (exp_eq_wt _ (fun j => EReal.coe_ne_top _) r k).symm

/-- After the last tile numerator over denominator is the pooled entry. -/
theorem tiles_pool (hP : 0 < P) (hR : 0 < R) (sr vr : Fin N → ℝ) : Ideal.div (A hN (fun j => (sr j : EReal)) (fun j => (vr j : EReal)) (P - 1) (Nat.sub_lt hP Nat.one_pos))
      (L hN (fun j => (sr j : EReal)) (P - 1) (Nat.sub_lt hP Nat.one_pos))
    = pooled (fun j => (sr j : EReal)) (fun j => (vr j : EReal)) := by
  obtain ⟨⟨r, hr⟩, -, hi⟩ := tiles_inv hN hR sr vr (P - 1) (Nat.sub_lt hP Nat.one_pos)
  rw [seen_last hN hP] at hi
  have ht : top (fun j => (sr j : EReal)) = (r : EReal) := (tiles_top hN hP hR sr).symm.trans hr
  rw [hr] at hi
  have hN0 : 0 < N := by rw [← hN]; exact Nat.mul_pos hP hR
  have := hi.result (fun j => EReal.coe_ne_top _) ⟨⟨0, hN0⟩, EReal.coe_ne_bot _⟩ r
  rw [this]
  unfold pooled weight
  rw [ht]

end Tiles

end GatedPool

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.KPayloads.lean ====
/-
  The kernel's payloads read at an index, on the extended reals.

  Each payload is a composition of pointwise operations, layout operations (casts between equal shapes, a cast that
  adds a unit axis, row and column broadcasts), products into zero accumulators and reductions over the row axis. Read
  at an index built from literal coordinates, each becomes the expression of the gated-pooling vocabulary it computes:
  the row score, the tile's largest score, the level, and the denominator and numerator steps.
-/
import proofs.«117047_j15135464751637_2_alg».proof.Proof.Gen.KernelIdeal.Skeleton
import proofs.«117047_j15135464751637_2_alg».proof.Proof.Spec
import proofs.«117047_j15135464751637_2_alg».proof.Proof.LibDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payloads

open Idealize.ShloMosaic Idealize.ShloMosaic.ValueIdx Cert.KernelIdeal Cert.KernelIdeal.Gen GatedPool

/-! ## The two products' index maps -/

theorem d1_l0 (i : S8000x16.Idx) (q : dot_S8000x32_S32x16_S8000x16_1_0_0_1_n_n.contr.Idx) : (dot_S8000x32_S32x16_S8000x16_1_0_0_1_n_n.lhsIdx i q 0).val = (i 0).val := by
  unfold DotDims.lhsIdx
  rw [dif_neg (show ¬(0 : Fin S8000x32.rank) ∈ dot_S8000x32_S32x16_S8000x16_1_0_0_1_n_n.lhsBatch by decide), dif_pos (show (0 : Fin S8000x32.rank) ∈ dot_S8000x32_S32x16_S8000x16_1_0_0_1_n_n.lhsNonContracting by decide)]
  rfl
theorem d1_l1 (i : S8000x16.Idx) (q : dot_S8000x32_S32x16_S8000x16_1_0_0_1_n_n.contr.Idx) : (dot_S8000x32_S32x16_S8000x16_1_0_0_1_n_n.lhsIdx i q 1).val = (q ⟨0, by decide⟩).val :=
  dot_S8000x32_S32x16_S8000x16_1_0_0_1_n_n.lhsIdx_val_of_single rfl i q
theorem d1_r0 (i : S8000x16.Idx) (q : dot_S8000x32_S32x16_S8000x16_1_0_0_1_n_n.contr.Idx) : (dot_S8000x32_S32x16_S8000x16_1_0_0_1_n_n.rhsIdx i q 0).val = (q ⟨0, by decide⟩).val :=
  dot_S8000x32_S32x16_S8000x16_1_0_0_1_n_n.rhsIdx_val_of_single rfl i q
theorem d1_r1 (i : S8000x16.Idx) (q : dot_S8000x32_S32x16_S8000x16_1_0_0_1_n_n.contr.Idx) : (dot_S8000x32_S32x16_S8000x16_1_0_0_1_n_n.rhsIdx i q 1).val = (i 1).val := by
  unfold DotDims.rhsIdx
  rw [dif_neg (show ¬(1 : Fin S32x16.rank) ∈ dot_S8000x32_S32x16_S8000x16_1_0_0_1_n_n.rhsBatch by decide), dif_pos (show (1 : Fin S32x16.rank) ∈ dot_S8000x32_S32x16_S8000x16_1_0_0_1_n_n.rhsNonContracting by decide)]
  rfl
theorem d2_l0 (i : S8000x1.Idx) (q : dot_S8000x16_S16x1_S8000x1_1_0_0_1_n_n.contr.Idx) : (dot_S8000x16_S16x1_S8000x1_1_0_0_1_n_n.lhsIdx i q 0).val = (i 0).val := by
  unfold DotDims.lhsIdx
  rw [dif_neg (show ¬(0 : Fin S8000x16.rank) ∈ dot_S8000x16_S16x1_S8000x1_1_0_0_1_n_n.lhsBatch by decide), dif_pos (show (0 : Fin S8000x16.rank) ∈ dot_S8000x16_S16x1_S8000x1_1_0_0_1_n_n.lhsNonContracting by decide)]
  rfl
theorem d2_l1 (i : S8000x1.Idx) (q : dot_S8000x16_S16x1_S8000x1_1_0_0_1_n_n.contr.Idx) : (dot_S8000x16_S16x1_S8000x1_1_0_0_1_n_n.lhsIdx i q 1).val = (q ⟨0, by decide⟩).val :=
  dot_S8000x16_S16x1_S8000x1_1_0_0_1_n_n.lhsIdx_val_of_single rfl i q
theorem d2_r0 (i : S8000x1.Idx) (q : dot_S8000x16_S16x1_S8000x1_1_0_0_1_n_n.contr.Idx) : (dot_S8000x16_S16x1_S8000x1_1_0_0_1_n_n.rhsIdx i q 0).val = (q ⟨0, by decide⟩).val :=
  dot_S8000x16_S16x1_S8000x1_1_0_0_1_n_n.rhsIdx_val_of_single rfl i q
theorem d2_r1 (i : S8000x1.Idx) (q : dot_S8000x16_S16x1_S8000x1_1_0_0_1_n_n.contr.Idx) : (dot_S8000x16_S16x1_S8000x1_1_0_0_1_n_n.rhsIdx i q 1).val = (i 1).val := by
  unfold DotDims.rhsIdx
  rw [dif_neg (show ¬(1 : Fin S16x1.rank) ∈ dot_S8000x16_S16x1_S8000x1_1_0_0_1_n_n.rhsBatch by decide), dif_pos (show (1 : Fin S16x1.rank) ∈ dot_S8000x16_S16x1_S8000x1_1_0_0_1_n_n.rhsNonContracting by decide)]
  rfl

/-- The 8000×32 by 32×16 product into the zero accumulator, read at (r, k). -/
theorem matmul1_apply {φ₁ φ₂ : FTy} (A : FVec Ideal S8000x32 φ₁) (B : FVec Ideal S32x16 φ₂) (r : Fin 8000) (k : Fin 16) :
    matmul dot_S8000x32_S32x16_S8000x16_1_0_0_1_n_n none A B (constant (F := Ideal) S8000x16 .f32 0x00000000#32) (ix2 r k) = ∑ j : Fin 32, A (ix2 r j) * B (ix2 j k) :=
  Cert.LibDot.matmul_zero_apply dot_S8000x32_S32x16_S8000x16_1_0_0_1_n_n rfl rfl d1_l0 d1_l1 d1_r0 d1_r1 none A B r k

/-- The 8000×16 by 16×1 product into the zero accumulator, read at (r, e). -/
theorem matmul2_apply {φ₁ φ₂ : FTy} (A : FVec Ideal S8000x16 φ₁) (B : FVec Ideal S16x1 φ₂) (r : Fin 8000) (e : Fin 1) :
    matmul dot_S8000x16_S16x1_S8000x1_1_0_0_1_n_n none A B (constant (F := Ideal) S8000x1 .f32 0x00000000#32) (ix2 r e) = ∑ k : Fin 16, A (ix2 r k) * B (ix2 k e) :=
  Cert.LibDot.matmul_zero_apply dot_S8000x16_S16x1_S8000x1_1_0_0_1_n_n rfl rfl d2_l0 d2_l1 d2_r0 d2_r1 none A B r e

/-! ## The logits -/

/-- The score payload at row r is the row's score: both 32→16 products into zero accumulators plus their bias rows,
    the tanh of one times the logistic of the other, the 16→1 product, plus the last bias. -/
theorem pay10_apply (x0 : Vec Ideal S8000x32 .f32) (x1 : Vec Ideal S32x16 .bf16) (x2 : Vec Ideal S1x16 .f32)
    (x3 : Vec Ideal S32x16 .bf16) (x4 : Vec Ideal S1x16 .f32) (x5 : Vec Ideal S16x1 .bf16) (x6 : Vec Ideal S1x1 .f32)
    (r : Fin 8000) :
    k0_pay10 (F := Ideal) x0 x1 x2 x3 x4 x5 x6 (ix2 r 0)
      = rowScore (fun j k => x1 (ix2 j k)) (fun k => x2 (ix2 0 k)) (fun j k => x3 (ix2 j k)) (fun k => x4 (ix2 0 k))
          (fun k => x5 (ix2 k 0)) (x6 (ix2 0 0)) (fun j => x0 (ix2 r j)) := by
  unfold k0_pay10
  simp only [shapeCast_self]
  have hpre (W : FVec Ideal S32x16 .bf16) (b : FVec Ideal S1x16 .f32) (k : Fin 16) :
      addf (matmul dot_S8000x32_S32x16_S8000x16_1_0_0_1_n_n none (truncf .bf16 x0 bitsLt_bf16_f32) W (constant (F := Ideal) S8000x16 .f32 0x00000000#32))
          (broadcastTo S8000x16 b broadcasts_S1x16_S8000x16) (ix2 r k)
        = (∑ j : Fin 32, x0 (ix2 r j) * W (ix2 j k)) + b (ix2 0 k) :=
    congrArg₂ (· + ·) (matmul1_apply (truncf .bf16 x0 bitsLt_bf16_f32) W r k) (broadcastTo_1b_ab_apply b _ r k)
  refine (congrArg₂ (· + ·) (matmul2_apply (φ₁ := .bf16) (φ₂ := .bf16) _ x5 r 0) (broadcastTo_1b_ab_apply x6 _ r 0)).trans ?_
  unfold rowScore
  refine congrArg (· + x6 (ix2 0 0)) (Finset.sum_congr rfl fun k _ => congrArg (· * x5 (ix2 k 0)) ?_)
  exact congrArg₂ (fun a b => Ideal.tanh a * Ideal.logistic b) (hpre x1 x2 k) (hpre x3 x4 k)

/-! ## Layout and reduction lemmas at literal coordinates -/

/-- Over the reduced index (d) of a reduction of axis 0 of an [a, b] array, the source index whose dropped coordinate
    is k is (k, d). -/
theorem lift0_ix1 {a b : ℕ} (h : (⟨2, ![a, b]⟩ : Shape).Reduces [0] ⟨1, ![b]⟩) (d : Fin b) (k : Fin a) :
    h.lift (ix1 d) k = ix2 k d :=
  funext fun c => Fin.ext (by
    match c with
    | ⟨0, _⟩ => rfl
    | ⟨1, _⟩ => rfl)

/-- A sum over axis 0 of an [a, b] array from the zero word, at (d): the sum of the column. -/
theorem sum0_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (d : Fin b) :
    multiReduction (F := Ideal) .add [0] ⟨1, ![b]⟩ src 0x00000000#32 h hφ hacc (ix1 d) = ∑ k : Fin a, src (ix2 k d) :=
  (Ideal.multiReduction_add_single src _ h hφ hacc (ix1 d)).trans
    (Finset.sum_congr rfl fun k _ => congrArg src (lift0_ix1 h d k))

/-- The single-precision pattern 0xFF800000 (sign 1, exponent all ones, significand 0) denotes -∞. -/
theorem bot_word : Ideal.ofBits .f32 0xFF800000#32 = ⊥ := by simp [Ideal.ofBits, Ideal.ieee]

/-- A maximum over axis 0 of an [a, b] array from the -∞ word, at (d): the supremum of the column. -/
theorem max0_apply {a b : ℕ} (src : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (d : Fin b) :
    multiReduction (F := Ideal) .maximumf [0] ⟨1, ![b]⟩ src 0xFF800000#32 h hφ hacc (ix1 d)
      = Finset.univ.sup (fun k : Fin a => src (ix2 k d)) := by
  refine (Ideal.multiReduction_maximumf_single src _ h hφ hacc (ix1 d)).trans ?_
  have e : (Finset.univ : Finset (Fin ((⟨2, ![a, b]⟩ : Shape).size 0))).fold max (Ideal.ofBits .f32 0xFF800000#32)
      (src ∘ h.lift (ix1 d)) = Finset.univ.sup (src ∘ h.lift (ix1 d)) := by
    rw [bot_word]; exact OnlineSoftmax.fold_max_bot _ _
  exact e.trans (congrArg (Finset.sup Finset.univ) (funext fun k => congrArg src (lift0_ix1 h d k)))

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile's largest score and the level -/

/-- The maximum payload is the largest score of the tile. -/
theorem pay11_apply (x0 : Vec Ideal S8000x32 .f32) (x1 : Vec Ideal S32x16 .bf16) (x2 : Vec Ideal S1x16 .f32)
    (x3 : Vec Ideal S32x16 .bf16) (x4 : Vec Ideal S1x16 .f32) (x5 : Vec Ideal S16x1 .bf16) (x6 : Vec Ideal S1x1 .f32) :
    k0_pay11 (F := Ideal) x0 x1 x2 x3 x4 x5 x6 (ix2 0 0)
      = Finset.univ.sup (fun r : Fin 8000 => k0_pay10 (F := Ideal) x0 x1 x2 x3 x4 x5 x6 (ix2 r 0)) := by
  unfold k0_pay11
  refine (shapeCast_a_1a_apply _ _ 0 0).trans ?_
  exact max0_apply (k0_pay10 (F := Ideal) x0 x1 x2 x3 x4 x5 x6) _ _ _ 0

/-- The new level: the larger of the stored level and the tile's largest score. -/
theorem pay2_apply (v32 : FVec Ideal S1x1 .f32) (v33 : Vec Ideal S1x1 .f32) :
    k0_pay2 v32 v33 (ix2 0 0) = max (v33 (ix2 0 0)) (v32 (ix2 0 0)) := by
  unfold k0_pay2 k0_pay1
  simp only [shapeCast_self]
  rfl

/-! ## The denominator and numerator steps -/

/-- The correction factor: exp of the stored level minus the new level. -/
theorem pay3_apply (v32 : FVec Ideal S1x1 .f32) (v33 : Vec Ideal S1x1 .f32) :
    k0_pay3 v32 v33 (ix2 0 0) = Ideal.exp (v33 (ix2 0 0) - max (v33 (ix2 0 0)) (v32 (ix2 0 0))) := by
  unfold k0_pay3 k0_pay2 k0_pay1
  simp only [shapeCast_self]
  rfl

/-- The tile's weights: exp of each score minus the new level. -/
theorem pay4_apply (v29 : FVec Ideal S8000x1 .f32) (v32 : FVec Ideal S1x1 .f32) (v33 : Vec Ideal S1x1 .f32) (r : Fin 8000) :
    k0_pay4 v29 v32 v33 (ix2 r 0) = Ideal.exp (v29 (ix2 r 0) - max (v33 (ix2 0 0)) (v32 (ix2 0 0))) := by
  unfold k0_pay4
  show Ideal.exp (v29 (ix2 r 0) - broadcastTo S8000x1 (k0_pay2 v32 v33) _ (ix2 r 0)) = _
  rw [broadcastTo_1b_ab_apply, pay2_apply]

/-- The denominator step. -/
theorem pay5_apply (v29 : FVec Ideal S8000x1 .f32) (v32 : FVec Ideal S1x1 .f32)
    (h32 : v32 (ix2 0 0) = Finset.univ.sup (fun r : Fin 8000 => v29 (ix2 r 0))) (v33 v41 : Vec Ideal S1x1 .f32) :
    k0_pay5 v29 v32 v33 v41 (ix2 0 0) = den (v33 (ix2 0 0)) (v41 (ix2 0 0)) (fun r : Fin 8000 => v29 (ix2 r 0)) := by
  unfold k0_pay5
  simp only [shapeCast_self]
  refine (congrArg₂ (· + ·) (congrArg (v41 (ix2 0 0) * ·) (pay3_apply v32 v33))
    ((shapeCast_a_1a_apply _ _ 0 0).trans (sum0_apply (k0_pay4 v29 v32 v33) _ _ _ 0))).trans ?_
  unfold den lvl
  rw [← h32]
  exact congrArg (_ + ·) (Finset.sum_congr rfl fun r _ => pay4_apply v29 v32 v33 r)

/-- The numerator step, column d. -/
theorem pay6_apply (v3 : Vec Ideal S8000x32 .f32) (v29 : FVec Ideal S8000x1 .f32) (v32 : FVec Ideal S1x1 .f32)
    (h32 : v32 (ix2 0 0) = Finset.univ.sup (fun r : Fin 8000 => v29 (ix2 r 0))) (v33 : Vec Ideal S1x1 .f32)
    (v51 : Vec Ideal S1x32 .f32) (d : Fin 32) :
    k0_pay6 v3 v29 v32 v33 v51 (ix2 0 d)
      = num (v33 (ix2 0 0)) (v51 (ix2 0 d)) (fun r : Fin 8000 => v29 (ix2 r 0)) (fun r : Fin 8000 => v3 (ix2 r d)) := by
  unfold k0_pay6
  simp only [shapeCast_self]
  refine (congrArg₂ (· + ·)
    (congrArg (v51 (ix2 0 d) * ·) ((broadcastTo_a1_ab_apply (k0_pay3 v32 v33) _ 0 d).trans (pay3_apply v32 v33)))
    ((shapeCast_a_1a_apply _ _ 0 d).trans (sum0_apply _ _ _ _ d))).trans ?_
  unfold num lvl
  rw [← h32]
  exact congrArg (_ + ·) (Finset.sum_congr rfl fun r _ =>
    congrArg (· * v3 (ix2 r d)) ((broadcastTo_a1_ab_apply (k0_pay4 v29 v32 v33) _ r d).trans (pay4_apply v29 v32 v33 r)))

/-! ## The resets and the normalisation -/

/-- The level is reset to -∞. -/
theorem pay7_apply : k0_pay7 (F := Ideal) (ix2 0 0) = ⊥ := bot_word

/-- The denominator is reset to 0. -/
theorem pay8_apply : k0_pay8 (F := Ideal) (ix2 0 0) = 0 := Ideal.ofBits_zero_f32

/-- The numerator is reset to 0. -/
theorem pay9_apply (d : Fin 32) : k0_pay9 (F := Ideal) (ix2 0 d) = 0 := Ideal.ofBits_zero_f32

/-- The normalised weight of row r: exp of the score minus the level, over the denominator. -/
theorem pay1'_apply (v0 : Vec Ideal S8000x1 .f32) (v2 v7 : Vec Ideal S1x1 .f32) (r : Fin 8000) :
    k1_pay1 v0 v2 v7 (ix2 r 0) = Ideal.div (Ideal.exp (v0 (ix2 r 0) - v2 (ix2 0 0))) (v7 (ix2 0 0)) := by
  unfold k1_pay1
  simp only [shapeCast_self]
  show Ideal.div (Ideal.exp (v0 (ix2 r 0) - broadcastTo S8000x1 v2 _ (ix2 r 0))) (broadcastTo S8000x1 v7 _ (ix2 r 0)) = _
  rw [broadcastTo_1b_ab_apply, broadcastTo_1b_ab_apply]

end Cert.KernelIdeal.Payloads

end
-- ==== Proof.KFinal.lean ====
/- From blocks to arrays: what each output array of the two kernels holds after the last point. -/
import proofs.«117047_j15135464751637_2_alg».proof.Proof.KBlocks
import proofs.«117047_j15135464751637_2_alg».proof.Proof.KPieces
import proofs.«117047_j15135464751637_2_alg».proof.Proof.KPayloads
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Final

open Cert.KernelIdeal Cert.KernelIdeal.Gen

/-- The last point of the statistics kernel's grid. -/
abbrev tLast : Fin cfg0.N := ⟨124, by rw [show cfg0.N = 125 from N_0]; decide⟩

section AnyFloat

variable {F : FTy → Type} [FloatOps F]
variable (V : (c : Dev nD) → (b : Ref sig .tc) → Buf (Elt F) ((c : Thread nD τ).loc b))

/-! ## The carried windows of the statistics kernel: written back once, after the last point -/

/-- The buffers' contents after the last point, under either spelling of the point. -/
theorem outsAt0_last (c : Dev nD) (h : 124 < cfg0.N) : outsAt0 V c tLast.val tLast.isLt = outsAt0 V c 124 h := rfl

/-- Window 8's one block is its whole array: what is written back from it is what it holds, as contents of the array. -/
theorem cut0_8_eq (c : Dev nD) (t : Fin cfg0.N) (X : Buf (Elt F) ((c : Thread nD τ).loc main_v6_1)) :
    (cfg0.win 8).cut (grid0.coords t) X = ((cfg0.win 8).blk t).view.read (Elt F) X := by
  obtain ⟨e0, e1⟩ := Blocks.idx0_8 t
  have hz' : (fun a => win0_8.index t a * main_v6_1.ty.shape.size a) = fun _ => 0 :=
    funext fun a => by
      match a with
      | ⟨0, _⟩ => show win0_8.index t 0 * 1 = 0; rw [e0]
      | ⟨1, _⟩ => show win0_8.index t 1 * 1 = 0; rw [e1]
  exact (Memref.read_access_unit_zero (Elt F) main_v6_1 hz' (fun a => by rw [congrFun hz' a]; simp) X).symm

/-- The last point's block covers the array. -/
theorem cover0_8 (c : Dev nD) (i : ((cfg0.win 8).arr.view.loc (c.tc : Thread nD τ)).2.ty.Idx) :
    ∃ t : Fin cfg0.N, (cfg0.win 8).flush t = true ∧ i ∈ ((cfg0.win 8).blk t).view.set := by
  refine ⟨tLast, (flush0_8 tLast).mpr rfl, ?_⟩
  obtain ⟨e0, e1⟩ := Blocks.idx0_8 tLast
  show i ∈ ((View.whole main_v6_1).slice (win0_8.rect tLast)).set
  rw [View.set_slice_whole, Rect.mem_set_unit]
  intro a
  have h0 : (i 0 : Nat) < 1 := (i 0).isLt
  have h1 : (i 1 : Nat) < 1 := (i 1).isLt
  match a with
  | ⟨0, _⟩ => show win0_8.index tLast 0 * 1 ≤ (i 0 : Nat) ∧ (i 0 : Nat) < win0_8.index tLast 0 * 1 + 1
              rw [e0]; omega
  | ⟨1, _⟩ => show win0_8.index tLast 1 * 1 ≤ (i 1 : Nat) ∧ (i 1 : Nat) < win0_8.index tLast 1 * 1 + 1
              rw [e1]; omega

/-- The running maximum: the array ends holding what the window's buffer holds after the last point. -/
theorem final0_8_last (c : Dev nD) :
    (dat0 V c).arrAt 8 cfg0.N = (outsAt0 V c tLast.val tLast.isLt).2.1 :=
  (dat0 V c).arrAt_eq_of_cover 8 _ (fun t hf => by
    have hN : cfg0.N = 125 := N_0
    have h124 : t.val = 124 := by have := (flush0_8 t).mp hf; have := t.isLt; omega
    obtain rfl : t = tLast := Fin.ext h124
    show (cfg0.win 8).cut (grid0.coords tLast) ((dat0 V c).after 8 tLast) = _
    rw [after0_8]
    exact cut0_8_eq c tLast _) (cover0_8 c)

theorem final0_8 (c : Dev nD) :
    (dat0 V c).arrAt 8 cfg0.N = (outsAt0 V c 124 (by rw [show cfg0.N = 125 from N_0]; decide)).2.1 :=
  (final0_8_last V c).trans (congrArg (fun x => x.2.1) (outsAt0_last V c _))

/-- Window 9's one block is its whole array: what is written back from it is what it holds, as contents of the array. -/
theorem cut0_9_eq (c : Dev nD) (t : Fin cfg0.N) (X : Buf (Elt F) ((c : Thread nD τ).loc main_v6_2)) :
    (cfg0.win 9).cut (grid0.coords t) X = ((cfg0.win 9).blk t).view.read (Elt F) X := by
  obtain ⟨e0, e1⟩ := Blocks.idx0_9 t
  have hz' : (fun a => win0_9.index t a * main_v6_2.ty.shape.size a) = fun _ => 0 :=
    funext fun a => by
      match a with
      | ⟨0, _⟩ => show win0_9.index t 0 * 1 = 0; rw [e0]
      | ⟨1, _⟩ => show win0_9.index t 1 * 1 = 0; rw [e1]
  exact (Memref.read_access_unit_zero (Elt F) main_v6_2 hz' (fun a => by rw [congrFun hz' a]; simp) X).symm

/-- The last point's block covers the array. -/
theorem cover0_9 (c : Dev nD) (i : ((cfg0.win 9).arr.view.loc (c.tc : Thread nD τ)).2.ty.Idx) :
    ∃ t : Fin cfg0.N, (cfg0.win 9).flush t = true ∧ i ∈ ((cfg0.win 9).blk t).view.set := by
  refine ⟨tLast, (flush0_9 tLast).mpr rfl, ?_⟩
  obtain ⟨e0, e1⟩ := Blocks.idx0_9 tLast
  show i ∈ ((View.whole main_v6_2).slice (win0_9.rect tLast)).set
  rw [View.set_slice_whole, Rect.mem_set_unit]
  intro a
  have h0 : (i 0 : Nat) < 1 := (i 0).isLt
  have h1 : (i 1 : Nat) < 1 := (i 1).isLt
  match a with
  | ⟨0, _⟩ => show win0_9.index tLast 0 * 1 ≤ (i 0 : Nat) ∧ (i 0 : Nat) < win0_9.index tLast 0 * 1 + 1
              rw [e0]; omega
  | ⟨1, _⟩ => show win0_9.index tLast 1 * 1 ≤ (i 1 : Nat) ∧ (i 1 : Nat) < win0_9.index tLast 1 * 1 + 1
              rw [e1]; omega

/-- The running denominator: the array ends holding what the window's buffer holds after the last point. -/
theorem final0_9_last (c : Dev nD) :
    (dat0 V c).arrAt 9 cfg0.N = (outsAt0 V c tLast.val tLast.isLt).2.2.1 :=
  (dat0 V c).arrAt_eq_of_cover 9 _ (fun t hf => by
    have hN : cfg0.N = 125 := N_0
    have h124 : t.val = 124 := by have := (flush0_9 t).mp hf; have := t.isLt; omega
    obtain rfl : t = tLast := Fin.ext h124
    show (cfg0.win 9).cut (grid0.coords tLast) ((dat0 V c).after 9 tLast) = _
    rw [after0_9]
    exact cut0_9_eq c tLast _) (cover0_9 c)

theorem final0_9 (c : Dev nD) :
    (dat0 V c).arrAt 9 cfg0.N = (outsAt0 V c 124 (by rw [show cfg0.N = 125 from N_0]; decide)).2.2.1 :=
  (final0_9_last V c).trans (congrArg (fun x => x.2.2.1) (outsAt0_last V c _))

/-- Window 10's one block is its whole array: what is written back from it is what it holds, as contents of the array. -/
theorem cut0_10_eq (c : Dev nD) (t : Fin cfg0.N) (X : Buf (Elt F) ((c : Thread nD τ).loc main_v6_3)) :
    (cfg0.win 10).cut (grid0.coords t) X = ((cfg0.win 10).blk t).view.read (Elt F) X := by
  obtain ⟨e0, e1⟩ := Blocks.idx0_10 t
  have hz' : (fun a => win0_10.index t a * main_v6_3.ty.shape.size a) = fun _ => 0 :=
    funext fun a => by
      match a with
      | ⟨0, _⟩ => show win0_10.index t 0 * 1 = 0; rw [e0]
      | ⟨1, _⟩ => show win0_10.index t 1 * 32 = 0; rw [e1]
  exact (Memref.read_access_unit_zero (Elt F) main_v6_3 hz' (fun a => by rw [congrFun hz' a]; simp) X).symm

/-- The last point's block covers the array. -/
theorem cover0_10 (c : Dev nD) (i : ((cfg0.win 10).arr.view.loc (c.tc : Thread nD τ)).2.ty.Idx) :
    ∃ t : Fin cfg0.N, (cfg0.win 10).flush t = true ∧ i ∈ ((cfg0.win 10).blk t).view.set := by
  refine ⟨tLast, (flush0_10 tLast).mpr rfl, ?_⟩
  obtain ⟨e0, e1⟩ := Blocks.idx0_10 tLast
  show i ∈ ((View.whole main_v6_3).slice (win0_10.rect tLast)).set
  rw [View.set_slice_whole, Rect.mem_set_unit]
  intro a
  have h0 : (i 0 : Nat) < 1 := (i 0).isLt
  have h1 : (i 1 : Nat) < 32 := (i 1).isLt
  match a with
  | ⟨0, _⟩ => show win0_10.index tLast 0 * 1 ≤ (i 0 : Nat) ∧ (i 0 : Nat) < win0_10.index tLast 0 * 1 + 1
              rw [e0]; omega
  | ⟨1, _⟩ => show win0_10.index tLast 1 * 32 ≤ (i 1 : Nat) ∧ (i 1 : Nat) < win0_10.index tLast 1 * 32 + 32
              rw [e1]; omega

/-- The running weighted sum of rows: the array ends holding what the window's buffer holds after the last point. -/
theorem final0_10_last (c : Dev nD) :
    (dat0 V c).arrAt 10 cfg0.N = (outsAt0 V c tLast.val tLast.isLt).2.2.2 :=
  (dat0 V c).arrAt_eq_of_cover 10 _ (fun t hf => by
    have hN : cfg0.N = 125 := N_0
    have h124 : t.val = 124 := by have := (flush0_10 t).mp hf; have := t.isLt; omega
    obtain rfl : t = tLast := Fin.ext h124
    show (cfg0.win 10).cut (grid0.coords tLast) ((dat0 V c).after 10 tLast) = _
    rw [after0_10]
    exact cut0_10_eq c tLast _) (cover0_10 c)

theorem final0_10 (c : Dev nD) :
    (dat0 V c).arrAt 10 cfg0.N = (outsAt0 V c 124 (by rw [show cfg0.N = 125 from N_0]; decide)).2.2.2 :=
  (final0_10_last V c).trans (congrArg (fun x => x.2.2.2) (outsAt0_last V c _))

/-! ## The score window of the statistics kernel: written back at every point -/

/-- What the score window's buffer holds after point `t`, in either control case: the score payload of the point's row
    block and of the weight arrays (the other input windows' blocks are their whole arrays). -/
theorem after0_7_eq (c : Dev nD) (t : Fin cfg0.N) :
    (outsAt0 V c t.val t.isLt).1
      = k0_pay10 (iblk0 V c 0 t) (V c main_v0) (V c main_v3) (V c main_v1) (V c main_v4) (V c main_v2) (V c main_v5) := by
  have e : (outsAt0 V c t.val t.isLt).1
      = k0_pay10 (iblk0 V c 0 t) (iblk0 V c 1 t) (iblk0 V c 2 t) (iblk0 V c 3 t) (iblk0 V c 4 t) (iblk0 V c 5 t) (iblk0 V c 6 t) := by
    by_cases h0 : t.val % 125 = 0
    · rw [outsAt0_A V c t h0]
      dsimp only
      exact Pieces.outA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk0 V c 0 t) (iblk0 V c 1 t) (iblk0 V c 2 t) (iblk0 V c 3 t) (iblk0 V c 4 t) (iblk0 V c 5 t) (iblk0 V c 6 t)
    · rw [outsAt0_B V c t h0]
      dsimp only
      exact Pieces.outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  rw [e, Blocks.iblk0_1_eq V c t, Blocks.iblk0_2_eq V c t, Blocks.iblk0_3_eq V c t, Blocks.iblk0_4_eq V c t, Blocks.iblk0_5_eq V c t, Blocks.iblk0_6_eq V c t]

end AnyFloat

section AtIdeal

variable (V : (c : Dev nD) → (b : Ref sig .tc) → Buf (Elt Ideal) ((c : Thread nD τ).loc b))

/-- The score array as one function of the index: row `p`'s score under the weight arrays. -/
abbrev scores (c : Dev nD) : Buf (Elt Ideal) ((c : Thread nD τ).loc main_v6_0) := fun i =>
  GatedPool.rowScore (fun j k => V c main_v0 (ix2 j k)) (fun k => V c main_v3 (ix2 0 k)) (fun j k => V c main_v1 (ix2 j k))
    (fun k => V c main_v4 (ix2 0 k)) (fun k => V c main_v2 (ix2 k 0)) (V c main_v5 (ix2 0 0)) (fun j => V c main_arg0 (ix2 (i 0) j))

/-- What point `t` writes back is block `t` of the score array: rows `8000 t … 8000 t + 7999`. -/
theorem flushed0_7_eq (c : Dev nD) (t : Fin cfg0.N) :
    (dat0 V c).flushed 7 t = ((cfg0.win 7).blk t).view.read (Elt Ideal) (scores V c) := by
  show (cfg0.win 7).cut (grid0.coords t) ((dat0 V c).after 7 t) = _
  rw [after0_7, after0_7_eq]
  refine funext fun (y : S8000x1.Idx) => ?_
  obtain ⟨r, q, rfl⟩ : ∃ (r : Fin 8000) (q : Fin 1), y = ix2 r q := ⟨y 0, y 1, eq_ix2 y⟩
  obtain rfl : q = 0 := Subsingleton.elim _ _
  obtain ⟨e0, e1⟩ := Blocks.idx0_7 t
  have hN : cfg0.N = 125 := N_0
  have ht : t.val < 125 := hN ▸ t.isLt
  have hp : 8000 * t.val + r.val < 1000000 := by have := r.isLt; omega
  have hemb : ((cfg0.win 7).blk t).view.emb (ix2 r 0) = ix2 (⟨8000 * t.val + r.val, hp⟩ : Fin 1000000) (0 : Fin 1) := by
    funext a
    apply Fin.ext
    match a with
    | ⟨0, _⟩ => show win0_7.index t 0 * 8000 + 1 * r.val = 8000 * t.val + r.val; rw [e0]; omega
    | ⟨1, _⟩ => show win0_7.index t 1 * 1 + 1 * 0 = 0; rw [e1]
  show k0_pay10 (iblk0 V c 0 t) (V c main_v0) (V c main_v3) (V c main_v1) (V c main_v4) (V c main_v2) (V c main_v5) (ix2 r 0)
    = scores V c (((cfg0.win 7).blk t).view.emb (ix2 r 0))
  rw [hemb]
  refine (Payloads.pay10_apply (iblk0 V c 0 t) (V c main_v0) (V c main_v3) (V c main_v1) (V c main_v4) (V c main_v2) (V c main_v5) r).trans ?_
  have erow : (fun j : Fin 32 => (iblk0 V c 0 t (ix2 r j) : EReal)) = fun j => V c main_arg0 (ix2 (⟨8000 * t.val + r.val, hp⟩ : Fin 1000000) j) :=
    funext fun j => Blocks.iblk0_0_apply V c t r j ⟨8000 * t.val + r.val, hp⟩ rfl
  exact congrArg (GatedPool.rowScore _ _ _ _ _ _) erow

/-- Every row is in the block of the point `row / 8000`. -/
theorem covered0_7 (c : Dev nD) (i : ((cfg0.win 7).arr.view.loc (c.tc : Thread nD τ)).2.ty.Idx) :
    ∃ t : Fin cfg0.N, (cfg0.win 7).flush t = true ∧ i ∈ ((cfg0.win 7).blk t).view.set := by
  have hN : cfg0.N = 125 := N_0
  have h0 : (i 0 : Nat) < 1000000 := (i 0).isLt
  have h1 : (i 1 : Nat) < 1 := (i 1).isLt
  obtain ⟨t, ht⟩ : ∃ t : Fin cfg0.N, t.val = (i 0 : Nat) / 8000 := ⟨⟨(i 0 : Nat) / 8000, by rw [hN]; omega⟩, rfl⟩
  refine ⟨t, flush0_7 t, ?_⟩
  obtain ⟨e0, e1⟩ := Blocks.idx0_7 t
  show i ∈ ((View.whole main_v6_0).slice (win0_7.rect t)).set
  rw [View.set_slice_whole, Rect.mem_set_unit]
  intro a
  match a with
  | ⟨0, _⟩ => show win0_7.index t 0 * 8000 ≤ (i 0 : Nat) ∧ (i 0 : Nat) < win0_7.index t 0 * 8000 + 8000
              rw [e0, ht]; omega
  | ⟨1, _⟩ => show win0_7.index t 1 * 1 ≤ (i 1 : Nat) ∧ (i 1 : Nat) < win0_7.index t 1 * 1 + 1
              rw [e1]; omega

/-- The score array after the statistics kernel. -/
theorem final0_7_eq (c : Dev nD) : (dat0 V c).arrAt 7 cfg0.N = scores V c :=
  (dat0 V c).arrAt_eq_of_cover 7 (scores V c) (fun t _ => flushed0_7_eq V c t) (covered0_7 c)

/-- Row `p` of the score array is the row's score. -/
theorem final0_7 (c : Dev nD) (p : Fin 1000000) :
    (dat0 V c).arrAt 7 cfg0.N (ix2 p 0)
      = GatedPool.rowScore (fun j k => V c main_v0 (ix2 j k)) (fun k => V c main_v3 (ix2 0 k)) (fun j k => V c main_v1 (ix2 j k))
          (fun k => V c main_v4 (ix2 0 k)) (fun k => V c main_v2 (ix2 k 0)) (V c main_v5 (ix2 0 0)) (fun j => V c main_arg0 (ix2 p j)) :=
  congrFun (final0_7_eq V c) (ix2 p 0)

end AtIdeal

end Cert.KernelIdeal.Final

end
-- ==== Proof.KFinal1.lean ====
/-
  The second region's output array, index by index.

  At grid point t the body reads rows 8000 t … 8000 t + 7999 of the score array and the one-entry level and denominator
  arrays, and writes back, for each row, exp of the score minus the level over the denominator. The 125 blocks tile the
  array (row p lies in the block of point p / 8000) and every point writes back, so after the last point the array holds
  that weight at every row.
-/
import proofs.«117047_j15135464751637_2_alg».proof.Proof.KBlocks
import proofs.«117047_j15135464751637_2_alg».proof.Proof.KPieces
import proofs.«117047_j15135464751637_2_alg».proof.Proof.KPayloads
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Final1

open Cert.KernelIdeal Cert.KernelIdeal.Gen

variable (V : (c : Dev nD) → (b : Ref sig .tc) → Buf (Elt Ideal) ((c : Thread nD τ).loc b))

/-- Subtraction of extended reals, for operands whose type only unfolds to the extended reals. -/
local notation:65 x:65 " -ₑ " y:66 => HSub.hSub (α := EReal) (β := EReal) (γ := EReal) x y

/-- What the second region's output array ends holding: at each index the weight, exp of the score there minus the
    level, over the denominator. -/
def G (c : Dev nD) : S1000000x1.Idx → EReal := fun i =>
  Ideal.div (Ideal.exp ((V c main_v6_0 : Vec Ideal S1000000x1 .f32) i -ₑ (V c main_v6_1 : Vec Ideal S1x1 .f32) (ix2 0 0)))
    ((V c main_v6_2 : Vec Ideal S1x1 .f32) (ix2 0 0))

/-- The grid has 125 points. -/
theorem point_lt (t : Fin cfg1.N) : t.val < 125 := by
  exact lt_of_lt_of_eq t.isLt N_1

/-- Row r of the output block at point t is row 8000 t + r of the array. -/
theorem emb_row (t : Fin cfg1.N) (r : Fin 8000) (p : Fin 1000000) (hp : p.val = 8000 * t.val + r.val) :
    ((cfg1.win 3).blk t).view.emb (ix2 r (0 : Fin 1)) = (ix2 p (0 : Fin 1) : S1000000x1.Idx) := by
  obtain ⟨e0, e1⟩ := Blocks.idx1_3 t
  funext a
  apply Fin.ext
  match a with
  | ⟨0, _⟩ => show win1_3.index t 0 * 8000 + 1 * r.val = p.val; rw [e0, hp]; omega
  | ⟨1, _⟩ => show win1_3.index t 1 * 1 + 1 * 0 = 0; rw [e1]

/-- What point t writes back is block t of G. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3, Pieces.out13]
  funext y
  obtain ⟨r, e, rfl⟩ : ∃ (r : Fin 8000) (e : Fin 1), y = ix2 r e := ⟨y 0, y 1, eq_ix2 y⟩
  obtain rfl : e = 0 := Subsingleton.elim _ _
  have ht := point_lt t
  have hr := r.isLt
  refine (Payloads.pay1'_apply (iblk1 V c 0 t) (iblk1 V c 1 t) (iblk1 V c 2 t) r).trans ?_
  refine Eq.trans ?_ (congrArg (G V c) (emb_row t r ⟨8000 * t.val + r.val, by omega⟩ rfl).symm)
  show _ = Ideal.div (Ideal.exp ((V c main_v6_0 : Vec Ideal S1000000x1 .f32) (ix2 ⟨8000 * t.val + r.val, _⟩ 0)
    -ₑ (V c main_v6_1 : Vec Ideal S1x1 .f32) (ix2 0 0))) ((V c main_v6_2 : Vec Ideal S1x1 .f32) (ix2 0 0))
  rw [Blocks.iblk1_0_apply V c t r ⟨8000 * t.val + r.val, by omega⟩ rfl, Blocks.iblk1_1_apply, Blocks.iblk1_2_apply]

/-- An index of the array is in point t's block iff each coordinate is in the block's range on its axis. -/
theorem mem_blk (t : Fin cfg1.N) (i : S1000000x1.Idx) :
    i ∈ ((cfg1.win 3).blk t).view.set ↔ ∀ a : Fin 2, win1_3.index t a * S8000x1.size a ≤ (i a).val
      ∧ (i a).val < win1_3.index t a * S8000x1.size a + S8000x1.size a := by
  show i ∈ ((View.whole main_v7).slice (win1_3.rect t)).set ↔ _
  rw [View.set_slice_whole, Rect.mem_set_unit]
  exact Iff.rfl

/-- Row p lies in the block of point p / 8000, and every point writes back. -/
theorem cover (i : S1000000x1.Idx) :
    ∃ t : Fin cfg1.N, (cfg1.win 3).flush t = true ∧ i ∈ ((cfg1.win 3).blk t).view.set := by
  have hi0 : (i 0).val < 1000000 := (i 0).isLt
  have hi1 : (i 1).val < 1 := (i 1).isLt
  have hN : cfg1.N = 125 := N_1
  have hq : (i 0).val / 8000 < cfg1.N := by rw [hN]; omega
  obtain ⟨e0, e1⟩ := Blocks.idx1_3 ⟨(i 0).val / 8000, hq⟩
  refine ⟨⟨(i 0).val / 8000, hq⟩, flush1_3 _, ?_⟩
  rw [mem_blk]
  intro a
  match a with
  | ⟨0, _⟩ =>
    show win1_3.index ⟨(i 0).val / 8000, hq⟩ 0 * 8000 ≤ (i 0).val ∧ (i 0).val < win1_3.index ⟨(i 0).val / 8000, hq⟩ 0 * 8000 + 8000
    rw [e0]
    show (i 0).val / 8000 * 8000 ≤ (i 0).val ∧ (i 0).val < (i 0).val / 8000 * 8000 + 8000
    omega
  | ⟨1, _⟩ =>
    show win1_3.index ⟨(i 0).val / 8000, hq⟩ 1 * 1 ≤ (i 1).val ∧ (i 1).val < win1_3.index ⟨(i 0).val / 8000, hq⟩ 1 * 1 + 1
    rw [e1]
    omega

/-- The second region's output array after its last point. -/
theorem final1 (c : Dev nD) : (dat1 (F := Ideal) V c).arrAt 3 cfg1.N = G V c :=
  (dat1 (F := Ideal) V c).arrAt_eq_of_cover 3 (G V c) (fun t _ => flushed_eq V c t) (cover)

/-- Entry (p, 0) of the second region's output array: the weight of row p. -/
theorem final1_3 (c : Dev nD) (p : Fin 1000000) :
    ((dat1 (F := Ideal) V c).arrAt 3 cfg1.N : Vec Ideal S1000000x1 .f32) (ix2 p 0)
      = Ideal.div (Ideal.exp ((V c main_v6_0 : Vec Ideal S1000000x1 .f32) (ix2 p 0) -ₑ (V c main_v6_1 : Vec Ideal S1x1 .f32) (ix2 0 0)))
          ((V c main_v6_2 : Vec Ideal S1x1 .f32) (ix2 0 0)) :=
  congrFun (final1 V c) (ix2 p 0)

end Cert.KernelIdeal.Final1

end
-- ==== Proof.KInv.lean ====
/-
  The first region's carried outputs, point by point.

  Row `p` of the bag has the score `s p` (the row's two affine maps, `tanh` of one times the logistic of the other, a third
  affine map), computed from the contents the region finds. At grid point `t` the body sees rows `8000 t … 8000 t + 7999`,
  computes their scores, and replaces the level, the denominator and the 32 numerators it carries by the tile step of the
  online softmax (from level `⊥` and zeros at the first point). So after point `n` they are `M`, `L` and `A` of the tiles
  `0 … n` (`outs_inv`, by induction on the point).
-/
import proofs.«117047_j15135464751637_2_alg».proof.Proof.Gen.KernelIdeal.Frame
import proofs.«117047_j15135464751637_2_alg».proof.Proof.KPieces
import proofs.«117047_j15135464751637_2_alg».proof.Proof.KPayloads
import proofs.«117047_j15135464751637_2_alg».proof.Proof.KBlocks
import proofs.«117047_j15135464751637_2_alg».proof.Proof.Spec
import Idealize.ShloMosaic.Lib.ValueIdx

noncomputable section

namespace Cert.KernelIdeal.Inv

open Idealize.ShloMosaic Idealize.ShloMosaic.ValueIdx Idealize.ShloMosaic.TcCoe Idealize.SL.Sem
open Cert.KernelIdeal Cert.KernelIdeal.Gen GatedPool

variable (V : (c : Dev nD) → (b : Ref sig .tc) → Buf (Elt Ideal) ((c : Thread nD τ).loc b))

/-- 125 tiles of 8000 rows. -/
theorem hN : 125 * 8000 = 1000000 := by norm_num

/-- The score of row `p`. -/
def s (c : Dev nD) : Fin 1000000 → EReal := fun p =>
  rowScore (fun j k => (V c main_v0 : Vec Ideal S32x16 .bf16) (ix2 j k)) (fun k => (V c main_v3 : Vec Ideal S1x16 .f32) (ix2 0 k))
    (fun j k => (V c main_v1 : Vec Ideal S32x16 .bf16) (ix2 j k)) (fun k => (V c main_v4 : Vec Ideal S1x16 .f32) (ix2 0 k))
    (fun k => (V c main_v2 : Vec Ideal S16x1 .bf16) (ix2 k 0)) ((V c main_v5 : Vec Ideal S1x1 .f32) (ix2 0 0))
    (fun j => (V c main_arg0 : Vec Ideal S1000000x32 .f32) (ix2 p j))

/-- Column `d` of the bag. -/
def col (c : Dev nD) (d : Fin 32) : Fin 1000000 → EReal := fun p => (V c main_arg0 : Vec Ideal S1000000x32 .f32) (ix2 p d)

/-- The scores the body computes at point `t`, and their maximum. -/
abbrev logits (c : Dev nD) (t : Fin cfg0.N) : FVec Ideal S8000x1 .f32 := k0_pay10 (F := Ideal) (iblk0 V c 0 t) (iblk0 V c 1 t) (iblk0 V c 2 t) (iblk0 V c 3 t) (iblk0 V c 4 t) (iblk0 V c 5 t) (iblk0 V c 6 t)
abbrev tmax (c : Dev nD) (t : Fin cfg0.N) : FVec Ideal S1x1 .f32 := k0_pay11 (F := Ideal) (iblk0 V c 0 t) (iblk0 V c 1 t) (iblk0 V c 2 t) (iblk0 V c 3 t) (iblk0 V c 4 t) (iblk0 V c 5 t) (iblk0 V c 6 t)

/-- The scores at point `t` are tile `t` of the rows' scores. -/
theorem tile_scores (c : Dev nD) (t : Fin cfg0.N) (h' : t.val < 125) :
    (fun r : Fin 8000 => logits V c t (ix2 r 0)) = tile hN (s V c) ⟨t.val, h'⟩ := by
  funext r
  refine (Payloads.pay10_apply (iblk0 V c 0 t) (iblk0 V c 1 t) (iblk0 V c 2 t) (iblk0 V c 3 t) (iblk0 V c 4 t) (iblk0 V c 5 t) (iblk0 V c 6 t) r).trans ?_
  show _ = s V c (pos hN ⟨t.val, h'⟩ r)
  unfold s
  have e0 : (fun j : Fin 32 => (iblk0 V c 0 t : Vec Ideal S8000x32 .f32) (ix2 r j))
      = fun j => (V c main_arg0 : Vec Ideal S1000000x32 .f32) (ix2 (pos hN ⟨t.val, h'⟩ r) j) :=
    funext fun j => Blocks.iblk0_0_apply V c t r j (pos hN ⟨t.val, h'⟩ r) rfl
  rw [e0, Blocks.iblk0_1_eq V c t, Blocks.iblk0_2_eq V c t, Blocks.iblk0_3_eq V c t, Blocks.iblk0_4_eq V c t, Blocks.iblk0_5_eq V c t,
    Blocks.iblk0_6_eq V c t]

/-- Column `d` of the block at point `t` is tile `t` of column `d`. -/
theorem tile_col (c : Dev nD) (t : Fin cfg0.N) (h' : t.val < 125) (d : Fin 32) :
    (fun r : Fin 8000 => (iblk0 V c 0 t : Vec Ideal S8000x32 .f32) (ix2 r d)) = tile hN (col V c d) ⟨t.val, h'⟩ :=
  funext fun r => Blocks.iblk0_0_apply V c t r d (pos hN ⟨t.val, h'⟩ r) rfl

/-- One point: from carried contents `xo8`, `xo9`, `xo10` the body leaves the tile step of level, denominator, numerators. -/
theorem point (c : Dev nD) (t : Fin cfg0.N) (h' : t.val < 125) (xo8 xo9 : Vec Ideal S1x1 .f32) (xo10 : Vec Ideal S1x32 .f32) :
    k0_pay2 (tmax V c t) xo8 (ix2 0 0) = lvl (xo8 (ix2 0 0)) (tile hN (s V c) ⟨t.val, h'⟩)
    ∧ k0_pay5 (logits V c t) (tmax V c t) xo8 xo9 (ix2 0 0) = den (xo8 (ix2 0 0)) (xo9 (ix2 0 0)) (tile hN (s V c) ⟨t.val, h'⟩)
    ∧ ∀ d : Fin 32, k0_pay6 (iblk0 V c 0 t) (logits V c t) (tmax V c t) xo8 xo10 (ix2 0 d)
        = num (xo8 (ix2 0 0)) (xo10 (ix2 0 d)) (tile hN (s V c) ⟨t.val, h'⟩) (tile hN (col V c d) ⟨t.val, h'⟩) := by
  have h32 : tmax V c t (ix2 0 0) = Finset.univ.sup (fun r : Fin 8000 => logits V c t (ix2 r 0)) :=
    Payloads.pay11_apply (iblk0 V c 0 t) (iblk0 V c 1 t) (iblk0 V c 2 t) (iblk0 V c 3 t) (iblk0 V c 4 t) (iblk0 V c 5 t) (iblk0 V c 6 t)
  refine ⟨?_, ?_, fun d => ?_⟩
  · refine (Payloads.pay2_apply (tmax V c t) xo8).trans ?_
    rw [h32, tile_scores V c t h']
    rfl
  · refine (Payloads.pay5_apply (logits V c t) (tmax V c t) h32 xo8 xo9).trans ?_
    rw [tile_scores V c t h']
  · refine (Payloads.pay6_apply (iblk0 V c 0 t) (logits V c t) (tmax V c t) h32 xo8 xo10 d).trans ?_
    rw [tile_scores V c t h', tile_col V c t h' d]

/-- After point `n` the carried level, denominator and numerators are those of tiles `0 … n`. -/
theorem outs_inv (c : Dev nD) : ∀ (n : ℕ) (h : n < cfg0.N) (h' : n < 125),
    ((outsAt0 V c n h).2.1 : Vec Ideal S1x1 .f32) (ix2 0 0) = M hN (s V c) n h'
    ∧ ((outsAt0 V c n h).2.2.1 : Vec Ideal S1x1 .f32) (ix2 0 0) = L hN (s V c) n h'
    ∧ ∀ d : Fin 32, ((outsAt0 V c n h).2.2.2 : Vec Ideal S1x32 .f32) (ix2 0 d) = A hN (s V c) (col V c d) n h'
  | 0, h, h' => by
    obtain ⟨p1, p2, p3⟩ := point V c ⟨0, h⟩ h' (k0_pay7 (F := Ideal)) (k0_pay8 (F := Ideal)) (k0_pay9 (F := Ideal))
    rw [show outsAt0 V c 0 h = _ from outsAt0_A V c ⟨0, h⟩ rfl]
    dsimp only
    refine ⟨?_, ?_, fun d => ?_⟩
    · rw [Pieces.outA8]
      refine p1.trans ?_
      rw [Payloads.pay7_apply]; rfl
    · rw [Pieces.outA9]
      refine p2.trans ?_
      rw [Payloads.pay7_apply, Payloads.pay8_apply]; rfl
    · rw [Pieces.outA10]
      refine (p3 d).trans ?_
      rw [Payloads.pay7_apply, Payloads.pay9_apply]; rfl
  | n + 1, h, h' => by
    obtain ⟨ihM, ihL, ihA⟩ := outs_inv c n (Nat.lt_of_succ_lt h) (Nat.lt_of_succ_lt h')
    have hB : ¬(⟨n + 1, h⟩ : Fin cfg0.N).val % 125 = 0 := by dsimp only; omega
    obtain ⟨p1, p2, p3⟩ := point V c ⟨n + 1, h⟩ h' (outsAt0 V c n (Nat.lt_of_succ_lt h)).2.1 (outsAt0 V c n (Nat.lt_of_succ_lt h)).2.2.1
      (outsAt0 V c n (Nat.lt_of_succ_lt h)).2.2.2
    rw [show outsAt0 V c (n + 1) h = _ from outsAt0_B V c ⟨n + 1, h⟩ hB]
    dsimp only
    refine ⟨?_, ?_, fun d => ?_⟩
    · rw [Pieces.outB8]
      refine p1.trans ?_
      rw [ihM]; rfl
    · rw [Pieces.outB9]
      refine p2.trans ?_
      rw [ihM, ihL]; rfl
    · rw [Pieces.outB10]
      refine (p3 d).trans ?_
      rw [ihM, ihA d]; rfl

end Cert.KernelIdeal.Inv

end
-- ==== Proof.Finite.lean ====
/-
  The finiteness precondition read back: where the conjunction over the twelve inputs of `all (|x| < +∞)` is the
  one-bit word 1, every entry of the inputs the kernel reads (arguments 0 and 2 to 7) is a real number.

  The printed predicate is a chain of eleven `and`s of twelve reductions; a conjunction of one-bit words is 1 exactly
  when both sides are 1, so the chain splits into twelve facts, one per input, and each is the hypothesis of
  `real_of_all`.
-/
import proofs.«117047_j15135464751637_2_alg».proof.Defs
import proofs.«117047_j15135464751637_2_alg».proof.Proof.Gen.Pre_finite_inputs
import proofs.«117047_j15135464751637_2_alg».proof.Proof.LibReal
import Idealize.ShloMosaic.Lib.ReduceAll
import Idealize.ShloMosaic.Lib.ValueIdx

noncomputable section

namespace Cert.Finite

open Idealize.ShloMosaic Idealize.SL.Sem Cert.LibReal

/-- The twelve conjuncts of the printed predicate, one per input, each in the form `real_of_all` takes. -/
theorem real_args (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i)) := by
  have h := congrFun (hpre c) ValueIdx.ix0
  dsimp only [Cert.Pre_finite_inputs.fn, Cert.Pre_finite_inputs.fn_part1, Cert.Pre_finite_inputs.fn_part2,
    Cert.Pre_finite_inputs.fn_part3, Idealize.ShloMosaic.andi] at h
  simp only [IntOp.andi_eq_one] at h
  obtain ⟨⟨⟨⟨⟨⟨⟨⟨⟨⟨⟨h0, h1⟩, h2⟩, h3⟩, h4⟩, h5⟩, h6⟩, h7⟩, h8⟩, h9⟩, h10⟩, h11⟩ := h
  exact ⟨real_of_all _ _ _ _ _ h0, real_of_all _ _ _ _ _ h2, real_of_all _ _ _ _ _ h3, real_of_all _ _ _ _ _ h4,
    real_of_all _ _ _ _ _ h5, real_of_all _ _ _ _ _ h6, real_of_all _ _ _ _ _ h7⟩

end Cert.Finite

end
-- ==== Proof.RefValue.lean ====
/-
  The reference's two results read index by index on the extended reals.

  The reference scores each of the 1000000 rows of `H` by
      score i = (∑ₖ tanh (H[i,·]·Wv[·,k] + bv k) * logistic (H[i,·]·Wu[·,k] + bu k) * Ww k) + bw ,
  takes the softmax of the scores along the rows, `weight i = exp (score i − top) / ∑ₖ exp (score k − top)` with `top` the
  largest score, and returns the weights (its second result) and, as its first result, a small dense tail applied to the
  pooled row `∑ᵢ weight i * H[i,·]`.

  * `alpha_apply`: the second result at `(0, i)` is `GatedPool.weight score i`.
  * `score_eq`: the first result is `tailR` of the pooling product of the second result with `H` and of five arguments.
  * `pooled_apply`: that pooling product at `(0, d)` is `GatedPool.pooled score (H[·,d])`.

  No finiteness is assumed anywhere: every identity holds for all extended-real contents.
-/
import proofs.«117047_j15135464751637_2_alg».proof.Proof.RefRead
import proofs.«117047_j15135464751637_2_alg».proof.Proof.Spec
import proofs.«117047_j15135464751637_2_alg».proof.Proof.LibDot
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-! ## Constants -/

theorem one_f32 : Ideal.ofBits .f32 0x3F800000#32 = 1 := by
  simp [Ideal.ofBits, Ideal.ieee, -EReal.coe_mul]; norm_num

theorem neginf_f32 : Ideal.ofBits .f32 0xFF800000#32 = ⊥ := by
  simp [Ideal.ofBits, Ideal.ieee]

/-! ## The max-reduce of a row -/

set_option maxHeartbeats 50000 in
/-- The host's max-reduce of a [1, 1000000] row from −∞ is the row's supremum. -/
theorem hostMax_row (y : FVec Ideal S1x1000000 .f32) (j : S1.Idx) :
    Host.reduce FloatOps.maximumf y (constant (F := Ideal) S_ .f32 0xFF800000#32) reducesTo_S1x1000000_S1_d1 h_S_ j
      = Finset.univ.sup (fun k : Fin 1000000 => y (ix2 0 k)) := by
  have h : S1x1000000.Reduces [1] S1 := by decide
  rw [Host.reduce_eq_fold_single FloatOps.maximumf y _ reducesTo_S1x1000000_S1_d1 h h_S_]
  have hf : (y ∘ h.lift j) = fun k : Fin 1000000 => y (ix2 0 k) := funext fun k => congrArg y (funext fun a => Fin.ext (by
    match a with
    | ⟨0, _⟩ => exact (Nat.lt_one_iff.mp (j 0).isLt)
    | ⟨1, _⟩ => rfl))
  show (Finset.univ : Finset (Fin 1000000)).fold max (Ideal.ofBits .f32 0xFF800000#32) (y ∘ h.lift j) = _
  rw [hf, neginf_f32]
  exact OnlineSoftmax.fold_max_bot _ _

/-! ## The score of a row -/

/-- Row `i`'s score, from the arrays `H`, `Wv`, `bv`, `Wu`, `bu`, `Ww`, `bw`. -/
def score (x0 : FVec Ideal S1000000x32 .f32) (x2 : FVec Ideal S32x16 .f32) (x3 : FVec Ideal S16 .f32)
    (x4 : FVec Ideal S32x16 .f32) (x5 : FVec Ideal S16 .f32) (x6 : FVec Ideal S16x1 .f32) (x7 : FVec Ideal S1 .f32) :
    Fin 1000000 → EReal :=
  fun i => GatedPool.rowScore (fun j k => x2 (ix2 j k)) (fun k => x3 (ix1 k)) (fun j k => x4 (ix2 j k)) (fun k => x5 (ix1 k))
    (fun k => x6 (ix2 k 0)) (x7 (ix1 0)) (fun j => x0 (ix2 i j))

section
variable (x0 : FVec Ideal S1000000x32 .f32) (x2 : FVec Ideal S32x16 .f32) (x3 : FVec Ideal S16 .f32)
    (x4 : FVec Ideal S32x16 .f32) (x5 : FVec Ideal S16 .f32) (x6 : FVec Ideal S16x1 .f32) (x7 : FVec Ideal S1 .f32)

set_option maxHeartbeats 50000 in
/-- `H · Wv` at `(i, k)`. -/
theorem v0_apply (i : Fin 1000000) (k : Fin 16) :
    val_main_v0 (F := Ideal) x0 x2 (ix2 i k) = ∑ j : Fin 32, x0 (ix2 i j) * x2 (ix2 j k) := by
  unfold val_main_v0
  exact Cert.LibDot.dotGeneral_apply dot_S1000000x32_S32x16_S1000000x16_1_0_0_1_n_n rfl rfl lhs_main_v0_0 lhs_main_v0_1 rhs_main_v0_0 rhs_main_v0_1 none .single x0 x2 i k

set_option maxHeartbeats 50000 in
/-- `H · Wu` at `(i, k)`. -/
theorem v5_apply (i : Fin 1000000) (k : Fin 16) :
    val_main_v5 (F := Ideal) x0 x4 (ix2 i k) = ∑ j : Fin 32, x0 (ix2 i j) * x4 (ix2 j k) := by
  unfold val_main_v5
  exact Cert.LibDot.dotGeneral_apply dot_S1000000x32_S32x16_S1000000x16_1_0_0_1_n_n rfl rfl lhs_main_v5_0 lhs_main_v5_1 rhs_main_v5_0 rhs_main_v5_1 none .single x0 x4 i k

set_option maxHeartbeats 50000 in
/-- The broadcast bias `bv` at `(i, k)`. -/
theorem v2_apply (i : Fin 1000000) (k : Fin 16) : val_main_v2 (F := Ideal) x3 (ix2 i k) = x3 (ix1 k) := by
  rw [val_main_v2_apply, val_main_v1_apply]
  exact congrArg x3 (funext fun a => Fin.ext (by match a with | ⟨0, _⟩ => rfl))

set_option maxHeartbeats 50000 in
/-- The broadcast bias `bu` at `(i, k)`. -/
theorem v7_apply (i : Fin 1000000) (k : Fin 16) : val_main_v7 (F := Ideal) x5 (ix2 i k) = x5 (ix1 k) := by
  rw [val_main_v7_apply, val_main_v6_apply]
  exact congrArg x5 (funext fun a => Fin.ext (by match a with | ⟨0, _⟩ => rfl))

set_option maxHeartbeats 50000 in
/-- The gated hidden unit `tanh(H·Wv + bv) * logistic(H·Wu + bu)` at `(i, k)`. -/
theorem v15_apply (i : Fin 1000000) (k : Fin 16) :
    val_main_v15 (F := Ideal) x0 x2 x3 x4 x5 (ix2 i k)
      = Ideal.tanh ((∑ j : Fin 32, x0 (ix2 i j) * x2 (ix2 j k)) + x3 (ix1 k))
        * Ideal.logistic ((∑ j : Fin 32, x0 (ix2 i j) * x4 (ix2 j k)) + x5 (ix1 k)) := by
  rw [val_main_v15_apply, val_main_v4_apply, val_main_v3_apply, v0_apply, v2_apply,
    val_main_v14_apply, val_main_v13_apply, val_main_cst_0_apply, val_main_v12_apply, val_main_v11_apply, val_main_cst_apply,
    val_main_v10_apply, val_main_v9_apply, val_main_v8_apply, v5_apply, v7_apply]
  show Ideal.tanh _ * Ideal.div (Ideal.ofBits .f32 0x3F800000#32) (Ideal.ofBits .f32 0x3F800000#32 + Ideal.exp (-_)) = _
  rw [one_f32]
  rfl

set_option maxHeartbeats 50000 in
/-- The logits array `[1000000, 1]` at `(i, 0)` is row `i`'s score. -/
theorem logits_apply (i : Fin 1000000) :
    val_main_v19 (F := Ideal) x0 x2 x3 x4 x5 x6 x7 (ix2 i 0) = score x0 x2 x3 x4 x5 x6 x7 i := by
  rw [val_main_v19_apply, val_main_v18_apply, val_main_v17_apply]
  have h16 : val_main_v16 (F := Ideal) x0 x2 x3 x4 x5 x6 (ix2 i 0)
      = ∑ k : Fin 16, val_main_v15 (F := Ideal) x0 x2 x3 x4 x5 (ix2 i k) * x6 (ix2 k 0) := by
    unfold val_main_v16
    generalize val_main_v15 (F := Ideal) x0 x2 x3 x4 x5 = y
    exact Cert.LibDot.dotGeneral_apply dot_S1000000x16_S16x1_S1000000x1_1_0_0_1_n_n rfl rfl lhs_main_v16_0 lhs_main_v16_1 rhs_main_v16_0 rhs_main_v16_1 none .single y x6 i 0
  rw [h16]
  simp only [v15_apply]
  have e7 : idx_main_v17 (idx_main_v18 (ix2 i (0 : Fin 1))) = ix1 (0 : Fin 1) := funext fun a => Fin.ext (by match a with | ⟨0, _⟩ => rfl)
  rw [e7]
  rfl

set_option maxHeartbeats 50000 in
/-- The transposed logits `[1, 1000000]` at `(0, i)` are row `i`'s score. -/
theorem logitsT_apply (i : Fin 1000000) :
    val_main_v20 (F := Ideal) x0 x2 x3 x4 x5 x6 x7 (ix2 0 i) = score x0 x2 x3 x4 x5 x6 x7 i := by
  rw [val_main_v20_apply]
  have e : idx_main_v20 (ix2 (0 : Fin 1) i) = ix2 i (0 : Fin 1) :=
    funext fun a => Fin.ext (by match a with | ⟨0, _⟩ => rfl | ⟨1, _⟩ => rfl)
  rw [e]
  exact logits_apply x0 x2 x3 x4 x5 x6 x7 i

set_option maxHeartbeats 50000 in
/-- The running level of the softmax, `max(−∞, max-reduce of the logits)`, is the largest score. -/
theorem max_apply (j : S1.Idx) :
    val_main_v23 (F := Ideal) x0 x2 x3 x4 x5 x6 x7 j = GatedPool.top (score x0 x2 x3 x4 x5 x6 x7) := by
  rw [val_main_v23_apply, val_main_v22_apply, val_main_cst_2_apply]
  have h21 : val_main_v21 (F := Ideal) x0 x2 x3 x4 x5 x6 x7 j = GatedPool.top (score x0 x2 x3 x4 x5 x6 x7) := by
    unfold val_main_v21 val_main_cst_1
    generalize hy : val_main_v20 (F := Ideal) x0 x2 x3 x4 x5 x6 x7 = y
    rw [hostMax_row]
    unfold GatedPool.top
    refine congrArg (Finset.sup Finset.univ) (funext fun k => ?_)
    rw [← hy]
    exact logitsT_apply x0 x2 x3 x4 x5 x6 x7 k
  rw [h21]
  show max (Ideal.ofBits .f32 0xFF800000#32) _ = _
  rw [neginf_f32]
  exact max_bot_left _

set_option maxHeartbeats 50000 in
/-- The exponentials `exp(logit − level)` at `(0, i)`. -/
theorem exps_apply (i : Fin 1000000) :
    val_main_v27 (F := Ideal) x0 x2 x3 x4 x5 x6 x7 (ix2 0 i)
      = Ideal.exp (score x0 x2 x3 x4 x5 x6 x7 i - GatedPool.top (score x0 x2 x3 x4 x5 x6 x7)) := by
  rw [val_main_v27_apply, val_main_v26_apply, logitsT_apply, val_main_v25_apply, val_main_v24_apply, max_apply]
  rfl

set_option maxHeartbeats 50000 in
/-- The softmax denominator: the sum of the exponentials. -/
theorem den_apply (j : S1.Idx) :
    val_main_v28 (F := Ideal) x0 x2 x3 x4 x5 x6 x7 j
      = ∑ k : Fin 1000000, Ideal.exp (score x0 x2 x3 x4 x5 x6 x7 k - GatedPool.top (score x0 x2 x3 x4 x5 x6 x7)) := by
  rw [val_main_v28_apply, val_main_cst_3_apply]
  show Ideal.ofBits .f32 0x00000000#32 + _ = _
  rw [Ideal.ofBits_zero_f32, zero_add]
  refine Finset.sum_congr rfl fun k _ => ?_
  have e : idx_main_v28 j k = ix2 (0 : Fin 1) k :=
    funext fun a => Fin.ext (by
      match a with
      | ⟨0, _⟩ => exact Nat.lt_one_iff.mp (j 0).isLt
      | ⟨1, _⟩ => rfl)
  rw [e]
  exact exps_apply x0 x2 x3 x4 x5 x6 x7 k

set_option maxHeartbeats 50000 in
/-- The softmax weights `[1, 1000000]` at `(0, i)`. -/
theorem alpha_val_apply (i : Fin 1000000) :
    val_main_v31 (F := Ideal) x0 x2 x3 x4 x5 x6 x7 (ix2 0 i) = GatedPool.weight (score x0 x2 x3 x4 x5 x6 x7) i := by
  rw [val_main_v31_apply, exps_apply, val_main_v30_apply, val_main_v29_apply, den_apply]
  rfl

end

/-! ## The reference's two results -/

set_option maxHeartbeats 50000 in
/-- (R1) The reference's second result, the softmax weights, index by index. -/
theorem alpha_apply (m : (ℓ : Loc nD τ sig) → Buf (Elt Ideal) ℓ) (c : Dev nD) (i : Fin 1000000) :
    Value.res_main_v31 (F := Ideal) m c (ix2 0 i)
      = GatedPool.weight (score (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))) i := by
  rw [val_main_v31_eq]
  exact alpha_val_apply _ _ _ _ _ _ _ i

/-- The operations after the pooling product: the concatenation with the extra column, the first dense layer with its
    bias, `max(·, 0)`, the second dense layer with its bias. -/
def tailR {F : FTy → Type} [FloatOps F] (p : (⟨S1x32, .f32⟩ : BufTy).Contents (Elt F)) (a1 : (⟨S1x1, .f32⟩ : BufTy).Contents (Elt F))
    (a8 : (⟨S33x16, .f32⟩ : BufTy).Contents (Elt F)) (a9 : (⟨S16, .f32⟩ : BufTy).Contents (Elt F))
    (a10 : (⟨S16x1, .f32⟩ : BufTy).Contents (Elt F)) (a11 : (⟨S1, .f32⟩ : BufTy).Contents (Elt F)) :
    (⟨S1x1, .f32⟩ : BufTy).Contents (Elt F) :=
  addf (Host.dotGeneral dot_S1x16_S16x1_S1x1_1_0_0_1_n_n none (maximumf (addf (Host.dotGeneral dot_S1x33_S33x16_S1x16_1_0_0_1_n_n none (concatenate S1x33 1 [⟨S1x32, p⟩, ⟨S1x1, a1⟩] concatenates_S1x32_S1x1_S1x33_d1) a8) (broadcastInDim S1x16 ![1] bcast_S16_S1x16_1 a9)) (broadcastInDim S1x16 ![] bcast_S_S1x16 (constant S_ .f32 0x00000000#32))) a10) (broadcastInDim S1x1 ![1] bcast_S1_S1x1_1 a11)

set_option maxRecDepth 131072 in
set_option maxHeartbeats 100000 in
/-- (R2) The reference's first result is the tail applied to the pooling product of the weights and `H`. -/
theorem score_eq {F : FTy → Type} [FloatOps F] (m : (ℓ : Loc nD τ sig) → Buf (Elt F) ℓ) (c : Dev nD) :
    Value.res_main_v40 m c
      = tailR (Host.dotGeneral dot_S1x1000000_S1000000x32_S1x32_1_0_0_1_n_n none (Value.res_main_v31 m c) (m ((c.tc : Thread nD τ).loc main_arg0)))
          (m ((c.tc : Thread nD τ).loc main_arg1)) (m ((c.tc : Thread nD τ).loc main_arg8)) (m ((c.tc : Thread nD τ).loc main_arg9))
          (m ((c.tc : Thread nD τ).loc main_arg10)) (m ((c.tc : Thread nD τ).loc main_arg11)) := by
  unfold Value.res_main_v40 Value.res_main_v31 tailR
  rfl

set_option maxHeartbeats 50000 in
/-- The pooling product `[1, 1000000] · [1000000, 32]` at `(0, d)` is the plain sum over the rows. -/
theorem dot32_apply (y : FVec Ideal S1x1000000 .f32) (x0 : FVec Ideal S1000000x32 .f32) (d : Fin 32) :
    Host.dotGeneral (F := Ideal) dot_S1x1000000_S1000000x32_S1x32_1_0_0_1_n_n none y x0 (ix2 0 d)
      = ∑ j : Fin 1000000, y (ix2 0 j) * x0 (ix2 j d) :=
  Cert.LibDot.dotGeneral_apply dot_S1x1000000_S1000000x32_S1x32_1_0_0_1_n_n rfl rfl lhs_main_v32_0 lhs_main_v32_1 rhs_main_v32_0 rhs_main_v32_1 none .single y x0 0 d

set_option maxHeartbeats 50000 in
/-- (R3) The pooling product at `(0, d)` is the pooled entry of column `d`. -/
theorem pooled_apply (m : (ℓ : Loc nD τ sig) → Buf (Elt Ideal) ℓ) (c : Dev nD) (d : Fin 32) :
    Host.dotGeneral (F := Ideal) (φ₁ := .f32) (φ₂ := .f32) dot_S1x1000000_S1000000x32_S1x32_1_0_0_1_n_n none (Value.res_main_v31 m c) (m ((c.tc : Thread nD τ).loc main_arg0)) (ix2 0 d)
      = GatedPool.pooled (score (m ((c.tc : Thread nD τ).loc main_arg0)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)))
          (fun i => m ((c.tc : Thread nD τ).loc main_arg0) (ix2 i d)) := by
  rw [dot32_apply]
  unfold GatedPool.pooled
  refine Finset.sum_congr rfl fun j _ => ?_
  rw [alpha_apply m c j]

end Cert.ReferenceIdeal.RefValue

end
-- ==== Proof.KScores.lean ====
/-
  The scores the first region computes are the reference's scores, and under the finiteness precondition they and
  the bag's columns are real.

  The first region finds the weights rounded (the identity on extended reals), the biases cast to rows, and the bag
  itself; so row by row its score is the reference's score of the launch arrays. Real launch arrays give real scores
  (sums, products, tanh and the logistic of reals are real), and the bag's entries are real by the precondition.
-/
import proofs.«117047_j15135464751637_2_alg».proof.Proof.KInv
import proofs.«117047_j15135464751637_2_alg».proof.Proof.KGlue
import proofs.«117047_j15135464751637_2_alg».proof.Proof.KRun
import proofs.«117047_j15135464751637_2_alg».proof.Proof.Finite
import proofs.«117047_j15135464751637_2_alg».proof.Proof.RefValue
import proofs.«117047_j15135464751637_2_alg».proof.Proof.Spec

noncomputable section

namespace Cert.Bridge

open Idealize.ShloMosaic Idealize.ShloMosaic.ValueIdx Idealize.ShloMosaic.TcCoe Idealize.SL.Sem
open Cert.KernelIdeal Cert.KernelIdeal.Gen Cert.LibReal GatedPool

variable (m : (ℓ : Loc nD τ sig) → Buf (Elt Ideal) ℓ) (ρ : Dev nD → PrngReg)

/-- The row score depends only on its seven arguments. -/
theorem rowScore_congr {Wv Wv' : Fin 32 → Fin 16 → EReal} {bv bv' : Fin 16 → EReal} {Wu Wu' : Fin 32 → Fin 16 → EReal}
    {bu bu' : Fin 16 → EReal} {Ww Ww' : Fin 16 → EReal} {bw bw' : EReal} {h h' : Fin 32 → EReal}
    (e0 : Wv = Wv') (e1 : bv = bv') (e2 : Wu = Wu') (e3 : bu = bu') (e4 : Ww = Ww') (e5 : bw = bw') (e6 : h = h') :
    rowScore Wv bv Wu bu Ww bw h = rowScore Wv' bv' Wu' bu' Ww' bw' h' := by
  subst e0 e1 e2 e3 e4 e5 e6; rfl

/-- The scores the first region computes from what it finds are the reference's scores of the launch arrays: the
    weights it finds are the launch weights (rounding is the identity on extended reals), the biases it finds as rows
    are the launch biases, and the bag is untouched. -/
theorem s_eq_score (c : Dev nD) :
    Cert.KernelIdeal.Inv.s (V1 (F := Ideal) m ρ) c
      = Cert.ReferenceIdeal.RefValue.score (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext p
  unfold Cert.KernelIdeal.Inv.s Cert.ReferenceIdeal.RefValue.score
  exact rowScore_congr
    (funext fun j => funext fun k => Cert.KernelIdeal.Glue.V1_v0_apply m ρ c j k)
    (funext fun k => Cert.KernelIdeal.Glue.V1_v3_apply m ρ c k)
    (funext fun j => funext fun k => Cert.KernelIdeal.Glue.V1_v1_apply m ρ c j k)
    (funext fun k => Cert.KernelIdeal.Glue.V1_v4_apply m ρ c k)
    (funext fun k => Cert.KernelIdeal.Glue.V1_v2_apply m ρ c k)
    (Cert.KernelIdeal.Glue.V1_v5_apply m ρ c)
    (funext fun j => congrFun (Cert.KernelIdeal.RunV.V1_arg0 m ρ c) (ix2 p j))

/-- Column d of the bag the first region finds is column d of the launch bag. -/
theorem col_eq (c : Dev nD) (d : Fin 32) :
    Cert.KernelIdeal.Inv.col (V1 (F := Ideal) m ρ) c d
      = fun p => (m ((c.tc : Thread nD τ).loc main_arg0) : Vec Ideal S1000000x32 .f32) (ix2 p d) := by
  funext p
  unfold Cert.KernelIdeal.Inv.col
  exact congrFun (Cert.KernelIdeal.RunV.V1_arg0 m ρ c) (ix2 p d)

/-- Under the finiteness precondition every score is a real number. -/
theorem s_real (hpre : Cert.Pre_KernelIdeal (hPre_finite_inputs := Cert.Pre_finite_inputs.Gen.facts) m) (c : Dev nD) :
    ∃ sr : Fin 1000000 → ℝ, Cert.KernelIdeal.Inv.s (V1 (F := Ideal) m ρ) c = fun p => ((sr p : ℝ) : EReal) := by
  obtain ⟨hH, hWv, hbv, hWu, hbu, hWw, hbw⟩ := Cert.Finite.real_args m hpre c
  rw [s_eq_score]
  have hr : ∀ p : Fin 1000000, IsReal (Cert.ReferenceIdeal.RefValue.score (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) p) :=
    fun p => rowScore_real (fun j k => hWv (ix2 j k)) (fun k => hbv (ix1 k)) (fun j k => hWu (ix2 j k)) (fun k => hbu (ix1 k))
      (fun k => hWw (ix2 k 0)) (hbw (ix1 0)) (fun j => hH (ix2 p j))
  choose sr hsr using hr
  exact ⟨sr, funext hsr⟩

/-- Under the finiteness precondition every entry of a column of the bag is a real number. -/
theorem col_real (hpre : Cert.Pre_KernelIdeal (hPre_finite_inputs := Cert.Pre_finite_inputs.Gen.facts) m) (c : Dev nD) (d : Fin 32) :
    ∃ vr : Fin 1000000 → ℝ, Cert.KernelIdeal.Inv.col (V1 (F := Ideal) m ρ) c d = fun p => ((vr p : ℝ) : EReal) := by
  obtain ⟨hH, -⟩ := Cert.Finite.real_args m hpre c
  rw [col_eq]
  choose vr hvr using fun p : Fin 1000000 => hH (ix2 p d)
  exact ⟨vr, funext hvr⟩

end Cert.Bridge

end
-- ==== Proof.KTail.lean ====
/- The two programs end with the same host tail: from the pooled vector on, the kernel program's tail and the
   reference's are one function. The two texts print the same shapes and the same contraction records under two
   namespaces; the records' data fields are the same lists and their remaining fields are proofs. -/
import proofs.«117047_j15135464751637_2_alg».proof.Proof.KGlue
import proofs.«117047_j15135464751637_2_alg».proof.Proof.RefValue

set_option maxRecDepth 16384

noncomputable section

namespace Cert.Bridge

open Idealize.ShloMosaic

/-- The kernel program's host tail from the pooled vector on is the reference's tail of the same arguments. -/
theorem tail_same {F : FTy → Type} [FloatOps F] (B : Vec F Cert.KernelIdeal.S1x32 .f32) (g : Vec F Cert.KernelIdeal.S1x1 .f32)
    (w1 : Vec F Cert.KernelIdeal.S33x16 .f32) (b1 : Vec F Cert.KernelIdeal.S16 .f32) (w2 : Vec F Cert.KernelIdeal.S16x1 .f32)
    (b2 : Vec F Cert.KernelIdeal.S1 .f32) :
    Cert.KernelIdeal.Glue.tailK B g w1 b1 w2 b2 = Cert.ReferenceIdeal.RefValue.tailR B g w1 b1 w2 b2 := rfl

end Cert.Bridge

end
-- ==== Proof.Bridge.lean ====
/-
  The kernel's two results are the reference's.

  The kernel scores the bag a tile of 8000 rows at a time, keeps the online softmax's level, denominator and numerators
  across the 125 tiles, normalises the scores in a second pass and divides the numerators by the denominator; the reference
  scores all rows, takes the softmax weights and the weighted sum of the rows. With real inputs every score is a real number,
  so after the last tile the level is the largest score, the denominator is the sum of the weights' numerators against it, and
  numerator over denominator is the pooled entry (the online softmax, `GatedPool.tiles_top`, `tiles_den`, `tiles_pool`).
  Hence the kernel's weight of row `p` is `GatedPool.weight s p` and its pooled entry `d` is `GatedPool.pooled s (column d)`,
  which is what the reference computes; the small dense layers after the pooling are the same function on both sides.
-/
import proofs.«117047_j15135464751637_2_alg».proof.Proof.KRun
import proofs.«117047_j15135464751637_2_alg».proof.Proof.KGlue
import proofs.«117047_j15135464751637_2_alg».proof.Proof.KGlue2
import proofs.«117047_j15135464751637_2_alg».proof.Proof.KFinal
import proofs.«117047_j15135464751637_2_alg».proof.Proof.KFinal1
import proofs.«117047_j15135464751637_2_alg».proof.Proof.KInv
import proofs.«117047_j15135464751637_2_alg».proof.Proof.KScores
import proofs.«117047_j15135464751637_2_alg».proof.Proof.KTail
import proofs.«117047_j15135464751637_2_alg».proof.Proof.RefValue
import proofs.«117047_j15135464751637_2_alg».proof.Proof.Spec

noncomputable section

namespace Cert.Bridge

open Idealize.ShloMosaic Idealize.ShloMosaic.ValueIdx Idealize.ShloMosaic.TcCoe Idealize.SL.Sem
open Cert.KernelIdeal Cert.KernelIdeal.Gen Cert.KernelIdeal.RunV GatedPool

variable (m : (ℓ : Loc nD τ sig) → Buf (Elt Ideal) ℓ) (ρ : Dev nD → PrngReg)
variable (hpre : Cert.Pre_KernelIdeal (hPre_finite_inputs := Cert.Pre_finite_inputs.Gen.facts) m) (c : Dev nD)

include hpre in
/-- After the last tile the carried level is the largest score. -/
theorem fin_level (h124 : 124 < cfg0.N) : ((outsAt0 (V1 (F := Ideal) m ρ) c 124 h124).2.1 : Vec Ideal S1x1 .f32) (ix2 0 0)
    = top (Inv.s (V1 (F := Ideal) m ρ) c) := by
  obtain ⟨sr, hsr⟩ := s_real m ρ hpre c
  rw [(Inv.outs_inv (V1 (F := Ideal) m ρ) c 124 h124 (by decide)).1, hsr]
  exact tiles_top Inv.hN (by decide) (by decide) sr

include hpre in
/-- … the carried denominator is the sum of the exponentials of the scores against the largest. -/
theorem fin_den (h124 : 124 < cfg0.N) : ((outsAt0 (V1 (F := Ideal) m ρ) c 124 h124).2.2.1 : Vec Ideal S1x1 .f32) (ix2 0 0)
    = ∑ k, Ideal.exp (Inv.s (V1 (F := Ideal) m ρ) c k - top (Inv.s (V1 (F := Ideal) m ρ) c)) := by
  obtain ⟨sr, hsr⟩ := s_real m ρ hpre c
  rw [(Inv.outs_inv (V1 (F := Ideal) m ρ) c 124 h124 (by decide)).2.1, hsr]
  exact tiles_den Inv.hN (by decide) (by decide) sr

include hpre in
/-- … and numerator `d` over the denominator is the pooled entry of column `d`. -/
theorem fin_pool (h124 : 124 < cfg0.N) (d : Fin 32) :
    Ideal.div (((outsAt0 (V1 (F := Ideal) m ρ) c 124 h124).2.2.2 : Vec Ideal S1x32 .f32) (ix2 0 d))
        (((outsAt0 (V1 (F := Ideal) m ρ) c 124 h124).2.2.1 : Vec Ideal S1x1 .f32) (ix2 0 0))
      = pooled (Inv.s (V1 (F := Ideal) m ρ) c) (Inv.col (V1 (F := Ideal) m ρ) c d) := by
  obtain ⟨sr, hsr⟩ := s_real m ρ hpre c
  obtain ⟨vr, hvr⟩ := col_real m ρ hpre c d
  rw [(Inv.outs_inv (V1 (F := Ideal) m ρ) c 124 h124 (by decide)).2.1, (Inv.outs_inv (V1 (F := Ideal) m ρ) c 124 h124 (by decide)).2.2 d, hsr, hvr]
  exact tiles_pool Inv.hN (by decide) (by decide) sr vr

include hpre in
/-- The kernel's weight of row `p`: the second region divides `exp (score - level)` by the denominator, row by row. -/
theorem alpha_kernel (p : Fin 1000000) :
    (W6 (F := Ideal) m ρ c (Proc.devRef .tc main_v8) : Vec Ideal S1x1000000 .f32) (ix2 (0 : Fin 1) p)
      = weight (Inv.s (V1 (F := Ideal) m ρ) c) p := by
  rw [Glue.W6_v8_apply m ρ c p, RunV.W3_v7 m ρ c, Final1.final1_3 (V2 (F := Ideal) m ρ) c p,
    RunV.V2_v6_0 m ρ c, RunV.V2_v6_1 m ρ c, RunV.V2_v6_2 m ρ c,
    Final.final0_7 (V1 (F := Ideal) m ρ) c p, Final.final0_8 (V1 (F := Ideal) m ρ) c, Final.final0_9 (V1 (F := Ideal) m ρ) c]
  rw [fin_level m ρ hpre c, fin_den m ρ hpre c]
  rfl

include hpre in
/-- The kernel's pooled entry `d`: numerator over denominator after the last tile. -/
theorem pooled_kernel (d : Fin 32) :
    Host.divf (F := Ideal) (φ := .f32) (W3 m ρ c (Proc.devRef .tc main_v6_3) : Vec Ideal S1x32 .f32)
        (broadcastInDim S1x32 ![0, 1] bcast_S1x1_S1x32_0_1 (W3 m ρ c (Proc.devRef .tc main_v6_2) : Vec Ideal S1x1 .f32)) (ix2 (0 : Fin 1) d)
      = pooled (Inv.s (V1 (F := Ideal) m ρ) c) (Inv.col (V1 (F := Ideal) m ρ) c d) := by
  rw [Glue.quot_apply, Glue.W3_acc m ρ c, Glue.W3_den m ρ c, Final.final0_10 (V1 (F := Ideal) m ρ) c, Final.final0_9 (V1 (F := Ideal) m ρ) c]
  exact fin_pool m ρ hpre c _ d

/-! ## Against the reference's run -/

section Same

open Cert.ReferenceIdeal.RefValue

variable (m' : (ℓ : Loc Cert.ReferenceIdeal.nD Cert.ReferenceIdeal.τ Cert.ReferenceIdeal.sig) → Buf (Elt Ideal) ℓ)
variable (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
  (h2 : m' ((c.tc : Thread Cert.ReferenceIdeal.nD Cert.ReferenceIdeal.τ).loc Cert.ReferenceIdeal.main_arg2) = m ((c.tc : Thread nD τ).loc main_arg2))
  (h3 : m' ((c.tc : Thread Cert.ReferenceIdeal.nD Cert.ReferenceIdeal.τ).loc Cert.ReferenceIdeal.main_arg3) = m ((c.tc : Thread nD τ).loc main_arg3))
  (h4 : m' ((c.tc : Thread Cert.ReferenceIdeal.nD Cert.ReferenceIdeal.τ).loc Cert.ReferenceIdeal.main_arg4) = m ((c.tc : Thread nD τ).loc main_arg4))
  (h5 : m' ((c.tc : Thread Cert.ReferenceIdeal.nD Cert.ReferenceIdeal.τ).loc Cert.ReferenceIdeal.main_arg5) = m ((c.tc : Thread nD τ).loc main_arg5))
  (h6 : m' ((c.tc : Thread Cert.ReferenceIdeal.nD Cert.ReferenceIdeal.τ).loc Cert.ReferenceIdeal.main_arg6) = m ((c.tc : Thread nD τ).loc main_arg6))
  (h7 : m' ((c.tc : Thread Cert.ReferenceIdeal.nD Cert.ReferenceIdeal.τ).loc Cert.ReferenceIdeal.main_arg7) = m ((c.tc : Thread nD τ).loc main_arg7))
  (h8 : m' ((c.tc : Thread Cert.ReferenceIdeal.nD Cert.ReferenceIdeal.τ).loc Cert.ReferenceIdeal.main_arg8) = m ((c.tc : Thread nD τ).loc main_arg8))
  (h9 : m' ((c.tc : Thread Cert.ReferenceIdeal.nD Cert.ReferenceIdeal.τ).loc Cert.ReferenceIdeal.main_arg9) = m ((c.tc : Thread nD τ).loc main_arg9))
  (h10 : m' ((c.tc : Thread Cert.ReferenceIdeal.nD Cert.ReferenceIdeal.τ).loc Cert.ReferenceIdeal.main_arg10) = m ((c.tc : Thread nD τ).loc main_arg10))
  (h11 : m' ((c.tc : Thread Cert.ReferenceIdeal.nD Cert.ReferenceIdeal.τ).loc Cert.ReferenceIdeal.main_arg11) = m ((c.tc : Thread nD τ).loc main_arg11))

include hpre h0 h2 h3 h4 h5 h6 h7 in
/-- The reference's softmax weights are the kernel's normalised scores. -/
theorem alpha_same : Cert.ReferenceIdeal.Value.res_main_v31 (F := Ideal) m' c = W6 (F := Ideal) m ρ c (Proc.devRef .tc main_v8) := by
  funext i
  obtain ⟨u, p, rfl⟩ : ∃ (u : Fin 1) (p : Fin 1000000), i = ix2 u p := ⟨i 0, i 1, eq_ix2 i⟩
  obtain rfl : u = 0 := Subsingleton.elim _ _
  rw [alpha_apply m' c p, h0, h2, h3, h4, h5, h6, h7, ← s_eq_score m ρ c]
  exact (alpha_kernel m ρ hpre c p).symm

include hpre h0 h1 h2 h3 h4 h5 h6 h7 h8 h9 h10 h11 in
/-- The reference's score is the kernel's: the pooled vectors agree entry by entry, and the dense layers after the pooling
    are one function of the pooled vector and the remaining arguments. -/
theorem score_same : Cert.ReferenceIdeal.Value.res_main_v40 (F := Ideal) m' c = W6 (F := Ideal) m ρ c (Proc.devRef .tc main_v18) := by
  rw [score_eq m' c, RunV.W6_v18 m ρ c, Glue.tail_eq, tail_same, h1, h8, h9, h10, h11]
  refine congrArg (fun B => tailR B _ _ _ _ _) ?_
  funext i
  obtain ⟨u, d, rfl⟩ : ∃ (u : Fin 1) (d : Fin 32), i = ix2 u d := ⟨i 0, i 1, eq_ix2 i⟩
  obtain rfl : u = 0 := Subsingleton.elim _ _
  rw [pooled_apply m' c d, h0, h2, h3, h4, h5, h6, h7, ← s_eq_score m ρ c, ← col_eq m ρ c d]
  exact (pooled_kernel m ρ hpre c d).symm

end Same

end Cert.Bridge

end
-- ==== Proof.lean ====
/-
  The certificate's five claims.

  The three frames: the two kernels' are the generated frame runs; the reference's is its run with the results dropped.
  The ideal pass rewrote nothing, so its claim is `True`. The value claim: at the extended reals, from memories that agree on
  the arguments and hold real numbers, the kernel's score and attention weights are the reference's — the kernel's run names
  its two result buffers at the end of @main, the reference's run names its two results, and the two pairs are equal because
  the online softmax over the 125 tiles of 8000 rows is the plain softmax over the million rows (Proof/Bridge.lean).
-/
import proofs.«117047_j15135464751637_2_alg».proof.Defs
import proofs.«117047_j15135464751637_2_alg».proof.Proof.Gen.Kernel
import proofs.«117047_j15135464751637_2_alg».proof.Proof.Gen.Kernel.Frame
import proofs.«117047_j15135464751637_2_alg».proof.Proof.Gen.KernelIdeal
import proofs.«117047_j15135464751637_2_alg».proof.Proof.Gen.KernelIdeal.Frame
import proofs.«117047_j15135464751637_2_alg».proof.Proof.Gen.ReferenceIdeal
import proofs.«117047_j15135464751637_2_alg».proof.Proof.Gen.Pre_finite_inputs
import proofs.«117047_j15135464751637_2_alg».proof.Proof.RefRun
import proofs.«117047_j15135464751637_2_alg».proof.Proof.KRun
import proofs.«117047_j15135464751637_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W6 m ρ c (Proc.devRef .tc Cert.KernelIdeal.main_v18),
    fun c => Cert.KernelIdeal.Gen.W6 m ρ c (Proc.devRef .tc Cert.KernelIdeal.main_v8),
    Cert.KernelIdeal.RunV.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    exact Cert.Bridge.score_same m ρ hpre c m' h0 h1 h2 h3 h4 h5 h6 h7 h8 h9 h10 h11
  · obtain ⟨h0, h1, h2, h3, h4, h5, h6, h7, h8, h9, h10, h11⟩ := hagree c
    exact Cert.Bridge.alpha_same m ρ hpre c m' h0 h2 h3 h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
